-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S4096x1 : Shape := ⟨2, ![4096, 1]⟩
abbrev S512x1024 : Shape := ⟨2, ![512, 1024]⟩
abbrev S512x1 : Shape := ⟨2, ![512, 1]⟩
abbrev S512x2048 : Shape := ⟨2, ![512, 2048]⟩
abbrev S1x2048 : Shape := ⟨2, ![1, 2048]⟩
abbrev S512 : Shape := ⟨1, ![512]⟩

abbrev nBuf : Space → Nat
  | .hbm => 30
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S4096x1024, .bf16⟩
  | .hbm, ⟨25, _⟩ => ⟨S4096x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bitsLt_bf16_f32 : FTy.bits .bf16 < FTy.bits .f32
  concatenates_S2048x1024_S2048x1024_S4096x1024_d0 : Shape.Concatenates [S2048x1024, S2048x1024] S4096x1024 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  reducesTo_S4096x1_S_d0_1 : S4096x1.ReducesTo [0, 1] S_
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x1024.size a
  hwx0_1 : ∀ i : grid0.Coords, EltTy.bits .bf16 = 32 ∨ (Rect.block (s := S4096x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v18) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩
abbrev S4096x2 : Shape := ⟨2, ![4096, 2]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S4096x1024, .f32⟩
  | .hbm, ⟨23, _⟩ => ⟨S1024x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S_, .i1⟩
  | .hbm, ⟨54, _⟩ => ⟨S4096, .i1⟩
  | .hbm, ⟨55, _⟩ => ⟨S4096, .i1⟩
  | .hbm, ⟨56, _⟩ => ⟨S4096, .i1⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x1, .i32⟩
  | .hbm, ⟨76, _⟩ => ⟨S4096x2, .i32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S4096, .i32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S4096, .i32⟩
  | .hbm, ⟨94, _⟩ => ⟨S4096x1, .i32⟩
  | .hbm, ⟨95, _⟩ => ⟨S4096x1, .i32⟩
  | .hbm, ⟨96, _⟩ => ⟨S4096x2, .i32⟩
  | .hbm, ⟨97, _⟩ => ⟨S4096, .f32⟩
  | .hbm, ⟨98, _⟩ => ⟨S4096, .f32⟩
  | .hbm, ⟨99, _⟩ => ⟨S4096, .f32⟩
  | .hbm, ⟨100, _⟩ => ⟨S_, .f32⟩
  | .hbm, ⟨101, _⟩ => ⟨S4096, .f32⟩
  | .hbm, ⟨102, _⟩ => ⟨S4096, .f32⟩
  | .hbm, ⟨103, _⟩ => ⟨S4096, .f32⟩
  | .hbm, ⟨104, _⟩ => ⟨S4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_c_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_13 : Ref sig .tc := ⟨.hbm, 87, rfl⟩
abbrev main_v50 : Ref sig .tc := ⟨.hbm, 88, rfl⟩
abbrev main_v51 : Ref sig .tc := ⟨.hbm, 89, rfl⟩
abbrev main_c_14 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_15 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_16 : Ref sig .tc := ⟨.hbm, 105, rfl⟩
abbrev main_v65 : Ref sig .tc := ⟨.hbm, 106, rfl⟩
abbrev main_cst_17 : Ref sig .tc := ⟨.hbm, 107, rfl⟩
abbrev main_v66 : Ref sig .tc := ⟨.hbm, 108, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  concatenates_S2048x1024_S2048x1024_S4096x1024_d0 : Shape.Concatenates [S2048x1024, S2048x1024] S4096x1024 0
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  concatenates_S4096x1_S4096x1_S4096x2_d1 : Shape.Concatenates [S4096x1, S4096x1] S4096x2 1
  reducesTo_S4096_S_d0 : S4096.ReducesTo [0] S_
  dot_S4096x1024_S1024x4096_S4096x4096_1_0_0_1_n_n_wf : DotDims.WF S4096x1024 S1024x4096 S4096x4096 [1] [0] [0] [1] [] []
  gather_S4096x4096_S4096x2_S4096_n_01_n_n_01_1_11_wf : GatherDims.WF S4096x4096 S4096x2 S4096 [] [0, 1] [] [0, 1] [] 1 ![1, 1]

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def gather_S4096x4096_S4096x2_S4096_n_01_n_n_01_1_11 : GatherDims S4096x4096 S4096x2 S4096 where
  offsetDims := []
  collapsedSliceDims := [0, 1]
  operandBatchingDims := []
  startIndicesBatchingDims := []
  startIndexMap := [0, 1]
  indexVectorDim := 1
  sliceSizes := ![1, 1]
  wf := gather_S4096x4096_S4096x2_S4096_n_01_n_n_01_1_11_wf

class Facts : Prop extends Facts₀ where

variable [Facts]
-- ==== Proof.BBase.lean ====
/-
  The kernel's region, the parts every later module shares: a window's block at a grid point read off the array the
  region finds; the two branch conditions of the body as functions of the grid point, decided over the sixteen points
  (the grid is 8 row blocks by 2 column blocks, the column block the fast coordinate: the accumulators are reset where
  the column block is 0 and the output is stored where it is 1); where the output window is idle; the staging and
  scratch memrefs by name; the region's invariant as the two scratch buffers and the generator register.
-/
import proofs.«103263_j83167746719846_2_alg».proof.Proof.Gen.Kernel.Launch
import proofs.«103263_j83167746719846_2_alg».proof.Proof.Gen.Kernel.Skeleton
import proofs.«103263_j83167746719846_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-block window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Region

/-! ## The body's branch conditions -/

/-- "The column block is 0": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "The column block is 1": the output is stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem liveAt0_2_B : ∀ t : Fin cfg0.N, ¬cond0_0 (grid0.coords t) → cond0_1 (grid0.coords t) → cfg0.idle 2 (grid0.coords t) = false := by decide +kernel

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The two accumulators: the row sums off the diagonal, and the partner's term. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view
abbrev VO0_2 : View sig .tc .vmem S512x1 .f32 := (Memref.whole cc0_stg2_0 : Memref sig .tc .vmem S512x1 .f32).view

/-- The region's invariant before the first point: both accumulators at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.KB

end
-- ==== Proof.BRunA.lean ====
/-
  The kernel body run once where the column block is 0: both accumulators are reset to zero and then each receives
  its tile's row sums; nothing is stored into the output block, which is handed back as found.  The pieces each
  accumulator ends with are what the run finds.
-/
import proofs.«103263_j83167746719846_2_alg».proof.Proof.BBase

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs, the two input blocks at their contents, the output block at `xi` (left untouched), the
    accumulators at anything: it runs to the continuation with the inputs and the output block as they were and each
    accumulator with its pieces written. -/
noncomputable def kernelRun0_A (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x1024 .bf16) (x1 : Vec F S2048x1024 .bf16) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__simclr_kernel i arg2 harg2 arg3 harg3 arg4 harg4 arg5 harg5 arg6 harg6) K } := by
  refine ⟨?_, ?_, fun xi2 E K => ?run⟩
  case run =>
    simp only [cc0__simclr_kernel_eq_skeleton]; unfold cc0__simclr_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.KB

end
-- ==== Proof.BRunB.lean ====
/-
  The kernel body run once where the column block is 1: the accumulators, found at what the point before left, each
  receive their tile's row sums, and the output block is stored: 0 − log(partner term / off-diagonal sum + ε), row by
  row.  The pieces each buffer ends with are what the run finds.
-/
import proofs.«103263_j83167746719846_2_alg».proof.Proof.BRunA

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs, the two input blocks at their contents, the output block at anything, the accumulators at
    `xs0`, `xs1`: it runs to the continuation with the inputs as they were and the output block and each accumulator
    with its pieces written. -/
noncomputable def kernelRun0_B (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x1024 .bf16) (x1 : Vec F S2048x1024 .bf16) (xs0 xs1 : Vec F S512x1 .f32) :
    Σ' (L2 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__simclr_kernel i arg2 harg2 arg3 harg3 arg4 harg4 arg5 harg5 arg6 harg6) K } := by
  refine ⟨?_, ?_, ?_, fun E K => ?run⟩
  case run =>
    simp only [cc0__simclr_kernel_eq_skeleton]; unfold cc0__simclr_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.KB

end
-- ==== Proof.BDat.lean ====
/-
  What the accumulators and the output block hold after each grid point, and the body obligation.

  Where the column block is 0 the accumulators are reset and receive the first tile's row sums; where it is 1 they are
  found as the point before left them, receive the second tile's row sums, and the output block is stored from them.
  The accumulators are the kernel's own scratch buffers: what they hold after each point is carried in the region's
  invariant.  The output block is idle (handed back untouched, not written back) where the column block is 0.
-/
import proofs.«103263_j83167746719846_2_alg».proof.Proof.BRunB

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves, as its pieces read back -/

theorem scover0_A_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) (y : S512x1.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x1.size (by sl_kernel_rfl) y
theorem scover0_A_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) (y : S512x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S512x1.size (by sl_kernel_rfl) y

/-- What the first-column case leaves in the off-diagonal accumulator. -/
def sout0_A_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) : Vec F S512x1 .f32 :=
  VS0_0.read (Elt F) (VS0_0.writes (Elt F) VS0_0.junk (kernelRun0_A c i arg2 harg2 arg3 harg3 arg4 harg4 arg5 harg5 arg6 harg6 hc0 hc1 x0 x1).1)
/-- What the first-column case leaves in the partner accumulator. -/
def sout0_A_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) : Vec F S512x1 .f32 :=
  VS0_1.read (Elt F) (VS0_1.writes (Elt F) VS0_1.junk (kernelRun0_A c i arg2 harg2 arg3 harg3 arg4 harg4 arg5 harg5 arg6 harg6 hc0 hc1 x0 x1).2.1)

theorem cover0_B_2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) (y : S512x1.Idx) :
    ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S512x1.size (by sl_kernel_rfl) y
theorem scover0_B_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) (y : S512x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S512x1.size (by sl_kernel_rfl) y
theorem scover0_B_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) (y : S512x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S512x1.size (by sl_kernel_rfl) y

/-- What the second-column case stores into the output block. -/
def out0_B_2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) : Vec F S512x1 .f32 :=
  VO0_2.read (Elt F) (VO0_2.writes (Elt F) VO0_2.junk (kernelRun0_B c i arg2 harg2 arg3 harg3 arg4 harg4 arg5 harg5 arg6 harg6 hc0 hc1 x0 x1 xs0 xs1).1)
/-- What the second-column case leaves in the off-diagonal accumulator. -/
def sout0_B_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) : Vec F S512x1 .f32 :=
  VS0_0.read (Elt F) (VS0_0.writes (Elt F) VS0_0.junk (kernelRun0_B c i arg2 harg2 arg3 harg3 arg4 harg4 arg5 harg5 arg6 harg6 hc0 hc1 x0 x1 xs0 xs1).2.1)
/-- What the second-column case leaves in the partner accumulator. -/
def sout0_B_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) : Vec F S512x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- A placeholder for the output block's contents at a point that stores nothing into it (nothing consults it). -/
def outIdle : Vec F S512x1 .f32 := VO0_2.read (Elt F) (VO0_2.writes (Elt F) VO0_2.junk [])

/-! ## After each point -/

/-- The output block, the off-diagonal accumulator and the partner accumulator after the body at position `n`. -/
def outsAt0 (c : Dev nD) : (n : ℕ) → n < cfg0.N → Vec F S512x1 .f32 × Vec F S512x1 .f32 × Vec F S512x1 .f32
  | 0, hn => (outIdle,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 2 = 0 then
      (outIdle,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only); omega)) (iblk V c 0 ⟨n + 1, hn⟩) (iblk V c 1 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only); omega)) (iblk V c 0 ⟨n + 1, hn⟩) (iblk V c 1 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only); omega)) (iblk V c 0 ⟨n + 1, hn⟩) (iblk V c 1 ⟨n + 1, hn⟩) (outsAt0 c n (Nat.lt_of_succ_lt hn)).2.1 (outsAt0 c n (Nat.lt_of_succ_lt hn)).2.2)

/-- At a point of the first column: that case's contents. -/
theorem outsAt0_A (c : Dev nD) (t : Fin cfg0.N) (h0 : t.val % 2 = 0) (h1 : ¬t.val % 2 = 1) :
    outsAt0 V c t.val t.isLt = (outIdle,
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact (dif_pos h0).trans rfl

/-- At a point of the second column: that case's contents, over what the point before left. -/
theorem outsAt0_B (c : Dev nD) (t : Fin cfg0.N) (h0 : ¬t.val % 2 = 0) (h1 : t.val % 2 = 1) :
    outsAt0 V c t.val t.isLt = (
      out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point both accumulators at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ (∃ r, prngReg c r)) := by
  cases n with
  | zero => exact absurd rfl hz
  | succ n => rfl

/-! ## The proof data -/

/-- The arrays as the region finds them; after the body each input block in place and the output block at `outsAt0`;
    the two input windows read one array, each holding half of it; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d

end Region

end Cert.Kernel.KB

end
-- ==== Proof.BBodyOb.lean ====
/-
  The body obligation: at every grid point the body, called on the windows' current staging buffers and the two
  accumulators as the invariant holds them, leaves the input blocks in place, the accumulators at the next point's
  contents and the output block stored (second column) or untouched (first column).
-/
import proofs.«103263_j83167746719846_2_alg».proof.Proof.BDat

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 2 = 0
  · have h1 : ¬t.val % 2 = 1 := by omega
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0 sout0_A_1; (try dsimp only)
    by_cases hz : t.val = 0
    · rw [PhiS_castSucc V c t, PhiS_zero V c _ _ hz, PhiA0_eq]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk V c 0 t) (iblk V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk V c 0 t) (iblk V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        iexact Hg
      isplitl [Ho]; · iexact Ho
      isplitl [H0]; · iexact H0
      isplitl [H1]; · iexact H1
      iexists _; iexact H2
  · have h1 : t.val % 2 = 1 := by omega
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [outsAt0_B V c t h0 h1]
    unfold out0_B_2 sout0_B_0 sout0_B_1; (try dsimp only)
    have hz : t.val ≠ 0 := by omega
    rw [PhiS_castSucc V c t, PhiS_pos V c _ _ hz]
    iintro ⟨⟨⟨HS0, HS1⟩, Hg⟩, Ho, ⟨%d0, H0⟩, ⟨%d1, H1⟩, ⟨%d2, H2⟩⟩
    iapply ((kernelRun0_B c (grid0.coords t) _ _ _ _ _ _ _ _ _ _ (fun h => h0 ((hcond0_0 t).mp h)) ((hcond0_1 t).mpr h1) (iblk V c 0 t) (iblk V c 1 t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulators' contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dat0 V c).Φ (Fin.last cfg0.N) ⊢ Pipeline.ΦA spec0 c :=
  Phi_out V c _ (by rw [Fin.val_last]; have : cfg0.N = 16 := N_0; omega)

end Region

end Cert.Kernel.KB

end
-- ==== Proof.BArrays.lean ====
/-
  The two input windows read ONE array (the stacked normalised rows), each through its own half of the array's
  points-to; the output window holds its array outright.  So the buffers behind the windows' arrays, each whole at the
  full share, are exactly the proof data's three arrays at the same contents — the shared array split in two halves on
  entry and joined again on exit.
-/
import proofs.«103263_j83167746719846_2_alg».proof.Proof.BDat

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the three windows' arrays. -/
theorem imgArr : Finset.univ.image (Pipeline.arrRef spec0) = ({main_v18, main_v19} : Finset (Ref sig .tc)) := by decide

theorem share0 (c : Dev nD) : (dat0 V c).share 0 = fullShare.left := rfl
theorem share1 (c : Dev nD) : (dat0 V c).share 1 = fullShare.right := rfl
theorem share2 (c : Dev nD) : (dat0 V c).share 2 = fullShare := rfl

/-- The proof data's arrays, window by window, over plain points-tos. -/
theorem arrays_eq3 (c : Dev nD) (F' : (w : Fin cfg0.W) → Buf (Elt F) ((cfg0.win w).arr.view.loc (c.tc : Thread nD τ))) :
    ((dat0 V c).arrays F' : sProp 𝕄)
      = iprop((((c.tc : Thread nD τ).loc main_v18) ↦{fullShare.left} F' 0) ∗ (((c.tc : Thread nD τ).loc main_v18) ↦{fullShare.right} F' 1)
          ∗ (((c.tc : Thread nD τ).loc main_v19) ↦{fullShare} F' 2)) := by
  unfold Dat.arrays
  rw [bigSep_W0]
  rw [(arr_whole0 0).set_eq_univ, (arr_whole0 2).set_eq_univ, share0, share1, share2]

/-- The buffers behind the arrays, over plain points-tos. -/
theorem arrBufs_eq2 (c : Dev nD) (Vf : (b : Ref sig .tc) → Buf (Elt F) ((c.tc : Thread nD τ).loc b)) :
    (Pipeline.arrBufs (Ix := Unit) (Name := ℕ) (U := UR sig nD τ) (Lvl := ℕ) spec0 c Vf : sProp 𝕄)
      = iprop((((c.tc : Thread nD τ).loc main_v18) ↦{fullShare} Vf main_v18) ∗ (((c.tc : Thread nD τ).loc main_v19) ↦{fullShare} Vf main_v19)) := by
  unfold Pipeline.arrBufs
  rw [imgArr, bigSep_insert (by decide), bigSep_singleton]
  rfl

/-- ENTRY: the shared array split in its two halves. -/
theorem arrays_of_arrBufs (c : Dev nD) (Vf : (b : Ref sig .tc) → Buf (Elt F) ((c.tc : Thread nD τ).loc b))
    (F' : (w : Fin cfg0.W) → Buf (Elt F) ((cfg0.win w).arr.view.loc (c.tc : Thread nD τ)))
    (h0 : F' 0 = Vf main_v18) (h1 : F' 1 = Vf main_v18) (h2 : F' 2 = Vf main_v19) :
    (Pipeline.arrBufs (Ix := Unit) (Name := ℕ) (U := UR sig nD τ) (Lvl := ℕ) spec0 c Vf : sProp 𝕄) ⊢ (dat0 V c).arrays F' := by
  rw [arrays_eq3, arrBufs_eq2, h0, h1, h2]
  iintro ⟨H18, H19⟩
  ihave H := (pointsTo_share (PosShare.mem_left_op_right fullShare)).1 $$ H18
  icases H with ⟨Hl, Hr⟩
  isplitl [Hl]; · iexact Hl
  isplitl [Hr]; · iexact Hr
  iexact H19

/-- EXIT: the two halves joined. -/
theorem arrBufs_of_arrays (c : Dev nD) (Vf : (b : Ref sig .tc) → Buf (Elt F) ((c.tc : Thread nD τ).loc b))
    (F' : (w : Fin cfg0.W) → Buf (Elt F) ((cfg0.win w).arr.view.loc (c.tc : Thread nD τ)))
    (h0 : F' 0 = Vf main_v18) (h1 : F' 1 = Vf main_v18) (h2 : F' 2 = Vf main_v19) :
    ((dat0 V c).arrays F' : sProp 𝕄) ⊢ Pipeline.arrBufs (Ix := Unit) (Name := ℕ) (U := UR sig nD τ) (Lvl := ℕ) spec0 c Vf := by
  rw [arrays_eq3, arrBufs_eq2, h0, h1, h2]
  iintro ⟨Hl, Hr, H19⟩
  isplitl [Hl Hr]
  · iapply (pointsTo_share (PosShare.mem_left_op_right fullShare)).2
    isplitl [Hl]; · iexact Hl
    iexact Hr
  iexact H19

end Region

end Cert.Kernel.KB

end
-- ==== Proof.BSegs.lean ====
/-
  The kernel program's run: the host operations that normalise and stack the rows, the region, the host operations
  that average the row losses.  The buffer contents at each boundary are a fold from the launch memory; the region
  changes only the output array (the two input windows read the stacked rows and leave them as found).  Every weakly
  fair execution terminates, and at the end every unscoped buffer holds what the fold says.
-/
import proofs.«103263_j83167746719846_2_alg».proof.Proof.BBodyOb
import proofs.«103263_j83167746719846_2_alg».proof.Proof.BArrays

set_option maxRecDepth 16384

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v19) ((dat0 (V1 m ρ) c).arrAt 2 cfg0.N)
theorem W2_out (c : Dev nD) : W2 m ρ c (Proc.devRef .tc main_v19) = (dat0 (V1 m ρ) c).arrAt 2 cfg0.N := by
  unfold W2; exact Function.update_self ..
theorem W2_of_ne (c : Dev nD) (b : Ref sig .tc) (hb : b ≠ main_v19) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After the host operations after the region. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

/-- The arrays' entry contents are the region-entry buffers'. -/
theorem arrAt0 (c : Dev nD) (w : Fin cfg0.W) : (dat0 (V1 m ρ) c).arrAt w 0 = V1 m ρ c (Pipeline.arrRef spec0 w) := A_eq (V1 m ρ) c w

/-- The arrays' final contents are the region-exit buffers'. -/
theorem arrAtN_0 (c : Dev nD) : (dat0 (V1 m ρ) c).arrAt 0 cfg0.N = V2 m ρ c main_v18 :=
  (((dat0 (V1 m ρ) c).arrAt_in 0 rfl _).trans (A_eq (V1 m ρ) c 0)).trans (W2_of_ne m ρ c main_v18 (by decide)).symm
theorem arrAtN_1 (c : Dev nD) : (dat0 (V1 m ρ) c).arrAt 1 cfg0.N = V2 m ρ c main_v18 :=
  (((dat0 (V1 m ρ) c).arrAt_in 1 rfl _).trans (A_eq (V1 m ρ) c 1)).trans (W2_of_ne m ρ c main_v18 (by decide)).symm
theorem arrAtN_2 (c : Dev nD) : (dat0 (V1 m ρ) c).arrAt 2 cfg0.N = V2 m ρ c main_v19 := (W2_out m ρ c).symm

/-- Off the windows' arrays the exit contents are the entry contents. -/
theorem rest_eq (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hne : b ≠ main_v19 := fun e => (Finset.mem_sdiff.mp hb).2 (Finset.mem_image.mpr ⟨2, Finset.mem_univ _, e.symm ▸ rfl⟩)
  rw [show V2 m ρ c b = V1 m ρ c b from W2_of_ne m ρ c b hne]

set_option backward.isDefEq.respectTransparency.types false in
/-- ENTRY: the unscoped buffers at the entry contents are the three arrays (the shared one in its two halves) and the rest. -/
theorem entry_split (c : Dev nD) :
    (StableHlo.held (c : Thread nD τ) (Pipeline.ucRefs τ sig) (W1 m ρ c) : sProp 𝕄)
      ⊢ iprop((pdats m ρ 0 c).arrays (fun w => (pdats m ρ 0 c).arrAt w 0) ∗ Pipeline.unscopedRest spec0 c (V1 m ρ c)) := by
  have hsplit := Pipeline.unscopedBufs_split₀ (Ix := Unit) (Name := ℕ) (U := UR sig nD τ) (Lvl := ℕ) (cfgs) (0 : Fin 1) winFacts₀0.arr_unscoped c (V1 m ρ c)
  rw [Pipeline.unscopedBufs_held] at hsplit
  rw [hsplit]
  exact sep_mono (arrays_of_arrBufs (V1 m ρ) c (V1 m ρ c) ((dat0 (V1 m ρ) c).arrAt · 0) (arrAt0 m ρ c 0) (arrAt0 m ρ c 1) (arrAt0 m ρ c 2)) .rfl

set_option backward.isDefEq.respectTransparency.types false in
/-- EXIT: the three arrays at their final contents and the rest are the unscoped buffers at the exit contents. -/
theorem exit_join (c : Dev nD) :
    iprop((pdats m ρ 0 c).arrays (fun w => (pdats m ρ 0 c).arrAt w (Pipeline.pin (pcfgs (F := F)) adm 0).N) ∗ Pipeline.unscopedRest spec0 c (V1 m ρ c))
      ⊢ (StableHlo.held (c : Thread nD τ) (Pipeline.ucRefs τ sig) (W2 m ρ c) : sProp 𝕄) := by
  have hsplit := Pipeline.unscopedBufs_split₀ (Ix := Unit) (Name := ℕ) (U := UR sig nD τ) (Lvl := ℕ) (cfgs) (0 : Fin 1) winFacts₀0.arr_unscoped c (V2 m ρ c)
  rw [Pipeline.unscopedBufs_held, rest_eq] at hsplit
  rw [hsplit]
  exact sep_mono (arrBufs_of_arrays (V1 m ρ) c (V2 m ρ c) ((dat0 (V1 m ρ) c).arrAt · cfg0.N) (arrAtN_0 m ρ c) (arrAtN_1 m ρ c) (arrAtN_2 m ρ c)) .rfl

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (Ix := Unit) (Name := ℕ) (U := UR sig nD τ) (Lvl := ℕ) (pcfgs (F := F) 0).pre c (fun _ => fullShare) (adm (F := F) 0).1
          ∗ Pipeline.scopedRest (Ix := Unit) (Name := ℕ) (U := UR sig nD τ) (Lvl := ℕ) spec0 c) ⊢ (Pipeline.ΦA spec0 c : sProp 𝕄) := by
      unfold Pipeline.ΦA
      iintro ⟨Hp, -, Hr⟩
      isplitl [Hr]; · iexact Hr
      iexact Hp
    exact h.trans (hin (V1 m ρ) c)
  hout c := by
    rw [Pipeline.ownSems0_none]
    have h : (Pipeline.ΦA spec0 c : sProp 𝕄) ⊢ iprop((∃ r, prngReg c r) ∗ emp
          ∗ Pipeline.scopedRest (Ix := Unit) (Name := ℕ) (U := UR sig nD τ) (Lvl := ℕ) spec0 c) := by
      unfold Pipeline.ΦA
      iintro ⟨Hr, Hp⟩
      isplitl [Hp]; · iexact Hp
      isplitr; · iempintro
      iexact Hr
    exact (hout (V1 m ρ) c).trans h
  hexit c := by
    iintro ⟨Ha, HO, HY, Hrest⟩
    imodintro
    isplitl [Ha Hrest]
    · iapply (exit_join m ρ c); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- Every weakly fair execution of the program terminates, nothing faulting, and at the end every unscoped buffer of
    every core holds what the fold through the three segments says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.KB

end
-- ==== Proof.BHostArgs.lean ====
/-
  The kernel program's arguments end as launched.  The host operations before and after the region write only their
  own result buffers, none of them an argument; the region changes only the output array.  So the fold of buffer
  contents, read at an argument's buffer, walks back to the launch memory.
-/
import proofs.«103263_j83167746719846_2_alg».proof.Proof.BSegs
import Idealize.ShloMosaic.Lib.StableHlo.Run

set_option maxRecDepth 16384

noncomputable section

namespace Cert.Kernel.KB

open Cert.Kernel Cert.Kernel.Gen
open Idealize.ShloMosaic Idealize.ShloMosaic.TcCoe
open Idealize.SL.Sem

variable {F : FTy → Type} [FloatOps F]

/-- The operations before the region write neither argument: the first argument's buffer is as they found it. -/
theorem hostOps0_main_arg0 (W : Valuation τ sig (Elt F)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- The second argument's buffer is as the operations before the region found it. -/
theorem hostOps0_main_arg1 (W : Valuation τ sig (Elt F)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- The operations after the region write neither argument. -/
theorem hostOps1_main_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

theorem hostOps1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

variable (m : (ℓ : Loc nD τ sig) → Buf (Elt F) ℓ) (ρ : Dev nD → PrngReg)

/-- At the end the first argument's buffer holds what it held at launch: neither stretch of host operations writes
    it, and the region changes only the output array. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps1_main_arg0 _
    _ = W1 m ρ c (Proc.devRef .tc main_arg0) := W2_of_ne m ρ c main_arg0 (by decide)
    _ = W0 m ρ c (Proc.devRef .tc main_arg0) := hostOps0_main_arg0 _
    _ = m ((c : Thread nD τ).loc main_arg0) := rfl

/-- At the end the second argument's buffer holds what it held at launch. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := hostOps1_main_arg1 _
    _ = W1 m ρ c (Proc.devRef .tc main_arg1) := W2_of_ne m ρ c main_arg1 (by decide)
    _ = W0 m ρ c (Proc.devRef .tc main_arg1) := hostOps0_main_arg1 _
    _ = m ((c : Thread nD τ).loc main_arg1) := rfl

end Cert.Kernel.KB

end
-- ==== Proof.KBase.lean ====
/-
  The kernel's region, the parts every later module shares: a window's block at a grid point read off the array the
  region finds; the two branch conditions of the body as functions of the grid point, decided over the sixteen points
  (the grid is 8 row blocks by 2 column blocks, the column block the fast coordinate: the accumulators are reset where
  the column block is 0 and the output is stored where it is 1); where the output window is idle; the staging and
  scratch memrefs by name; the region's invariant as the two scratch buffers and the generator register.
-/
import proofs.«103263_j83167746719846_2_alg».proof.Proof.Gen.KernelIdeal.Launch
import proofs.«103263_j83167746719846_2_alg».proof.Proof.Gen.KernelIdeal.Skeleton
import proofs.«103263_j83167746719846_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-block window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Region

/-! ## The body's branch conditions -/

/-- "The column block is 0": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "The column block is 1": the output is stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem liveAt0_2_B : ∀ t : Fin cfg0.N, ¬cond0_0 (grid0.coords t) → cond0_1 (grid0.coords t) → cfg0.idle 2 (grid0.coords t) = false := by decide +kernel

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The two accumulators: the row sums off the diagonal, and the partner's term. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view
abbrev VO0_2 : View sig .tc .vmem S512x1 .f32 := (Memref.whole cc0_stg2_0 : Memref sig .tc .vmem S512x1 .f32).view

/-- The region's invariant before the first point: both accumulators at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.KB

end
-- ==== Proof.KRunA.lean ====
/-
  The kernel body run once where the column block is 0: both accumulators are reset to zero and then each receives
  its tile's row sums; nothing is stored into the output block, which is handed back as found.  The pieces each
  accumulator ends with are what the run finds.
-/
import proofs.«103263_j83167746719846_2_alg».proof.Proof.KBase

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body on whole memrefs, the two input blocks at their contents, the output block at `xi` (left untouched), the
    accumulators at anything: it runs to the continuation with the inputs and the output block as they were and each
    accumulator with its pieces written. -/
noncomputable def kernelRun0_A (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x1024 .bf16) (x1 : Vec F S2048x1024 .bf16) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__simclr_kernel i arg2 harg2 arg3 harg3 arg4 harg4 arg5 harg5 arg6 harg6) K } := by
  refine ⟨?_, ?_, fun xi2 E K => ?run⟩
  case run =>
    simp only [cc0__simclr_kernel_eq_skeleton]; unfold cc0__simclr_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.KB

end
-- ==== Proof.KRunB.lean ====
/-
  The kernel body run once where the column block is 1: the accumulators, found at what the point before left, each
  receive their tile's row sums, and the output block is stored: 0 − log(partner term / off-diagonal sum + ε), row by
  row.  The pieces each buffer ends with are what the run finds.
-/
import proofs.«103263_j83167746719846_2_alg».proof.Proof.KRunA

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body on whole memrefs, the two input blocks at their contents, the output block at anything, the accumulators at
    `xs0`, `xs1`: it runs to the continuation with the inputs as they were and the output block and each accumulator
    with its pieces written. -/
noncomputable def kernelRun0_B (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x1024 .bf16) (x1 : Vec F S2048x1024 .bf16) (xs0 xs1 : Vec F S512x1 .f32) :
    Σ' (L2 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__simclr_kernel i arg2 harg2 arg3 harg3 arg4 harg4 arg5 harg5 arg6 harg6) K } := by
  refine ⟨?_, ?_, ?_, fun E K => ?run⟩
  case run =>
    simp only [cc0__simclr_kernel_eq_skeleton]; unfold cc0__simclr_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.KB

end
-- ==== Proof.KDat.lean ====
/-
  What the accumulators and the output block hold after each grid point, and the body obligation.

  Where the column block is 0 the accumulators are reset and receive the first tile's row sums; where it is 1 they are
  found as the point before left them, receive the second tile's row sums, and the output block is stored from them.
  The accumulators are the kernel's own scratch buffers: what they hold after each point is carried in the region's
  invariant.  The output block is idle (handed back untouched, not written back) where the column block is 0.
-/
import proofs.«103263_j83167746719846_2_alg».proof.Proof.KRunB

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## What each case leaves, as its pieces read back -/

theorem scover0_A_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) (y : S512x1.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x1.size (by sl_kernel_rfl) y
theorem scover0_A_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) (y : S512x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S512x1.size (by sl_kernel_rfl) y

/-- What the first-column case leaves in the off-diagonal accumulator. -/
def sout0_A_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) : Vec F S512x1 .f32 :=
  VS0_0.read (Elt F) (VS0_0.writes (Elt F) VS0_0.junk (kernelRun0_A c i arg2 harg2 arg3 harg3 arg4 harg4 arg5 harg5 arg6 harg6 hc0 hc1 x0 x1).1)
/-- What the first-column case leaves in the partner accumulator. -/
def sout0_A_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) : Vec F S512x1 .f32 :=
  VS0_1.read (Elt F) (VS0_1.writes (Elt F) VS0_1.junk (kernelRun0_A c i arg2 harg2 arg3 harg3 arg4 harg4 arg5 harg5 arg6 harg6 hc0 hc1 x0 x1).2.1)

theorem cover0_B_2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) (y : S512x1.Idx) :
    ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S512x1.size (by sl_kernel_rfl) y
theorem scover0_B_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) (y : S512x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S512x1.size (by sl_kernel_rfl) y
theorem scover0_B_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) (y : S512x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S512x1.size (by sl_kernel_rfl) y

/-- What the second-column case stores into the output block. -/
def out0_B_2 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) : Vec F S512x1 .f32 :=
  VO0_2.read (Elt F) (VO0_2.writes (Elt F) VO0_2.junk (kernelRun0_B c i arg2 harg2 arg3 harg3 arg4 harg4 arg5 harg5 arg6 harg6 hc0 hc1 x0 x1 xs0 xs1).1)
/-- What the second-column case leaves in the off-diagonal accumulator. -/
def sout0_B_0 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) : Vec F S512x1 .f32 :=
  VS0_0.read (Elt F) (VS0_0.writes (Elt F) VS0_0.junk (kernelRun0_B c i arg2 harg2 arg3 harg3 arg4 harg4 arg5 harg5 arg6 harg6 hc0 hc1 x0 x1 xs0 xs1).2.1)
/-- What the second-column case leaves in the partner accumulator. -/
def sout0_B_1 (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) : Vec F S512x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- A placeholder for the output block's contents at a point that stores nothing into it (nothing consults it). -/
def outIdle : Vec F S512x1 .f32 := VO0_2.read (Elt F) (VO0_2.writes (Elt F) VO0_2.junk [])

/-! ## After each point -/

/-- The output block, the off-diagonal accumulator and the partner accumulator after the body at position `n`. -/
def outsAt0 (c : Dev nD) : (n : ℕ) → n < cfg0.N → Vec F S512x1 .f32 × Vec F S512x1 .f32 × Vec F S512x1 .f32
  | 0, hn => (outIdle,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 2 = 0 then
      (outIdle,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only); omega)) (iblk V c 0 ⟨n + 1, hn⟩) (iblk V c 1 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only); omega)) (iblk V c 0 ⟨n + 1, hn⟩) (iblk V c 1 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only); omega)) (iblk V c 0 ⟨n + 1, hn⟩) (iblk V c 1 ⟨n + 1, hn⟩) (outsAt0 c n (Nat.lt_of_succ_lt hn)).2.1 (outsAt0 c n (Nat.lt_of_succ_lt hn)).2.2)

/-- At a point of the first column: that case's contents. -/
theorem outsAt0_A (c : Dev nD) (t : Fin cfg0.N) (h0 : t.val % 2 = 0) (h1 : ¬t.val % 2 = 1) :
    outsAt0 V c t.val t.isLt = (outIdle,
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact (dif_pos h0).trans rfl

/-- At a point of the second column: that case's contents, over what the point before left. -/
theorem outsAt0_B (c : Dev nD) (t : Fin cfg0.N) (h0 : ¬t.val % 2 = 0) (h1 : t.val % 2 = 1) :
    outsAt0 V c t.val t.isLt = (
      out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point both accumulators at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2)) ∗ (∃ r, prngReg c r)) := by
  cases n with
  | zero => exact absurd rfl hz
  | succ n => rfl

/-! ## The proof data -/

/-- The arrays as the region finds them; after the body each input block in place and the output block at `outsAt0`;
    the two input windows read one array, each holding half of it; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d

end Region

end Cert.KernelIdeal.KB

end
-- ==== Proof.KBodyOb.lean ====
/-
  The body obligation: at every grid point the body, called on the windows' current staging buffers and the two
  accumulators as the invariant holds them, leaves the input blocks in place, the accumulators at the next point's
  contents and the output block stored (second column) or untouched (first column).
-/
import proofs.«103263_j83167746719846_2_alg».proof.Proof.KDat

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 2 = 0
  · have h1 : ¬t.val % 2 = 1 := by omega
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0 sout0_A_1; (try dsimp only)
    by_cases hz : t.val = 0
    · rw [PhiS_castSucc V c t, PhiS_zero V c _ _ hz, PhiA0_eq]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk V c 0 t) (iblk V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk V c 0 t) (iblk V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        iexact Hg
      isplitl [Ho]; · iexact Ho
      isplitl [H0]; · iexact H0
      isplitl [H1]; · iexact H1
      iexists _; iexact H2
  · have h1 : t.val % 2 = 1 := by omega
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [outsAt0_B V c t h0 h1]
    unfold out0_B_2 sout0_B_0 sout0_B_1; (try dsimp only)
    have hz : t.val ≠ 0 := by omega
    rw [PhiS_castSucc V c t, PhiS_pos V c _ _ hz]
    iintro ⟨⟨⟨HS0, HS1⟩, Hg⟩, Ho, ⟨%d0, H0⟩, ⟨%d1, H1⟩, ⟨%d2, H2⟩⟩
    iapply ((kernelRun0_B c (grid0.coords t) _ _ _ _ _ _ _ _ _ _ (fun h => h0 ((hcond0_0 t).mp h)) ((hcond0_1 t).mpr h1) (iblk V c 0 t) (iblk V c 1 t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulators' contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dat0 V c).Φ (Fin.last cfg0.N) ⊢ Pipeline.ΦA spec0 c :=
  Phi_out V c _ (by rw [Fin.val_last]; have : cfg0.N = 16 := N_0; omega)

end Region

end Cert.KernelIdeal.KB

end
-- ==== Proof.KArrays.lean ====
/-
  The two input windows read ONE array (the stacked normalised rows), each through its own half of the array's
  points-to; the output window holds its array outright.  So the buffers behind the windows' arrays, each whole at the
  full share, are exactly the proof data's three arrays at the same contents — the shared array split in two halves on
  entry and joined again on exit.
-/
import proofs.«103263_j83167746719846_2_alg».proof.Proof.KDat

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- The distinct buffers behind the three windows' arrays. -/
theorem imgArr : Finset.univ.image (Pipeline.arrRef spec0) = ({main_v18, main_v19} : Finset (Ref sig .tc)) := by decide

theorem share0 (c : Dev nD) : (dat0 V c).share 0 = fullShare.left := rfl
theorem share1 (c : Dev nD) : (dat0 V c).share 1 = fullShare.right := rfl
theorem share2 (c : Dev nD) : (dat0 V c).share 2 = fullShare := rfl

/-- The proof data's arrays, window by window, over plain points-tos. -/
theorem arrays_eq3 (c : Dev nD) (F' : (w : Fin cfg0.W) → Buf (Elt F) ((cfg0.win w).arr.view.loc (c.tc : Thread nD τ))) :
    ((dat0 V c).arrays F' : sProp 𝕄)
      = iprop((((c.tc : Thread nD τ).loc main_v18) ↦{fullShare.left} F' 0) ∗ (((c.tc : Thread nD τ).loc main_v18) ↦{fullShare.right} F' 1)
          ∗ (((c.tc : Thread nD τ).loc main_v19) ↦{fullShare} F' 2)) := by
  unfold Dat.arrays
  rw [bigSep_W0]
  rw [(arr_whole0 0).set_eq_univ, (arr_whole0 2).set_eq_univ, share0, share1, share2]

/-- The buffers behind the arrays, over plain points-tos. -/
theorem arrBufs_eq2 (c : Dev nD) (Vf : (b : Ref sig .tc) → Buf (Elt F) ((c.tc : Thread nD τ).loc b)) :
    (Pipeline.arrBufs (Ix := Unit) (Name := ℕ) (U := UR sig nD τ) (Lvl := ℕ) spec0 c Vf : sProp 𝕄)
      = iprop((((c.tc : Thread nD τ).loc main_v18) ↦{fullShare} Vf main_v18) ∗ (((c.tc : Thread nD τ).loc main_v19) ↦{fullShare} Vf main_v19)) := by
  unfold Pipeline.arrBufs
  rw [imgArr, bigSep_insert (by decide), bigSep_singleton]
  rfl

/-- ENTRY: the shared array split in its two halves. -/
theorem arrays_of_arrBufs (c : Dev nD) (Vf : (b : Ref sig .tc) → Buf (Elt F) ((c.tc : Thread nD τ).loc b))
    (F' : (w : Fin cfg0.W) → Buf (Elt F) ((cfg0.win w).arr.view.loc (c.tc : Thread nD τ)))
    (h0 : F' 0 = Vf main_v18) (h1 : F' 1 = Vf main_v18) (h2 : F' 2 = Vf main_v19) :
    (Pipeline.arrBufs (Ix := Unit) (Name := ℕ) (U := UR sig nD τ) (Lvl := ℕ) spec0 c Vf : sProp 𝕄) ⊢ (dat0 V c).arrays F' := by
  rw [arrays_eq3, arrBufs_eq2, h0, h1, h2]
  iintro ⟨H18, H19⟩
  ihave H := (pointsTo_share (PosShare.mem_left_op_right fullShare)).1 $$ H18
  icases H with ⟨Hl, Hr⟩
  isplitl [Hl]; · iexact Hl
  isplitl [Hr]; · iexact Hr
  iexact H19

/-- EXIT: the two halves joined. -/
theorem arrBufs_of_arrays (c : Dev nD) (Vf : (b : Ref sig .tc) → Buf (Elt F) ((c.tc : Thread nD τ).loc b))
    (F' : (w : Fin cfg0.W) → Buf (Elt F) ((cfg0.win w).arr.view.loc (c.tc : Thread nD τ)))
    (h0 : F' 0 = Vf main_v18) (h1 : F' 1 = Vf main_v18) (h2 : F' 2 = Vf main_v19) :
    ((dat0 V c).arrays F' : sProp 𝕄) ⊢ Pipeline.arrBufs (Ix := Unit) (Name := ℕ) (U := UR sig nD τ) (Lvl := ℕ) spec0 c Vf := by
  rw [arrays_eq3, arrBufs_eq2, h0, h1, h2]
  iintro ⟨Hl, Hr, H19⟩
  isplitl [Hl Hr]
  · iapply (pointsTo_share (PosShare.mem_left_op_right fullShare)).2
    isplitl [Hl]; · iexact Hl
    iexact Hr
  iexact H19

end Region

end Cert.KernelIdeal.KB

end
-- ==== Proof.KSegs.lean ====
/-
  The kernel program's run: the host operations that normalise and stack the rows, the region, the host operations
  that average the row losses.  The buffer contents at each boundary are a fold from the launch memory; the region
  changes only the output array (the two input windows read the stacked rows and leave them as found).  Every weakly
  fair execution terminates, and at the end every unscoped buffer holds what the fold says.
-/
import proofs.«103263_j83167746719846_2_alg».proof.Proof.KBodyOb
import proofs.«103263_j83167746719846_2_alg».proof.Proof.KArrays

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v19) ((dat0 (V1 m ρ) c).arrAt 2 cfg0.N)
theorem W2_out (c : Dev nD) : W2 m ρ c (Proc.devRef .tc main_v19) = (dat0 (V1 m ρ) c).arrAt 2 cfg0.N := by
  unfold W2; exact Function.update_self ..
theorem W2_of_ne (c : Dev nD) (b : Ref sig .tc) (hb : b ≠ main_v19) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After the host operations after the region. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

/-- The arrays' entry contents are the region-entry buffers'. -/
theorem arrAt0 (c : Dev nD) (w : Fin cfg0.W) : (dat0 (V1 m ρ) c).arrAt w 0 = V1 m ρ c (Pipeline.arrRef spec0 w) := A_eq (V1 m ρ) c w

/-- The arrays' final contents are the region-exit buffers'. -/
theorem arrAtN_0 (c : Dev nD) : (dat0 (V1 m ρ) c).arrAt 0 cfg0.N = V2 m ρ c main_v18 :=
  (((dat0 (V1 m ρ) c).arrAt_in 0 rfl _).trans (A_eq (V1 m ρ) c 0)).trans (W2_of_ne m ρ c main_v18 (by decide)).symm
theorem arrAtN_1 (c : Dev nD) : (dat0 (V1 m ρ) c).arrAt 1 cfg0.N = V2 m ρ c main_v18 :=
  (((dat0 (V1 m ρ) c).arrAt_in 1 rfl _).trans (A_eq (V1 m ρ) c 1)).trans (W2_of_ne m ρ c main_v18 (by decide)).symm
theorem arrAtN_2 (c : Dev nD) : (dat0 (V1 m ρ) c).arrAt 2 cfg0.N = V2 m ρ c main_v19 := (W2_out m ρ c).symm

/-- Off the windows' arrays the exit contents are the entry contents. -/
theorem rest_eq (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hne : b ≠ main_v19 := fun e => (Finset.mem_sdiff.mp hb).2 (Finset.mem_image.mpr ⟨2, Finset.mem_univ _, e.symm ▸ rfl⟩)
  rw [show V2 m ρ c b = V1 m ρ c b from W2_of_ne m ρ c b hne]

set_option backward.isDefEq.respectTransparency.types false in
/-- ENTRY: the unscoped buffers at the entry contents are the three arrays (the shared one in its two halves) and the rest. -/
theorem entry_split (c : Dev nD) :
    (StableHlo.held (c : Thread nD τ) (Pipeline.ucRefs τ sig) (W1 m ρ c) : sProp 𝕄)
      ⊢ iprop((pdats m ρ 0 c).arrays (fun w => (pdats m ρ 0 c).arrAt w 0) ∗ Pipeline.unscopedRest spec0 c (V1 m ρ c)) := by
  have hsplit := Pipeline.unscopedBufs_split₀ (Ix := Unit) (Name := ℕ) (U := UR sig nD τ) (Lvl := ℕ) (cfgs) (0 : Fin 1) winFacts₀0.arr_unscoped c (V1 m ρ c)
  rw [Pipeline.unscopedBufs_held] at hsplit
  rw [hsplit]
  exact sep_mono (arrays_of_arrBufs (V1 m ρ) c (V1 m ρ c) ((dat0 (V1 m ρ) c).arrAt · 0) (arrAt0 m ρ c 0) (arrAt0 m ρ c 1) (arrAt0 m ρ c 2)) .rfl

set_option backward.isDefEq.respectTransparency.types false in
/-- EXIT: the three arrays at their final contents and the rest are the unscoped buffers at the exit contents. -/
theorem exit_join (c : Dev nD) :
    iprop((pdats m ρ 0 c).arrays (fun w => (pdats m ρ 0 c).arrAt w (Pipeline.pin (pcfgs (F := F)) adm 0).N) ∗ Pipeline.unscopedRest spec0 c (V1 m ρ c))
      ⊢ (StableHlo.held (c : Thread nD τ) (Pipeline.ucRefs τ sig) (W2 m ρ c) : sProp 𝕄) := by
  have hsplit := Pipeline.unscopedBufs_split₀ (Ix := Unit) (Name := ℕ) (U := UR sig nD τ) (Lvl := ℕ) (cfgs) (0 : Fin 1) winFacts₀0.arr_unscoped c (V2 m ρ c)
  rw [Pipeline.unscopedBufs_held, rest_eq] at hsplit
  rw [hsplit]
  exact sep_mono (arrBufs_of_arrays (V1 m ρ) c (V2 m ρ c) ((dat0 (V1 m ρ) c).arrAt · cfg0.N) (arrAtN_0 m ρ c) (arrAtN_1 m ρ c) (arrAtN_2 m ρ c)) .rfl

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (Ix := Unit) (Name := ℕ) (U := UR sig nD τ) (Lvl := ℕ) (pcfgs (F := F) 0).pre c (fun _ => fullShare) (adm (F := F) 0).1
          ∗ Pipeline.scopedRest (Ix := Unit) (Name := ℕ) (U := UR sig nD τ) (Lvl := ℕ) spec0 c) ⊢ (Pipeline.ΦA spec0 c : sProp 𝕄) := by
      unfold Pipeline.ΦA
      iintro ⟨Hp, -, Hr⟩
      isplitl [Hr]; · iexact Hr
      iexact Hp
    exact h.trans (hin (V1 m ρ) c)
  hout c := by
    rw [Pipeline.ownSems0_none]
    have h : (Pipeline.ΦA spec0 c : sProp 𝕄) ⊢ iprop((∃ r, prngReg c r) ∗ emp
          ∗ Pipeline.scopedRest (Ix := Unit) (Name := ℕ) (U := UR sig nD τ) (Lvl := ℕ) spec0 c) := by
      unfold Pipeline.ΦA
      iintro ⟨Hr, Hp⟩
      isplitl [Hp]; · iexact Hp
      isplitr; · iempintro
      iexact Hr
    exact (hout (V1 m ρ) c).trans h
  hexit c := by
    iintro ⟨Ha, HO, HY, Hrest⟩
    imodintro
    isplitl [Ha Hrest]
    · iapply (exit_join m ρ c); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- Every weakly fair execution of the program terminates, nothing faulting, and at the end every unscoped buffer of
    every core holds what the fold through the three segments says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.KB

end
-- ==== Proof.KHostArgs.lean ====
/-
  The kernel program's arguments end as launched.  The host operations before and after the region write only their
  own result buffers, none of them an argument; the region changes only the output array.  So the fold of buffer
  contents, read at an argument's buffer, walks back to the launch memory.
-/
import proofs.«103263_j83167746719846_2_alg».proof.Proof.KSegs
import Idealize.ShloMosaic.Lib.StableHlo.Run

set_option maxRecDepth 16384

noncomputable section

namespace Cert.KernelIdeal.KB

open Cert.KernelIdeal Cert.KernelIdeal.Gen
open Idealize.ShloMosaic Idealize.ShloMosaic.TcCoe
open Idealize.SL.Sem

variable {F : FTy → Type} [FloatOps F] [Named F]

/-- The operations before the region write neither argument: the first argument's buffer is as they found it. -/
theorem hostOps0_main_arg0 (W : Valuation τ sig (Elt F)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- The second argument's buffer is as the operations before the region found it. -/
theorem hostOps0_main_arg1 (W : Valuation τ sig (Elt F)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- The operations after the region write neither argument. -/
theorem hostOps1_main_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

theorem hostOps1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

variable (m : (ℓ : Loc nD τ sig) → Buf (Elt F) ℓ) (ρ : Dev nD → PrngReg)

/-- At the end the first argument's buffer holds what it held at launch: neither stretch of host operations writes
    it, and the region changes only the output array. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps1_main_arg0 _
    _ = W1 m ρ c (Proc.devRef .tc main_arg0) := W2_of_ne m ρ c main_arg0 (by decide)
    _ = W0 m ρ c (Proc.devRef .tc main_arg0) := hostOps0_main_arg0 _
    _ = m ((c : Thread nD τ).loc main_arg0) := rfl

/-- At the end the second argument's buffer holds what it held at launch. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := hostOps1_main_arg1 _
    _ = W1 m ρ c (Proc.devRef .tc main_arg1) := W2_of_ne m ρ c main_arg1 (by decide)
    _ = W0 m ρ c (Proc.devRef .tc main_arg1) := hostOps0_main_arg1 _
    _ = m ((c : Thread nD τ).loc main_arg1) := rfl

end Cert.KernelIdeal.KB

end
-- ==== Proof.Spec.lean ====
/-
  The contrastive loss both programs compute, written once over the extended reals, in the two arrangements
  the programs use.

  Input: two arrays x, y of 2048 rows of 1024 entries. Each row is divided by max(‖row‖, 1e-12), the norm being
  √(0 + Σ entry²); the 4096 normalised rows (x's, then y's) form the array z.  For rows r, j the similarity is
  s(r,j) = Σ_k z(r,k)·z(j,k).  The partner of row r is row r + 2048 (mod 4096).

  Arrangement K (fixed shift): p(r,j) = exp(s(r,j)·c − c) with c = 1/τ, τ the 32-bit float nearest 0.07;
  the row's loss is 0 − log( p(r,partner r) / Σ_{j ≠ r} p(r,j) + ε ).

  Arrangement R (shift by the row maximum): t(r,j) = s(r,j)/τ, M(r) = max_j t(r,j), e(r,j) = exp(t(r,j) − M(r));
  the row's loss is −log( e(r,partner r) / ((0 + Σ_j e(r,j)) − e(r,r)) + ε ).

  In both the result is (0 + Σ_r loss r) / 4096.  On real entries the shift cancels in the quotient
  (exp(a − m) = exp a · exp(−m), the common factor exp(−m) ≠ 0 leaves the quotient), and removing the diagonal term
  from the full row sum is the sum over j ≠ r; so the two arrangements agree.
-/
import Idealize.ShloMosaic.PureOps.Ideal
import Idealize.ShloMosaic.Lib.ValueIdx

noncomputable section

open scoped BigOperators

namespace Cert.Simclr

open Idealize.ShloMosaic Idealize.ShloMosaic.ValueIdx

/-- An argument array: 2048 rows of 1024 entries. -/
abbrev SArg : Shape := ⟨2, ![2048, 1024]⟩
/-- The stacked normalised rows: 4096 rows of 1024 entries. -/
abbrev SZ : Shape := ⟨2, ![4096, 1024]⟩
/-- The scalar shape. -/
abbrev S0 : Shape := ⟨0, ![]⟩

/-- c = 1/τ exactly, τ the 32-bit float nearest 0.07 (τ = 9395241 / 2^27). -/
def invT : EReal := ((134217728 / 9395241 : ℝ) : EReal)
/-- τ, the 32-bit float nearest 0.07. -/
def tau : EReal := Ideal.ofBits .f32 0x3D8F5C29#32
/-- ε, the 32-bit float nearest 1e-8. -/
def eps : EReal := Ideal.ofBits .f32 0x322BCC77#32
/-- The norm's floor, the 32-bit float nearest 1e-12. -/
def tiny : EReal := Ideal.ofBits .f32 0x2B8CBCCC#32
/-- 4096 as a 32-bit float. -/
def nRows : EReal := Ideal.ofBits .f32 0x45800000#32

/-- Entry (r,k) of an array with its row divided by max(√(0 + Σ row²), 1e-12). -/
def nrm (x : SArg.Idx → EReal) (r : Fin 2048) (k : Fin 1024) : EReal :=
  Ideal.div (x (ix2 r k)) (max (Ideal.sqrt (0 + ∑ k' : Fin 1024, x (ix2 r k') * x (ix2 r k'))) tiny)

/-- The 4096 normalised rows: x's, then y's. -/
def zcat (x y : SArg.Idx → EReal) : SZ.Idx → EReal := fun a =>
  if h : (a 0).val < 2048 then nrm x ⟨(a 0).val, h⟩ (a 1)
  else nrm y ⟨(a 0).val - 2048, by have := (a 0).isLt; change (a 0).val < 4096 at this; omega⟩ (a 1)

/-- The similarity of rows r and j. -/
def sim (z : SZ.Idx → EReal) (r j : Fin 4096) : EReal := ∑ k : Fin 1024, z (ix2 r k) * z (ix2 j k)

/-- The partner of row r: r + 2048 below 2048, r − 2048 from 2048 on. -/
def partner (r : Fin 4096) : Fin 4096 :=
  if h : r.val < 2048 then ⟨r.val + 2048, by omega⟩ else ⟨r.val - 2048, by omega⟩

/-! ## Arrangement K: the fixed shift c -/

def pK (z : SZ.Idx → EReal) (r j : Fin 4096) : EReal := Ideal.exp (sim z r j * invT - invT)
/-- The row's sum off the diagonal. -/
def KL (z : SZ.Idx → EReal) (r : Fin 4096) : EReal := ∑ j : Fin 4096, if j = r then 0 else pK z r j
/-- The partner's term. -/
def KP (z : SZ.Idx → EReal) (r : Fin 4096) : EReal := pK z r (partner r)
def rowK (z : SZ.Idx → EReal) (r : Fin 4096) : EReal := 0 - Ideal.log (Ideal.div (KP z r) (KL z r) + eps)
def lossK (z : SZ.Idx → EReal) : EReal := Ideal.div (0 + ∑ r : Fin 4096, rowK z r) nRows

/-! ## Arrangement R: the shift by the row maximum -/

def tR (z : SZ.Idx → EReal) (r j : Fin 4096) : EReal := Ideal.div (sim z r j) tau
def mR (z : SZ.Idx → EReal) (r : Fin 4096) : EReal := Finset.univ.fold max ⊥ (fun j : Fin 4096 => tR z r j)
def eR (z : SZ.Idx → EReal) (r j : Fin 4096) : EReal := Ideal.exp (tR z r j - mR z r)
def rowR (z : SZ.Idx → EReal) (r : Fin 4096) : EReal :=
  - Ideal.log (Ideal.div (eR z r (partner r)) ((0 + ∑ j : Fin 4096, eR z r j) - eR z r r) + eps)
def lossR (z : SZ.Idx → EReal) : EReal := Ideal.div (0 + ∑ r : Fin 4096, rowR z r) nRows

end Cert.Simclr

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«103263_j83167746719846_2_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.RefReadZ.lean ====
/-
  The first stage of both programs, read at an entry over the extended reals.

  An array of 2048 rows of 1024 entries has each row divided by max(√(0 + Σ entry²), 1e-12): the host forms the
  squares, sums them along each row from 0, places the sums as a column, takes the square root, takes the maximum
  with the constant column 1e-12, repeats the column along the rows and divides.  Read at (r, k) this is
  `Cert.Simclr.nrm x r k`.  Two such arrays stacked along the rows are `Cert.Simclr.zcat x y`: a row below 2048
  is the first array's, a row from 2048 on is the second array's row r − 2048.  The stacking lemma is stated for
  any element type, so it reads the same whether the stacked entries are kept as 32-bit or as 16-bit floats.
-/
import proofs.«103263_j83167746719846_2_alg».proof.Proof.Spec
import proofs.«103263_j83167746719846_2_alg».proof.Proof.LibHostRows
import proofs.«103263_j83167746719846_2_alg».proof.Proof.LibKerLayout

noncomputable section

namespace Cert.ReferenceIdeal.RefRead

open Idealize.ShloMosaic Idealize.ShloMosaic.ValueIdx Cert.Simclr

/-- The host's quotient read at an index. -/
theorem hostDivf_apply {s : Shape} {φ : FTy} (a b : FVec Ideal s φ) (i : s.Idx) :
    Host.divf (F := Ideal) a b i = Ideal.div (a i) (b i) := rfl

/-- The host's square root read at an index. -/
theorem hostSqrt_apply {s : Shape} {φ : FTy} (a : FVec Ideal s φ) (i : s.Idx) :
    Host.sqrt (F := Ideal) a i = Ideal.sqrt (a i) := rfl

/-- The host's exponential read at an index. -/
theorem hostExp_apply {s : Shape} {φ : FTy} (a : FVec Ideal s φ) (i : s.Idx) :
    Host.exp (F := Ideal) a i = Ideal.exp (a i) := rfl

/-- The host's row normalisation of an array, as the programs print it. -/
abbrev nrmHost (x : FVec Ideal SArg .f32) (h1 : SArg.ReducesTo [1] ⟨1, ![2048]⟩) (h2 : 0 < S0.numel)
    (h3 : (⟨1, ![2048]⟩ : Shape).BroadcastsInDim ⟨2, ![2048, 1]⟩ ![0]) (h4 : S0.BroadcastsInDim ⟨2, ![2048, 1]⟩ ![])
    (h5 : (⟨2, ![2048, 1]⟩ : Shape).BroadcastsInDim SArg ![0, 1]) : FVec Ideal SArg .f32 :=
  Host.divf (F := Ideal) x (broadcastInDim SArg ![0, 1] h5 (maximumf (Host.sqrt (F := Ideal) (broadcastInDim ⟨2, ![2048, 1]⟩ ![0] h3 (Host.reduceAdd (F := Ideal) (mulf x x) (constant (F := Ideal) S0 .f32 0x00000000#32) h1 h2))) (broadcastInDim ⟨2, ![2048, 1]⟩ ![] h4 (constant (F := Ideal) S0 .f32 0x2B8CBCCC#32))))

/-- The host's row normalisation read at (r, k): the entry over max(√(0 + Σ row²), 1e-12). -/
theorem nrmHost_apply (x : FVec Ideal SArg .f32) (h1 : SArg.ReducesTo [1] ⟨1, ![2048]⟩) (h2 : 0 < S0.numel)
    (h3 : (⟨1, ![2048]⟩ : Shape).BroadcastsInDim ⟨2, ![2048, 1]⟩ ![0]) (h4 : S0.BroadcastsInDim ⟨2, ![2048, 1]⟩ ![])
    (h5 : (⟨2, ![2048, 1]⟩ : Shape).BroadcastsInDim SArg ![0, 1]) (r : Fin 2048) (k : Fin 1024) :
    Host.divf (F := Ideal) x (broadcastInDim SArg ![0, 1] h5 (maximumf (Host.sqrt (F := Ideal) (broadcastInDim ⟨2, ![2048, 1]⟩ ![0] h3 (Host.reduceAdd (F := Ideal) (mulf x x) (constant (F := Ideal) S0 .f32 0x00000000#32) h1 h2))) (broadcastInDim ⟨2, ![2048, 1]⟩ ![] h4 (constant (F := Ideal) S0 .f32 0x2B8CBCCC#32)))) (ix2 r k)
      = Cert.Simclr.nrm x r k := by
  rw [hostDivf_apply, Cert.LibHostRows.broadcastInDim_a1_ab_apply, maximumf_apply, hostSqrt_apply,
    Cert.LibHostRows.broadcastInDim_a_a1_apply, Cert.LibHostRows.broadcastInDim_scalar_apply,
    Cert.LibHostRows.hostReduceAdd_rows_apply, constant_apply, constant_apply, Ideal.ofBits_zero_f32]
  rfl

/-- Two arrays of 2048 rows stacked: a row below 2048 is the first array's, a later row r the second's row r − 2048. -/
theorem concat_rows_eq {α : Type} (a b : SArg.Idx → α) (h : Shape.Concatenates [SArg, SArg] SZ 0) :
    concatenate SZ 0 [⟨SArg, a⟩, ⟨SArg, b⟩] h
      = fun i => if hi : (i 0).val < 2048 then a (ix2 ⟨(i 0).val, hi⟩ (i 1))
          else b (ix2 ⟨(i 0).val - 2048, by have := (i 0).isLt; change (i 0).val < 4096 at this; omega⟩ (i 1)) := by
  funext i
  have h0 : (i 0).val < 4096 := (i 0).isLt
  by_cases hi : (i 0).val < 2048
  · rw [dif_pos hi]
    refine (congrArg _ (eq_ix2 i)).trans ?_
    exact Cert.KernelIdeal.HostValue.concat2_d0_left a b h (i 0) (i 1) hi
  · rw [dif_neg hi]
    refine (congrArg _ (eq_ix2 i)).trans ?_
    exact Cert.KernelIdeal.HostValue.concat2_d0_right a b h (i 0) (i 1) (by omega) (by omega)

/-- Two arrays whose entries are the normalised entries of x and of y, stacked, are the 4096 normalised rows. -/
theorem zcat_of_rows (x y : FVec Ideal SArg .f32) (a b : SArg.Idx → EReal)
    (ha : ∀ (r : Fin 2048) (k : Fin 1024), a (ix2 r k) = Cert.Simclr.nrm x r k)
    (hb : ∀ (r : Fin 2048) (k : Fin 1024), b (ix2 r k) = Cert.Simclr.nrm y r k)
    (h : Shape.Concatenates [SArg, SArg] SZ 0) :
    concatenate SZ 0 [⟨SArg, a⟩, ⟨SArg, b⟩] h = Cert.Simclr.zcat x y := by
  rw [concat_rows_eq a b h]
  funext i
  unfold Cert.Simclr.zcat
  by_cases hi : (i 0).val < 2048
  · rw [dif_pos hi, dif_pos hi]; exact ha _ _
  · rw [dif_neg hi, dif_neg hi]; exact hb _ _

/-- The two arguments normalised by the host and stacked are the 4096 normalised rows. -/
theorem zhost_eq (x y : FVec Ideal SArg .f32) (h1 : SArg.ReducesTo [1] ⟨1, ![2048]⟩) (h2 : 0 < S0.numel)
    (h3 : (⟨1, ![2048]⟩ : Shape).BroadcastsInDim ⟨2, ![2048, 1]⟩ ![0]) (h4 : S0.BroadcastsInDim ⟨2, ![2048, 1]⟩ ![])
    (h5 : (⟨2, ![2048, 1]⟩ : Shape).BroadcastsInDim SArg ![0, 1]) (h : Shape.Concatenates [SArg, SArg] SZ 0) :
    concatenate SZ 0 [⟨SArg, nrmHost x h1 h2 h3 h4 h5⟩, ⟨SArg, nrmHost y h1 h2 h3 h4 h5⟩] h = Cert.Simclr.zcat x y :=
  zcat_of_rows x y _ _ (nrmHost_apply x h1 h2 h3 h4 h5) (nrmHost_apply y h1 h2 h3 h4 h5) h

end Cert.ReferenceIdeal.RefRead

end
-- ==== Proof.KHost.lean ====
/-
  The kernel program's host operations around the region, read off the fold of buffer contents over the extended reals.
  Before the region: each argument's rows are divided by max(√(0 + Σ row²), 1e-12), narrowed to 16-bit floats (no
  change of value over the extended reals) and the two arrays stacked: the stacked array is the 4096 normalised
  rows.  After the region: the output column is summed from zero and divided by 4096.
-/
import proofs.«103263_j83167746719846_2_alg».proof.Proof.KSegs
import proofs.«103263_j83167746719846_2_alg».proof.Proof.RefReadZ
import Idealize.ShloMosaic.Lib.StableHlo.Run

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem

/-- After the operations that follow the region, the result buffer holds the output column summed from zero over
    both axes and divided by the constant 4096: whatever the buffers held before. -/
theorem hostOps1_out (W : Valuation τ sig (Elt Ideal)) :
    StableHlo.after hostOps1 W (Proc.devRef .tc main_v21)
      = Host.divf (F := Ideal)
          (Host.reduceAdd (F := Ideal) (W (Proc.devRef .tc main_v19) : FVec Ideal S4096x1 .f32)
            (constant (F := Ideal) S_ .f32 0x00000000#32) reducesTo_S4096x1_S_d0_1 h_S_)
          (constant (F := Ideal) S_ .f32 0x45800000#32) := by
  dsimp only [hostOps1]
  after_results

/-- After the operations before the region, the stacked array holds the 4096 normalised rows of the two arguments:
    each argument's rows divided by max(√(0 + Σ row²), 1e-12) — the narrowing to 16-bit floats changes no value over
    the extended reals — and the two arrays stacked. -/
theorem hostOps0_z (W : Valuation τ sig (Elt Ideal)) :
    (StableHlo.after hostOps0 W (Proc.devRef .tc main_v18) : S4096x1024.Idx → EReal)
      = Cert.Simclr.zcat (W (Proc.devRef .tc main_arg0)) (W (Proc.devRef .tc main_arg1)) := by
  dsimp only [hostOps0]
  after_results
  exact Cert.ReferenceIdeal.RefRead.zcat_of_rows (W (Proc.devRef .tc main_arg0)) (W (Proc.devRef .tc main_arg1)) _ _
    (fun r k => Cert.ReferenceIdeal.RefRead.nrmHost_apply (W (Proc.devRef .tc main_arg0)) reducesTo_S2048x1024_S2048_d1 h_S_
      bcast_S2048_S2048x1_0 bcast_S_S2048x1 bcast_S2048x1_S2048x1024_0_1 r k)
    (fun r k => Cert.ReferenceIdeal.RefRead.nrmHost_apply (W (Proc.devRef .tc main_arg1)) reducesTo_S2048x1024_S2048_d1 h_S_
      bcast_S2048_S2048x1_0 bcast_S_S2048x1 bcast_S2048x1_S2048x1024_0_1 r k)
    concatenates_S2048x1024_S2048x1024_S4096x1024_d0

variable (m : (ℓ : Loc nD τ sig) → Buf (Elt Ideal) ℓ) (ρ : Dev nD → PrngReg)

/-- The array the region's two input windows read: the 4096 normalised rows of the launch arguments. -/
theorem V1_z (c : Dev nD) :
    V1 m ρ c main_v18
      = Cert.Simclr.zcat (m ((c : Thread nD τ).loc main_arg0)) (m ((c : Thread nD τ).loc main_arg1)) :=
  hostOps0_z (W0 m ρ c)

/-- The program's result: the region's output column summed from zero and divided by 4096. -/
theorem W3_out (c : Dev nD) :
    W3 m ρ c (Proc.devRef .tc main_v21)
      = Host.divf (F := Ideal)
          (Host.reduceAdd (F := Ideal) (W2 m ρ c (Proc.devRef .tc main_v19)) (constant (F := Ideal) S_ .f32 0x00000000#32)
            reducesTo_S4096x1_S_d0_1 h_S_)
          (constant (F := Ideal) S_ .f32 0x45800000#32) :=
  hostOps1_out (W2 m ρ c)

end Cert.KernelIdeal.KB

end
-- ==== Proof.LibKerWords.lean ====
/-
  Words at a cell: comparisons of small naturals read as 32-bit words, the conjunction and the selection on a
  decided bit, and a bit or the zero word as a float.
-/
import Idealize.ShloMosaic.PureOps.Ideal
import Idealize.ShloMosaic.Lib.ValueIdx
import Idealize.ShloMosaic.Lib.ValueLayout
import Idealize.ShloMosaic.Lib.IdealHost

noncomputable section

namespace Cert.KernelIdeal.HostValue

open Idealize.ShloMosaic Idealize.ShloMosaic.ValueIdx

/-- Equality of two small naturals read as 32-bit words. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := fun e => h (by
      have := congrArg BitVec.toNat e
      simp only [BitVec.toNat_ofNat] at this
      rwa [Nat.mod_eq_of_lt hn, Nat.mod_eq_of_lt hk] at this)
    rw [if_neg h, beq_eq_false_iff_ne.mpr this]; rfl

theorem cmpi_ne_ofNat (x y : BitVec 32) :
    IntOp.cmpi .ne x y = if x ≠ y then 1#1 else 0#1 := by
  unfold IntOp.cmpi
  by_cases h : x = y
  · subst h; simp
  · rw [if_pos h, bne_iff_ne.mpr h]; rfl

/-- Signed "at least" of two naturals below 2^31 read as words. -/
theorem cmpi_sge_ofNat (n k : ℕ) (hn : n < 2 ^ 31) (hk : k < 2 ^ 31) :
    IntOp.cmpi .sge (BitVec.ofNat 32 n) (BitVec.ofNat 32 k) = if k ≤ n then 1#1 else 0#1 := by
  unfold IntOp.cmpi
  have e : (BitVec.ofNat 32 k).sle (BitVec.ofNat 32 n) = decide (k ≤ n) := by
    have h1 : (BitVec.ofNat 32 k).toInt = (k : Int) := by
      rw [BitVec.toInt_eq_toNat_cond, BitVec.toNat_ofNat, Nat.mod_eq_of_lt (by omega)]
      rw [if_pos (by omega)]
    have h2 : (BitVec.ofNat 32 n).toInt = (n : Int) := by
      rw [BitVec.toInt_eq_toNat_cond, BitVec.toNat_ofNat, Nat.mod_eq_of_lt (by omega)]
      rw [if_pos (by omega)]
    rw [BitVec.sle, h1, h2]; simp
  simp only [e]
  by_cases h : k ≤ n <;> simp [h]

theorem andi_bit (p q : Prop) [Decidable p] [Decidable q] :
    IntOp.andi (if p then 1#1 else 0#1) (if q then 1#1 else 0#1) = if p ∧ q then 1#1 else 0#1 := by
  unfold IntOp.andi
  by_cases hp : p <;> by_cases hq : q <;> simp [hp, hq]

theorem select_bit {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem uitofp_bit (p : Prop) [Decidable p] :
    FloatOps.uitofp (F := Ideal) .f32 (if p then 1#1 else 0#1) = if p then (1 : EReal) else 0 := by
  by_cases hp : p
  · rw [if_pos hp, if_pos hp]; show ((BitVec.toNat (1#1) : ℝ) : EReal) = 1; simp
  · rw [if_neg hp, if_neg hp]; show ((BitVec.toNat (0#1) : ℝ) : EReal) = 0; simp

theorem sitofp_zero : FloatOps.sitofp (F := Ideal) .f32 (0#32) = (0 : EReal) := by
  show ((BitVec.toInt (0#32) : ℝ) : EReal) = 0; simp

end Cert.KernelIdeal.HostValue
end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.PayReadMasks.lean ====
/-
  The integer masks of the kernel body at a grid point (b, j), read at a cell (p, c) of the 512 × 2048 tile.
  Row p of the tile is row 512·b + p of the 4096 rows, column c is row 2048·j + c. The diagonal bit compares the two
  numbers; the partner bit compares the column's number with the row's partner, row + 2048 below 2048 and row − 2048
  from 2048 on (the subtraction is the addition of the word 2^32 − 2048, which on numbers below 4096 does not wrap
  past the true difference). All numbers are below 4096, so the 32-bit words are exact.
-/
import proofs.«103263_j83167746719846_2_alg».proof.Proof.Gen.KernelIdeal.Skeleton
import proofs.«103263_j83167746719846_2_alg».proof.Proof.Spec
import proofs.«103263_j83167746719846_2_alg».proof.Proof.LibKerWords
import proofs.«103263_j83167746719846_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.PayRead

open Cert.KernelIdeal Cert.KernelIdeal.Gen Cert.KernelIdeal.HostValue Idealize.ShloMosaic Idealize.ShloMosaic.ValueIdx

/-- The grid point with coordinates (b, j). -/
def pt (b : Fin 8) (j : Fin 2) : grid0.Coords := fun a => match a with | ⟨0, _⟩ => b | ⟨1, _⟩ => j

theorem pt_zero (b : Fin 8) (j : Fin 2) : ((pt b j) 0).val = b.val := rfl
theorem pt_one (b : Fin 8) (j : Fin 2) : ((pt b j) 1).val = j.val := rfl

/-- The partner of a row number: + 2048 below 2048, − 2048 from 2048 on. -/
def partnerNat (r : ℕ) : ℕ := if r < 2048 then r + 2048 else r - 2048

/-- a·m + x on 32-bit words is the word of the number. -/
theorem word_affine (m a x : ℕ) :
    IntOp.addi (Scalar.muli (BitVec.ofNat 32 a) (BitVec.ofNat 32 m)) (BitVec.ofNat 32 x) = BitVec.ofNat 32 (m * a + x) := by
  show BitVec.ofNat 32 a * BitVec.ofNat 32 m + BitVec.ofNat 32 x = _
  rw [← BitVec.ofNat_mul, ← BitVec.ofNat_add, Nat.mul_comm]

/-- Signed "less than" of two naturals below 2^31 read as words. -/
theorem cmpi_slt_ofNat (n k : ℕ) (hn : n < 2 ^ 31) (hk : k < 2 ^ 31) :
    IntOp.cmpi .slt (BitVec.ofNat 32 n) (BitVec.ofNat 32 k) = if n < k then 1#1 else 0#1 := by
  unfold IntOp.cmpi
  have e : (BitVec.ofNat 32 n).slt (BitVec.ofNat 32 k) = decide (n < k) := by
    have h1 : (BitVec.ofNat 32 k).toInt = (k : Int) := by
      rw [BitVec.toInt_eq_toNat_cond, BitVec.toNat_ofNat, Nat.mod_eq_of_lt (by omega)]
      rw [if_pos (by omega)]
    have h2 : (BitVec.ofNat 32 n).toInt = (n : Int) := by
      rw [BitVec.toInt_eq_toNat_cond, BitVec.toNat_ofNat, Nat.mod_eq_of_lt (by omega)]
      rw [if_pos (by omega)]
    rw [BitVec.slt, h1, h2]; simp
  simp only [e]
  by_cases h : n < k <;> simp [h]

/-- Adding the partner offset — 2048, or the word 2^32 − 2048 — to a row number below 4096 gives the partner's number. -/
theorem add_partner_offset (r : ℕ) (hr : r < 4096) :
    IntOp.addi (BitVec.ofNat 32 r) (if r < 2048 then 2048#32 else 4294965248#32) = BitVec.ofNat 32 (partnerNat r) := by
  unfold partnerNat
  by_cases h : r < 2048
  · rw [if_pos h, if_pos h]
    show BitVec.ofNat 32 r + BitVec.ofNat 32 2048 = _
    rw [← BitVec.ofNat_add]
  · rw [if_neg h, if_neg h]
    show BitVec.ofNat 32 r + BitVec.ofNat 32 4294965248 = _
    rw [← BitVec.ofNat_add]
    apply BitVec.eq_of_toNat_eq
    rw [BitVec.toNat_ofNat, BitVec.toNat_ofNat]
    omega

/-- The row numbers of the tile: row p at grid row b is row 512·b + p. -/
theorem pay6_apply (b : Fin 8) (j : Fin 2) (p : Fin 512) :
    k0_pay6 (pt b j) (ix2 p (0 : Fin 1)) = BitVec.ofNat 32 (512 * b.val + p.val) := by
  unfold k0_pay6
  show IntOp.addi (Scalar.muli (BitVec.ofNat 32 ((pt b j) 0).val) (BitVec.ofNat 32 512))
      (iota .tc S512x1 32 [0] iota_S512x1_d0_w32 (ix2 p (0 : Fin 1))) = _
  rw [iota_single_apply, pt_zero]
  exact word_affine 512 b.val p.val

/-- The column numbers of the tile: column c at grid column j is row 2048·j + c. -/
theorem pay7_apply (b : Fin 8) (j : Fin 2) (c : Fin 2048) :
    k0_pay7 (pt b j) (ix2 (0 : Fin 1) c) = BitVec.ofNat 32 (2048 * j.val + c.val) := by
  unfold k0_pay7
  show IntOp.addi (Scalar.muli (BitVec.ofNat 32 ((pt b j) 1).val) (BitVec.ofNat 32 2048))
      (iota .tc S1x2048 32 [1] iota_S1x2048_d1_w32 (ix2 (0 : Fin 1) c)) = _
  rw [iota_single_apply, pt_one]
  exact word_affine 2048 j.val c.val

/-- The diagonal mask of the tile: the row's number compared with the column's. -/
def diagBit (i : grid0.Coords) : IVec S512x2048 1 :=
  cmpi .eq (broadcastTo S512x2048 (k0_pay6 i) broadcasts_S512x1_S512x2048)
    (broadcastTo S512x2048 (k0_pay7 i) broadcasts_S1x2048_S512x2048)

theorem diagBit_apply (b : Fin 8) (j : Fin 2) (p : Fin 512) (c : Fin 2048) :
    diagBit (pt b j) (ix2 p c) = if 512 * b.val + p.val = 2048 * j.val + c.val then 1#1 else 0#1 := by
  unfold diagBit
  show IntOp.cmpi .eq (broadcastTo S512x2048 (k0_pay6 (pt b j)) broadcasts_S512x1_S512x2048 (ix2 p c))
      (broadcastTo S512x2048 (k0_pay7 (pt b j)) broadcasts_S1x2048_S512x2048 (ix2 p c)) = _
  rw [broadcastTo_a1_ab_apply, broadcastTo_1b_ab_apply, pay6_apply, pay7_apply]
  have := b.isLt; have := j.isLt; have := p.isLt; have := c.isLt
  exact cmpi_eq_ofNat _ _ (by omega) (by omega)

theorem diagBit_eq_one_iff (b : Fin 8) (j : Fin 2) (p : Fin 512) (c : Fin 2048) :
    diagBit (pt b j) (ix2 p c) = 1#1 ↔ 512 * b.val + p.val = 2048 * j.val + c.val := by
  rw [diagBit_apply]
  by_cases h : 512 * b.val + p.val = 2048 * j.val + c.val
  · rw [if_pos h]; exact ⟨fun _ => h, fun _ => rfl⟩
  · rw [if_neg h]; exact ⟨fun e => absurd e (by decide), fun e => absurd e h⟩

/-- The partner mask of the tile: the column's number compared with the row's partner. -/
theorem pay8_apply (b : Fin 8) (j : Fin 2) (p : Fin 512) (c : Fin 2048) :
    k0_pay8 (pt b j) (ix2 p c)
      = if 2048 * j.val + c.val = partnerNat (512 * b.val + p.val) then 1#1 else 0#1 := by
  have hb := b.isLt; have hj := j.isLt; have hp := p.isLt; have hc := c.isLt
  unfold k0_pay8
  show IntOp.cmpi .eq (broadcastTo S512x2048 (k0_pay7 (pt b j)) broadcasts_S1x2048_S512x2048 (ix2 p c))
      (broadcastTo S512x2048
        (addi (k0_pay6 (pt b j))
          (select (cmpi .slt (k0_pay6 (pt b j)) (broadcast S512x1 2048#32)) (broadcast S512x1 2048#32)
            (broadcast S512x1 4294965248#32)))
        broadcasts_S512x1_S512x2048 (ix2 p c)) = _
  rw [broadcastTo_1b_ab_apply, broadcastTo_a1_ab_apply, pay7_apply]
  show IntOp.cmpi .eq _ (IntOp.addi (k0_pay6 (pt b j) (ix2 p (0 : Fin 1)))
      (Scalar.select (IntOp.cmpi .slt (k0_pay6 (pt b j) (ix2 p (0 : Fin 1))) (BitVec.ofNat 32 2048)) 2048#32 4294965248#32)) = _
  rw [pay6_apply, cmpi_slt_ofNat _ _ (by omega) (by omega), select_bit, add_partner_offset _ (by omega)]
  refine cmpi_eq_ofNat _ _ (by omega) ?_
  unfold partnerNat
  split <;> omega

theorem pay8_eq_one_iff (b : Fin 8) (j : Fin 2) (p : Fin 512) (c : Fin 2048) :
    k0_pay8 (pt b j) (ix2 p c) = 1#1
      ↔ 2048 * j.val + c.val = (if 512 * b.val + p.val < 2048 then 512 * b.val + p.val + 2048 else 512 * b.val + p.val - 2048) := by
  rw [pay8_apply]
  show _ ↔ 2048 * j.val + c.val = partnerNat (512 * b.val + p.val)
  by_cases h : 2048 * j.val + c.val = partnerNat (512 * b.val + p.val)
  · rw [if_pos h]; exact ⟨fun _ => h, fun _ => rfl⟩
  · rw [if_neg h]; exact ⟨fun e => absurd e (by decide), fun e => absurd e h⟩

end Cert.KernelIdeal.PayRead

end
-- ==== Proof.KBlocks.lean ====
/-
  The input windows' blocks as rows of the array they are cut from. The grid is 8 row blocks by 2 column blocks and
  point t is (t / 2, t mod 2). Both input windows read the 4096 × 1024 array of normalised rows: the first in blocks
  of 512 rows indexed by the row block, the second in blocks of 2048 rows indexed by the column block; the output
  window writes blocks of 512 rows indexed by the row block. An element of a block sits in the array, on each axis, at
  the block index times the block size plus its coordinate inside the block.
-/
import proofs.«103263_j83167746719846_2_alg».proof.Proof.KDat
import proofs.«103263_j83167746719846_2_alg».proof.Proof.PayReadMasks
import Idealize.ShloMosaic.Lib.Pipeline.Value
import Idealize.ShloMosaic.Lib.ValueIdx

set_option maxRecDepth 16384

noncomputable section

namespace Cert.KernelIdeal.KB

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F] [Named F]

/-- The grid has sixteen points. -/
theorem lt16 (t : Fin cfg0.N) : t.val < 16 := N_0 ▸ (t.isLt : t.val < grid0.N)

/-- The windows' block indices at point t, decided over the grid. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = 0 :=
  (by decide +kernel : ∀ t : Fin grid0.N, _)

/-- Point t's coordinates: the row block t / 2 and the column block t mod 2. -/
theorem coords_facts : ∀ t : Fin cfg0.N, (grid0.coords t 0).val = t.val / 2 ∧ (grid0.coords t 1).val = t.val % 2 :=
  (by decide +kernel : ∀ t : Fin grid0.N, _)

theorem coords_eq (t : Fin cfg0.N) :
    grid0.coords t = Cert.KernelIdeal.PayRead.pt ⟨t.val / 2, by have := lt16 t; omega⟩ ⟨t.val % 2, Nat.mod_lt _ (by decide)⟩ := by
  funext a
  match a with
  | ⟨0, _⟩ => exact Fin.ext (coords_facts t).1
  | ⟨1, _⟩ => exact Fin.ext (coords_facts t).2

section Region
variable (V : (c : Dev nD) → (b : Ref sig .tc) → Buf (Elt F) ((c : Thread nD τ).loc b))

/-- The row-block window's block at point t is rows 512·(t/2) … 512·(t/2)+511 of the array. -/
theorem iblk0_apply (c : Dev nD) (t : Fin cfg0.N) (p : Fin 512) (d : Fin 1024) :
    (iblk V c 0 t : Vec F S512x1024 .bf16) (ix2 p d)
      = (V c main_v18 : S4096x1024.Idx → Elt F .bf16)
          (ix2 (⟨512 * (t.val / 2) + p.val, by have := lt16 t; have := p.isLt; omega⟩ : Fin 4096) d) := by
  obtain ⟨e0, e1, -⟩ := idx_facts t
  unfold iblk
  rw [View.read_apply]
  show (V c main_v18 : S4096x1024.Idx → Elt F .bf16) _ = _
  refine congrArg (V c main_v18 : S4096x1024.Idx → Elt F .bf16) ?_
  funext a
  apply Fin.ext
  match a with
  | ⟨0, _⟩ => show win0_0.index t (0 : Fin 2) * 512 + 1 * p.val = 512 * (t.val / 2) + p.val; rw [e0]; omega
  | ⟨1, _⟩ => show win0_0.index t (1 : Fin 2) * 1024 + 1 * d.val = d.val; rw [e1]; omega

/-- The column-block window's block at point t is rows 2048·(t mod 2) … 2048·(t mod 2)+2047 of the array. -/
theorem iblk1_apply (c : Dev nD) (t : Fin cfg0.N) (q : Fin 2048) (d : Fin 1024) :
    (iblk V c 1 t : Vec F S2048x1024 .bf16) (ix2 q d)
      = (V c main_v18 : S4096x1024.Idx → Elt F .bf16)
          (ix2 (⟨2048 * (t.val % 2) + q.val, by have := q.isLt; omega⟩ : Fin 4096) d) := by
  obtain ⟨-, -, e0, e1, -⟩ := idx_facts t
  unfold iblk
  rw [View.read_apply]
  show (V c main_v18 : S4096x1024.Idx → Elt F .bf16) _ = _
  refine congrArg (V c main_v18 : S4096x1024.Idx → Elt F .bf16) ?_
  funext a
  apply Fin.ext
  match a with
  | ⟨0, _⟩ => show win0_1.index t (0 : Fin 2) * 2048 + 1 * q.val = 2048 * (t.val % 2) + q.val; rw [e0]; omega
  | ⟨1, _⟩ => show win0_1.index t (1 : Fin 2) * 1024 + 1 * d.val = d.val; rw [e1]; omega

end Region

end Cert.KernelIdeal.KB

end
-- ==== Proof.LibTransposedDot.lean ====
/-
  A matrix product M×K by N×K — the right operand contracted on its LAST axis, so that no transpose is formed — into a
  zero accumulator, read at an entry over the extended reals: entry (p, q) is the sum over c of lhs (p, c) · rhs (q, c).
  The contraction index, a one-axis multi-index, is re-indexed to its one coordinate.
-/
import Idealize.ShloMosaic.Lib.ValueIdx
import Idealize.ShloMosaic.PureOps.Ideal.Laws

namespace Cert.LibTransposedDot

open Idealize.ShloMosaic Idealize.ShloMosaic.ValueIdx

/-- The left operand's index at result entry `(p, q)` and contraction coordinate `c` is `(p, c)`. -/
theorem tr_lhsIdx (M K N : ℕ) (p : Fin M) (q : Fin N) (c : Fin K) :
    (DotDims.transposedRhs M K N).lhsIdx (ix2 p q) ((contrEquiv1 (DotDims.transposedRhs M K N) K rfl rfl).symm c) = ix2 p c := by
  funext a
  refine Fin.ext ?_
  match a with
  | ⟨0, _⟩ => rfl
  | ⟨1, _⟩ =>
    show ((DotDims.transposedRhs M K N).lhsIdx (ix2 p q) ((contrEquiv1 (DotDims.transposedRhs M K N) K rfl rfl).symm c) 1).val = c.val
    rw [(DotDims.transposedRhs M K N).lhsIdx_val_of_single (cl := 1) rfl]
    exact contrEquiv1_symm_val (DotDims.transposedRhs M K N) K rfl rfl c

/-- The right operand's index there is `(q, c)`: its rows are the result's columns. -/
theorem tr_rhsIdx (M K N : ℕ) (p : Fin M) (q : Fin N) (c : Fin K) :
    (DotDims.transposedRhs M K N).rhsIdx (ix2 p q) ((contrEquiv1 (DotDims.transposedRhs M K N) K rfl rfl).symm c) = ix2 q c := by
  funext a
  refine Fin.ext ?_
  match a with
  | ⟨0, _⟩ => rfl
  | ⟨1, _⟩ =>
    show ((DotDims.transposedRhs M K N).rhsIdx (ix2 p q) ((contrEquiv1 (DotDims.transposedRhs M K N) K rfl rfl).symm c) 1).val = c.val
    rw [(DotDims.transposedRhs M K N).rhsIdx_val_of_single (cr := 1) rfl]
    exact contrEquiv1_symm_val (DotDims.transposedRhs M K N) K rfl rfl c

/-- Entry `(p, q)` of the product into the zero accumulator is `∑ c, lhs (p, c) · rhs (q, c)`. -/
theorem matmul_transposedRhs_zero_apply {φ₁ φ₂ : FTy} (M K N : ℕ) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ c : Fin K, lhs (ix2 p c) * rhs (ix2 q c) := by
  rw [Ideal.matmul_constant_zero_apply, ← Equiv.sum_comp (contrEquiv1 (DotDims.transposedRhs M K N) K rfl rfl).symm]
  refine Finset.sum_congr rfl fun c _ => ?_
  rw [tr_lhsIdx, tr_rhsIdx]

end Cert.LibTransposedDot
-- ==== Proof.PayReadExp.lean ====
/-
  The tile of exponentials the kernel body forms from its two loaded blocks, read at an entry over the extended reals:
  entry (p, c) is exp( (Σ_d q(p,d)·k(c,d)) · c₀ − c₀ ), c₀ the named inverse temperature. The product contracts both
  operands on their last axis into a zero accumulator; the scale and the shift are splats of the named constant.
-/
import proofs.«103263_j83167746719846_2_alg».proof.Proof.Gen.KernelIdeal.Skeleton
import proofs.«103263_j83167746719846_2_alg».proof.Proof.Spec
import proofs.«103263_j83167746719846_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayRead

open Cert.KernelIdeal Cert.KernelIdeal.Gen Idealize.ShloMosaic Idealize.ShloMosaic.ValueIdx

/-- The named inverse temperature denotes 1/τ at the extended reals, by the certificate's table. -/
theorem inv_temp : Named.named (F := Ideal) κ "inv_temp" (φ := .f32) 0x41649249#32 = Cert.Simclr.invT :=
  IdealRules.named_const.ideal_named_scalar _ _ _ _ rfl

/-- The product's dimension record is the one contracting both operands on their last axis. -/
theorem dot_eq : dot_S512x1024_S2048x1024_S512x2048_1_1_0_0_n_n = DotDims.transposedRhs 512 1024 2048 := rfl

/-- Entry (p, c) of the product of the two blocks into the zero accumulator. -/
theorem matmul_apply' (q : FVec Ideal S512x1024 .bf16) (k : FVec Ideal S2048x1024 .bf16) (p : Fin 512) (c : Fin 2048) :
    matmul dot_S512x1024_S2048x1024_S512x2048_1_1_0_0_n_n none q k (constant S512x2048 .f32 0x00000000#32) (ix2 p c)
      = ∑ d : Fin 1024, q (ix2 p d) * k (ix2 c d) := by
  rw [dot_eq]
  exact Cert.LibTransposedDot.matmul_transposedRhs_zero_apply 512 1024 2048 none q k p c

/-- Entry (p, c) of the tile of exponentials. -/
theorem pay9_apply (q : Vec Ideal S512x1024 .bf16) (k : Vec Ideal S2048x1024 .bf16) (p : Fin 512) (c : Fin 2048) :
    k0_pay9 (F := Ideal) q k (ix2 p c)
      = Ideal.exp ((∑ d : Fin 1024, q (ix2 p d) * k (ix2 c d)) * Cert.Simclr.invT - Cert.Simclr.invT) := by
  unfold k0_pay9
  rw [shapeCast_self, shapeCast_self]
  show Ideal.exp (matmul (F := Ideal) dot_S512x1024_S2048x1024_S512x2048_1_1_0_0_n_n none q k (constant S512x2048 .f32 0x00000000#32) (ix2 p c)
      * Named.named (F := Ideal) κ "inv_temp" (φ := .f32) 0x41649249#32 - Named.named (F := Ideal) κ "inv_temp" (φ := .f32) 0x41649249#32) = _
  rw [matmul_apply', inv_temp]

end Cert.KernelIdeal.PayRead

end
-- ==== Proof.PayReadRow.lean ====
/-
  The kernel body's row quantities at a grid point (b, j), read at row p, over the extended reals. The running row
  sum gains the tile's row sum with the diagonal cell replaced by zero; the running partner term gains the tile's row
  sum with every cell but the partner's replaced by zero; the row's loss is 0 − log(P / L + ε). A sum along the
  tile's second axis into a vector, recast as a column, is the sum over the 2048 columns.
-/
import proofs.«103263_j83167746719846_2_alg».proof.Proof.Gen.KernelIdeal.Skeleton
import proofs.«103263_j83167746719846_2_alg».proof.Proof.Spec
import proofs.«103263_j83167746719846_2_alg».proof.Proof.LibKerWords
import proofs.«103263_j83167746719846_2_alg».proof.Proof.LibKeepdims
import proofs.«103263_j83167746719846_2_alg».proof.Proof.PayReadExp
import proofs.«103263_j83167746719846_2_alg».proof.Proof.PayReadMasks
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayRead

open Cert.KernelIdeal Cert.KernelIdeal.Gen Cert.KernelIdeal.HostValue Idealize.ShloMosaic Idealize.ShloMosaic.ValueIdx

/-- The zero pattern denotes 0. -/
theorem scalar_zero : Scalar.ofBits (F := Ideal) .f32 0x00000000#32 = (0 : EReal) := Ideal.ofBits_zero_f32

/-- The tile summed along its second axis from zero, recast as a column, read at row p: the sum of the row. -/
theorem rowsum_apply (src : FVec Ideal S512x2048 .f32) (p : Fin 512) :
    shapeCast S512x1 (multiReduction .add [1] S512 src 0x00000000#32 reduces_S512x2048_S512 (.inl rfl) rfl)
        shapeCasts_S512_S512x1 (ix2 p (0 : Fin 1))
      = ∑ c : Fin 2048, src (ix2 p c) := by
  rw [shapeCast_a_a1_apply]
  refine (Ideal.multiReduction_add_single src 0x00000000#32 reduces_S512x2048_S512 (.inl rfl) rfl (ix1 p)).trans ?_
  refine Finset.sum_congr rfl fun c _ => congrArg src ?_
  funext a
  match a with
  | ⟨0, _⟩ => rfl
  | ⟨1, _⟩ => rfl

/-- The running row sum after the tile: the sum before plus the tile's row sum off the diagonal. -/
theorem pay10_apply (b : Fin 8) (j : Fin 2) (q : Vec Ideal S512x1024 .bf16) (k : Vec Ideal S2048x1024 .bf16)
    (a : Vec Ideal S512x1 .f32) (p : Fin 512) :
    k0_pay10 (F := Ideal) (pt b j) q k a (ix2 p (0 : Fin 1))
      = a (ix2 p (0 : Fin 1)) + ∑ c : Fin 2048,
          (if 512 * b.val + p.val = 2048 * j.val + c.val then 0 else k0_pay9 (F := Ideal) q k (ix2 p c)) := by
  unfold k0_pay10
  show a (ix2 p (0 : Fin 1))
      + shapeCast S512x1 (multiReduction .add [1] S512
          (select (diagBit (pt b j)) (broadcast S512x2048 (Scalar.ofBits (F := Ideal) .f32 0x00000000#32)) (k0_pay9 (F := Ideal) q k))
          0x00000000#32 reduces_S512x2048_S512 (.inl rfl) rfl) shapeCasts_S512_S512x1 (ix2 p (0 : Fin 1)) = _
  rw [rowsum_apply]
  refine congrArg (a (ix2 p (0 : Fin 1)) + ·) (Finset.sum_congr rfl fun c _ => ?_)
  show Scalar.select (diagBit (pt b j) (ix2 p c)) (Scalar.ofBits (F := Ideal) .f32 0x00000000#32) (k0_pay9 (F := Ideal) q k (ix2 p c)) = _
  rw [diagBit_apply, select_bit, scalar_zero]

/-- The running partner term after the tile: the term before plus the tile's cell in the partner's column, if it has one. -/
theorem pay2_apply (b : Fin 8) (j : Fin 2) (E : FVec Ideal S512x2048 .f32) (a : Vec Ideal S512x1 .f32) (p : Fin 512) :
    k0_pay2 (F := Ideal) (k0_pay8 (pt b j)) E a (ix2 p (0 : Fin 1))
      = a (ix2 p (0 : Fin 1)) + ∑ c : Fin 2048,
          (if 2048 * j.val + c.val = partnerNat (512 * b.val + p.val) then E (ix2 p c) else 0) := by
  unfold k0_pay2
  rw [shapeCast_self]
  show a (ix2 p (0 : Fin 1))
      + shapeCast S512x1 (multiReduction .add [1] S512
          (select (k0_pay8 (pt b j)) E (broadcast S512x2048 (Scalar.ofBits (F := Ideal) .f32 0x00000000#32)))
          0x00000000#32 reduces_S512x2048_S512 (.inl rfl) rfl) shapeCasts_S512_S512x1 (ix2 p (0 : Fin 1)) = _
  rw [rowsum_apply]
  refine congrArg (a (ix2 p (0 : Fin 1)) + ·) (Finset.sum_congr rfl fun c _ => ?_)
  show Scalar.select (k0_pay8 (pt b j) (ix2 p c)) (E (ix2 p c)) (Scalar.ofBits (F := Ideal) .f32 0x00000000#32) = _
  rw [pay8_apply, select_bit, scalar_zero]

/-- The row's loss from its partner term P and its row sum L. -/
theorem pay3_apply (P L : Vec Ideal S512x1 .f32) (p : Fin 512) :
    k0_pay3 (F := Ideal) P L (ix2 p (0 : Fin 1))
      = 0 - Ideal.log (Ideal.div (P (ix2 p (0 : Fin 1))) (L (ix2 p (0 : Fin 1))) + Cert.Simclr.eps) := by
  unfold k0_pay3
  show Scalar.ofBits (F := Ideal) .f32 0x00000000#32
      - Ideal.log (Ideal.div (P (ix2 p (0 : Fin 1))) (L (ix2 p (0 : Fin 1))) + Ideal.ofBits .f32 0x322BCC77#32) = _
  rw [scalar_zero]
  rfl

/-- The recast of a column to its own shape changes nothing. -/
theorem pay1_eq (v : FVec Ideal S512x1 .f32) : k0_pay1 (F := Ideal) v = v := by
  unfold k0_pay1
  exact shapeCast_self _ _

/-- The row sums start at zero. -/
theorem pay4_eq : k0_pay4 (F := Ideal) = fun _ => (0 : EReal) := by
  unfold k0_pay4
  show shapeCast S512x1 (broadcast S512x1 (Scalar.ofBits (F := Ideal) .f32 0x00000000#32)) shapeCasts_S512x1_S512x1 = _
  rw [shapeCast_self]
  funext i
  exact scalar_zero

theorem pay4_apply (i : S512x1.Idx) : k0_pay4 (F := Ideal) i = (0 : EReal) := congrFun pay4_eq i

/-- The partner terms start at zero. -/
theorem pay5_eq : k0_pay5 (F := Ideal) = fun _ => (0 : EReal) := by
  unfold k0_pay5
  show shapeCast S512x1 (broadcast S512x1 (Scalar.ofBits (F := Ideal) .f32 0x00000000#32)) shapeCasts_S512x1_S512x1 = _
  rw [shapeCast_self]
  funext i
  exact scalar_zero

theorem pay5_apply (i : S512x1.Idx) : k0_pay5 (F := Ideal) i = (0 : EReal) := congrFun pay5_eq i

end Cert.KernelIdeal.PayRead

end
-- ==== Proof.PayRead.lean ====
/-
  The kernel's value at a row, assembled over the two grid columns. At grid row b the body sees rows 512·b … 512·b+511
  of the normalised array z as its first block, and at grid column j rows 2048·j … 2048·j+2047 as its second block.
  After both columns the running row sum of row r = 512·b + p is the sum over all 4096 rows off the diagonal of
  exp(s(r,·)·c − c), the running partner term is that exponential at the partner of r, and the stored value is the
  row's loss 0 − log(P / L + ε). A sum over the 4096 rows is the sum over rows 0 … 2047 plus the sum over rows
  2048 … 4095; an indicator sum collapses to its one term.
-/
import proofs.«103263_j83167746719846_2_alg».proof.Proof.Gen.KernelIdeal.Skeleton
import proofs.«103263_j83167746719846_2_alg».proof.Proof.Spec
import proofs.«103263_j83167746719846_2_alg».proof.Proof.PayReadExp
import proofs.«103263_j83167746719846_2_alg».proof.Proof.PayReadMasks
import proofs.«103263_j83167746719846_2_alg».proof.Proof.PayReadRow
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayRead

open Cert.KernelIdeal Cert.KernelIdeal.Gen Idealize.ShloMosaic Idealize.ShloMosaic.ValueIdx

/-- A sum over the 4096 rows is the sum over rows 0 … 2047 plus the sum over rows 2048 … 4095. -/
theorem sum_split (g : Fin 4096 → EReal) :
    ∑ j : Fin 4096, g j
      = (∑ c : Fin 2048, g ⟨c.val, by have := c.isLt; omega⟩)
        + ∑ c : Fin 2048, g ⟨2048 + c.val, by have := c.isLt; omega⟩ :=
  Fin.sum_univ_add (a := 2048) (b := 2048) g

/-- The partner's number is the partner of the number. -/
theorem partner_val (r : Fin 4096) : (Cert.Simclr.partner r).val = partnerNat r.val := by
  unfold Cert.Simclr.partner partnerNat
  by_cases h : r.val < 2048
  · rw [dif_pos h, if_pos h]
  · rw [dif_neg h, if_neg h]

/-- The general form: r is any name of row 512·b + p. -/
theorem row_value' (z : Cert.Simclr.SZ.Idx → EReal) (b : Fin 8)
    (q : Vec Ideal S512x1024 .bf16) (k0 k1 : Vec Ideal S2048x1024 .bf16) (p : Fin 512)
    (r : Fin 4096) (hr : r.val = 512 * b.val + p.val)
    (hq : ∀ d : Fin 1024, q (ix2 p d) = z (ix2 r d))
    (hk0 : ∀ (c : Fin 2048) (d : Fin 1024), k0 (ix2 c d) = z (ix2 (⟨c.val, by have := c.isLt; omega⟩ : Fin 4096) d))
    (hk1 : ∀ (c : Fin 2048) (d : Fin 1024), k1 (ix2 c d) = z (ix2 (⟨2048 + c.val, by have := c.isLt; omega⟩ : Fin 4096) d)) :
    k0_pay3 (F := Ideal)
        (k0_pay2 (k0_pay8 (pt b 1)) (k0_pay9 q k1) (k0_pay2 (k0_pay8 (pt b 0)) (k0_pay9 q k0) (k0_pay5 (F := Ideal))))
        (k0_pay1 (k0_pay10 (pt b 1) q k1 (k0_pay1 (k0_pay10 (pt b 0) q k0 (k0_pay4 (F := Ideal))))))
        (ix2 p (0 : Fin 1))
      = Cert.Simclr.rowK z r := by
  have hb := b.isLt
  have hp := p.isLt
  have h0 : ((0 : Fin 2) : ℕ) = 0 := rfl
  have h1 : ((1 : Fin 2) : ℕ) = 1 := rfl
  -- the tiles' cells are the exponentials of the specification
  have e0 : ∀ c : Fin 2048, k0_pay9 (F := Ideal) q k0 (ix2 p c)
      = Cert.Simclr.pK z r ⟨c.val, by have := c.isLt; omega⟩ := by
    intro c
    rw [pay9_apply]
    unfold Cert.Simclr.pK Cert.Simclr.sim
    refine congrArg (fun s => Ideal.exp (s * Cert.Simclr.invT - Cert.Simclr.invT)) (Finset.sum_congr rfl fun d _ => ?_)
    rw [hq, hk0]
  have e1 : ∀ c : Fin 2048, k0_pay9 (F := Ideal) q k1 (ix2 p c)
      = Cert.Simclr.pK z r ⟨2048 + c.val, by have := c.isLt; omega⟩ := by
    intro c
    rw [pay9_apply]
    unfold Cert.Simclr.pK Cert.Simclr.sim
    refine congrArg (fun s => Ideal.exp (s * Cert.Simclr.invT - Cert.Simclr.invT)) (Finset.sum_congr rfl fun d _ => ?_)
    rw [hq, hk1]
  -- the row sum off the diagonal
  have hL : k0_pay1 (F := Ideal) (k0_pay10 (pt b 1) q k1 (k0_pay1 (k0_pay10 (pt b 0) q k0 (k0_pay4 (F := Ideal))))) (ix2 p (0 : Fin 1))
      = Cert.Simclr.KL z r := by
    rw [pay1_eq, pay10_apply, pay1_eq, pay10_apply, pay4_apply, zero_add]
    unfold Cert.Simclr.KL
    rw [sum_split]
    refine congrArg₂ (· + ·) (Finset.sum_congr rfl fun c _ => ?_) (Finset.sum_congr rfl fun c _ => ?_)
    · have hc := c.isLt
      rw [e0 c]
      exact if_congr ⟨fun h => Fin.ext (by show c.val = r.val; omega), fun h => by
        have := congrArg Fin.val h; simp only at this; omega⟩ rfl rfl
    · have hc := c.isLt
      rw [e1 c]
      exact if_congr ⟨fun h => Fin.ext (by show 2048 + c.val = r.val; omega), fun h => by
        have := congrArg Fin.val h; simp only at this; omega⟩ rfl rfl
  -- the partner's term
  have hP : k0_pay2 (F := Ideal) (k0_pay8 (pt b 1)) (k0_pay9 q k1) (k0_pay2 (k0_pay8 (pt b 0)) (k0_pay9 q k0) (k0_pay5 (F := Ideal)))
        (ix2 p (0 : Fin 1))
      = Cert.Simclr.KP z r := by
    rw [pay2_apply, pay2_apply, pay5_apply, zero_add]
    unfold Cert.Simclr.KP
    rw [← Finset.sum_ite_eq_of_mem' Finset.univ (Cert.Simclr.partner r) (Cert.Simclr.pK z r) (Finset.mem_univ _), sum_split]
    have hpv := partner_val r
    refine congrArg₂ (· + ·) (Finset.sum_congr rfl fun c _ => ?_) (Finset.sum_congr rfl fun c _ => ?_)
    · have hc := c.isLt
      rw [e0 c]
      exact if_congr ⟨fun h => Fin.ext (by show c.val = (Cert.Simclr.partner r).val; rw [hpv, hr]; omega), fun h => by
        have := congrArg Fin.val h; simp only at this; rw [hpv, hr] at this; omega⟩ rfl rfl
    · have hc := c.isLt
      rw [e1 c]
      exact if_congr ⟨fun h => Fin.ext (by show 2048 + c.val = (Cert.Simclr.partner r).val; rw [hpv, hr]; omega), fun h => by
        have := congrArg Fin.val h; simp only at this; rw [hpv, hr] at this; omega⟩ rfl rfl
  rw [pay3_apply, hP, hL]
  rfl

/-- The kernel's value at row p of grid row b is the loss of row 512·b + p in the fixed-shift arrangement. -/
theorem row_value (z : Cert.Simclr.SZ.Idx → EReal) (b : Fin 8)
    (q : Vec Ideal S512x1024 .bf16) (k0 k1 : Vec Ideal S2048x1024 .bf16)
    (hq : ∀ (p : Fin 512) (d : Fin 1024),
      q (ix2 p d) = z (ix2 (⟨512 * b.val + p.val, by have := b.isLt; have := p.isLt; omega⟩ : Fin 4096) d))
    (hk0 : ∀ (c : Fin 2048) (d : Fin 1024), k0 (ix2 c d) = z (ix2 (⟨c.val, by have := c.isLt; omega⟩ : Fin 4096) d))
    (hk1 : ∀ (c : Fin 2048) (d : Fin 1024), k1 (ix2 c d) = z (ix2 (⟨2048 + c.val, by have := c.isLt; omega⟩ : Fin 4096) d))
    (p : Fin 512) :
    k0_pay3 (F := Ideal)
        (k0_pay2 (k0_pay8 (pt b 1)) (k0_pay9 q k1) (k0_pay2 (k0_pay8 (pt b 0)) (k0_pay9 q k0) (k0_pay5 (F := Ideal))))
        (k0_pay1 (k0_pay10 (pt b 1) q k1 (k0_pay1 (k0_pay10 (pt b 0) q k0 (k0_pay4 (F := Ideal))))))
        (ix2 p (0 : Fin 1))
      = Cert.Simclr.rowK z ⟨512 * b.val + p.val, by have := b.isLt; have := p.isLt; omega⟩ :=
  row_value' z b q k0 k1 p _ rfl (hq p) hk0 hk1

end Cert.KernelIdeal.PayRead

end
-- ==== Proof.KPieces.lean ====
/-
  What the body leaves in each buffer, as the skeleton's payloads of the blocks it loads.

  Each buffer the body stores into is stored through the whole-buffer rectangle at zero offsets, so the last store's
  payload is what the buffer holds; every load is through the same rectangle of a whole buffer, so it reads that buffer's
  contents — or, after a store in the same run, that store's payload.
  Where the column block is 0: the off-diagonal accumulator is reset to zero and then holds zero plus the tile's off-diagonal
  row sums; the partner accumulator likewise holds zero plus the tile's partner terms. Where the column block is 1 the
  accumulators start from what they were found holding, and the output block holds 0 − log(partner / off-diagonal + ε) of
  the two new accumulators.
-/
import proofs.«103263_j83167746719846_2_alg».proof.Proof.KDat
import Idealize.ShloMosaic.Lib.Pipeline.Value

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of the whole-buffer rectangle. -/
theorem kp_hz : (![0, 0] : Fin 2 → Nat) = fun _ => 0 := funext fun a => by fin_cases a <;> rfl

/-- First column, off-diagonal accumulator: zero plus the tile's off-diagonal row sums. -/
theorem sout0_A_0_eq (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) :
    sout0_A_0 c i arg2 harg2 arg3 harg3 arg4 harg4 arg5 harg5 arg6 harg6 hc0 hc1 x0 x1 = k0_pay1 (k0_pay10 i x0 x1 k0_pay4) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x1) kp_hz, View.readCov_unit_zero (S := S512x1) _ kp_hz]
  simp only [View.readAt_eq_ld, harg2.read_unread, harg3.read_unread, harg5.read_unread, harg6.read_unread,
    View.ld_unit_zero (S := S512x1024) kp_hz, View.ld_unit_zero (S := S2048x1024) kp_hz, View.ld_unit_zero (S := S512x1) kp_hz]

/-- First column, partner accumulator: zero plus the tile's partner terms. -/
theorem sout0_A_1_eq (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x1024 .bf16) (x1 : Vec F S2048x1024 .bf16) :
    sout0_A_1 c i arg2 harg2 arg3 harg3 arg4 harg4 arg5 harg5 arg6 harg6 hc0 hc1 x0 x1 = k0_pay2 (k0_pay8 i) (k0_pay9 x0 x1) k0_pay5 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) kp_hz, View.readCov_unit_zero (S := S512x1) _ kp_hz]
  simp only [View.readAt_eq_ld, harg2.read_unread, harg3.read_unread, harg5.read_unread, harg6.read_unread,
    View.ld_unit_zero (S := S512x1024) kp_hz, View.ld_unit_zero (S := S2048x1024) kp_hz, View.ld_unit_zero (S := S512x1) kp_hz]

/-- Second column, off-diagonal accumulator: what it held plus the tile's off-diagonal row sums. -/
theorem sout0_B_0_eq (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) :
    sout0_B_0 c i arg2 harg2 arg3 harg3 arg4 harg4 arg5 harg5 arg6 harg6 hc0 hc1 x0 x1 xs0 xs1 = k0_pay1 (k0_pay10 i x0 x1 xs0) := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S512x1) kp_hz]
  simp only [View.readAt_eq_ld, harg2.read_unread, harg3.read_unread, harg5.read_unread, harg6.read_unread,
    View.ld_unit_zero (S := S512x1024) kp_hz, View.ld_unit_zero (S := S2048x1024) kp_hz, View.ld_unit_zero (S := S512x1) kp_hz]

/-- Second column, partner accumulator: what it held plus the tile's partner terms. -/
theorem sout0_B_1_eq (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) :
    sout0_B_1 c i arg2 harg2 arg3 harg3 arg4 harg4 arg5 harg5 arg6 harg6 hc0 hc1 x0 x1 xs0 xs1 = k0_pay2 (k0_pay8 i) (k0_pay9 x0 x1) xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S512x1) kp_hz]
  simp only [View.readAt_eq_ld, harg2.read_unread, harg3.read_unread, harg5.read_unread, harg6.read_unread,
    View.ld_unit_zero (S := S512x1024) kp_hz, View.ld_unit_zero (S := S2048x1024) kp_hz, View.ld_unit_zero (S := S512x1) kp_hz]

/-- Second column, output block: 0 − log(new partner accumulator / new off-diagonal accumulator + ε). -/
theorem out0_B_2_eq (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x1024 .bf16) (x1 : Vec F S2048x1024 .bf16) (xs0 xs1 : Vec F S512x1 .f32) :
    out0_B_2 c i arg2 harg2 arg3 harg3 arg4 harg4 arg5 harg5 arg6 harg6 hc0 hc1 x0 x1 xs0 xs1
      = k0_pay3 (k0_pay2 (k0_pay8 i) (k0_pay9 x0 x1) xs1) (k0_pay1 (k0_pay10 i x0 x1 xs0)) := by
  unfold out0_B_2
  rw [View.read_writes_eq_canon _ _ _ (cover0_B_2 c i arg2 harg2 arg3 harg3 arg4 harg4 arg5 harg5 arg6 harg6 hc0 hc1 x0 x1 xs0 xs1)]
  unfold kernelRun0_B
  dsimp only
  sl_unfold_words
  rw [View.canon_unit_zero (S := S512x1) kp_hz, View.readCov_unit_zero (S := S512x1) _ kp_hz,
    View.readCov_unit_zero (S := S512x1) _ kp_hz]
  simp only [View.readAt_eq_ld, harg2.read_unread, harg3.read_unread, harg5.read_unread, harg6.read_unread,
    View.ld_unit_zero (S := S512x1024) kp_hz, View.ld_unit_zero (S := S2048x1024) kp_hz, View.ld_unit_zero (S := S512x1) kp_hz]

end Cert.KernelIdeal.KB

end
-- ==== Proof.KFlushed.lean ====
/-
  What the output window writes back at a point of the second column, in closed form.

  A point t of the second column (t odd) follows the point t' = t − 1 of the first column of the same row block. At t' the
  accumulators are reset and receive the first tile's sums; at t they receive the second tile's sums on top, and the output
  block is stored from them. So the block written back at t is
    0 − log( (0 + partner(t') + partner(t)) / (0 + off(t') + off(t)) + ε ),
  the payloads of the two points' loaded blocks nested in that order. The output window is not cut at the array's end, so
  what is written back is all of what the body left in the block.
-/
import proofs.«103263_j83167746719846_2_alg».proof.Proof.KPieces

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Region
variable (V : (c : Dev nD) → (b : Ref sig .tc) → Buf (Elt F) ((c : Thread nD τ).loc b))

/-- After a point of the first column: the output block untouched, each accumulator at zero plus its tile's sums. -/
theorem outsAt0_even (c : Dev nD) (t : Fin cfg0.N) (h0 : t.val % 2 = 0) :
    outsAt0 V c t.val t.isLt = (outIdle,
      k0_pay1 (k0_pay10 (grid0.coords t) (iblk V c 0 t) (iblk V c 1 t) k0_pay4),
      k0_pay2 (k0_pay8 (grid0.coords t)) (k0_pay9 (iblk V c 0 t) (iblk V c 1 t)) k0_pay5) := by
  have h1 : ¬t.val % 2 = 1 := by omega
  rw [outsAt0_A V c t h0 h1, sout0_A_0_eq, sout0_A_1_eq]

/-- After a point of the second column, t' the point before it: the two tiles' sums nested, and the output block stored
    from them. -/
theorem outsAt0_odd (c : Dev nD) (t t' : Fin cfg0.N) (h1 : t.val % 2 = 1) (ht' : t'.val = t.val - 1) :
    outsAt0 V c t.val t.isLt = (
      k0_pay3
        (k0_pay2 (k0_pay8 (grid0.coords t)) (k0_pay9 (iblk V c 0 t) (iblk V c 1 t))
          (k0_pay2 (k0_pay8 (grid0.coords t')) (k0_pay9 (iblk V c 0 t') (iblk V c 1 t')) k0_pay5))
        (k0_pay1 (k0_pay10 (grid0.coords t) (iblk V c 0 t) (iblk V c 1 t)
          (k0_pay1 (k0_pay10 (grid0.coords t') (iblk V c 0 t') (iblk V c 1 t') k0_pay4)))),
      k0_pay1 (k0_pay10 (grid0.coords t) (iblk V c 0 t) (iblk V c 1 t)
        (k0_pay1 (k0_pay10 (grid0.coords t') (iblk V c 0 t') (iblk V c 1 t') k0_pay4))),
      k0_pay2 (k0_pay8 (grid0.coords t)) (k0_pay9 (iblk V c 0 t) (iblk V c 1 t))
        (k0_pay2 (k0_pay8 (grid0.coords t')) (k0_pay9 (iblk V c 0 t') (iblk V c 1 t')) k0_pay5)) := by
  have hlt : t.val - 1 < cfg0.N := Nat.lt_of_le_of_lt (Nat.sub_le _ _) t.isLt
  obtain rfl : t' = ⟨t.val - 1, hlt⟩ := Fin.ext ht'
  have h0 : ¬t.val % 2 = 0 := by omega
  have hA := outsAt0_even V c ⟨t.val - 1, hlt⟩ (by dsimp only; omega)
  dsimp only at hA
  rw [outsAt0_B V c t h0 h1, out0_B_2_eq, sout0_B_0_eq, sout0_B_1_eq, hA]

/-- What the output window writes back at a point of the second column. -/
theorem flushed0_2_odd (c : Dev nD) (t t' : Fin cfg0.N) (h1 : t.val % 2 = 1) (ht' : t'.val = t.val - 1) :
    (dat0 V c).flushed 2 t
      = k0_pay3
        (k0_pay2 (k0_pay8 (grid0.coords t)) (k0_pay9 (iblk V c 0 t) (iblk V c 1 t))
          (k0_pay2 (k0_pay8 (grid0.coords t')) (k0_pay9 (iblk V c 0 t') (iblk V c 1 t')) k0_pay5))
        (k0_pay1 (k0_pay10 (grid0.coords t) (iblk V c 0 t) (iblk V c 1 t)
          (k0_pay1 (k0_pay10 (grid0.coords t') (iblk V c 0 t') (iblk V c 1 t') k0_pay4)))) := by
  show (cfg0.win 2).cut (grid0.coords t) ((dat0 V c).after 2 t) = _
  rw [after0_2, outsAt0_odd V c t t' h1 ht']
  rfl

end Region

end Cert.KernelIdeal.KB

end
-- ==== Proof.KFinal.lean ====
/-
  The kernel's output array after the region: row r holds the loss of row r in the fixed-shift arrangement.
  The output window writes a block of 512 rows back at each point of the second column; the block written at the odd
  point t is the body's value over the blocks loaded at t and at the point before it, which are rows
  512·(t/2) … 512·(t/2)+511 of the normalised rows for the first operand and the two halves of them for the second.
  Row r of the output lies in the block written at the point 2·(r/512)+1, so the blocks cover the array.
-/
import proofs.«103263_j83167746719846_2_alg».proof.Proof.KBlocks
import proofs.«103263_j83167746719846_2_alg».proof.Proof.PayRead
import proofs.«103263_j83167746719846_2_alg».proof.Proof.KFlushed
import Idealize.ShloMosaic.Lib.Pipeline.Value
import Idealize.ShloMosaic.Lib.ValueIdx

set_option maxRecDepth 16384

noncomputable section

namespace Cert.KernelIdeal.KB

open Cert.KernelIdeal Cert.KernelIdeal.Gen Cert.KernelIdeal.PayRead
open Idealize.ShloMosaic Idealize.ShloMosaic.TcCoe Idealize.ShloMosaic.ValueIdx
open Idealize.SL.Sem
open Idealize.ShloMosaic.Pipeline (Dat Cfg Window)

/-- The body's value at a point of the second column over literal blocks: with both first operands rows
    512·b … 512·b+511 of z and the second operands the two halves of z, entry y is the loss of row 512·b + y₀. -/
theorem point_value (z : Cert.Simclr.SZ.Idx → EReal) (b : Fin 8) (i0 i1 : grid0.Coords)
    (hi0 : i0 = pt b 0) (hi1 : i1 = pt b 1)
    (q q' : Vec Ideal S512x1024 .bf16) (k0 k1 : Vec Ideal S2048x1024 .bf16)
    (hq : ∀ (p : Fin 512) (d : Fin 1024),
      q (ix2 p d) = z (ix2 (⟨512 * b.val + p.val, by have := b.isLt; have := p.isLt; omega⟩ : Fin 4096) d))
    (hq' : ∀ (p : Fin 512) (d : Fin 1024),
      q' (ix2 p d) = z (ix2 (⟨512 * b.val + p.val, by have := b.isLt; have := p.isLt; omega⟩ : Fin 4096) d))
    (hk0 : ∀ (c : Fin 2048) (d : Fin 1024), k0 (ix2 c d) = z (ix2 (⟨c.val, by have := c.isLt; omega⟩ : Fin 4096) d))
    (hk1 : ∀ (c : Fin 2048) (d : Fin 1024), k1 (ix2 c d) = z (ix2 (⟨2048 + c.val, by have := c.isLt; omega⟩ : Fin 4096) d))
    (y : S512x1.Idx) (r : Fin 4096) (hr : r.val = 512 * b.val + (y 0).val) :
    k0_pay3 (F := Ideal)
        (k0_pay2 (k0_pay8 i1) (k0_pay9 q k1) (k0_pay2 (k0_pay8 i0) (k0_pay9 q' k0) (k0_pay5 (F := Ideal))))
        (k0_pay1 (k0_pay10 i1 q k1 (k0_pay1 (k0_pay10 i0 q' k0 (k0_pay4 (F := Ideal)))))) y
      = Cert.Simclr.rowK z r := by
  subst hi0 hi1
  have hqq : q' = q := funext fun x => by
    rw [eq_ix2 x]
    exact (hq' (x 0) (x 1)).trans (hq (x 0) (x 1)).symm
  subst hqq
  obtain ⟨p, u, rfl⟩ : ∃ (p : Fin 512) (u : Fin 1), y = ix2 p u := ⟨y 0, y 1, eq_ix2 y⟩
  obtain rfl : u = 0 := Subsingleton.elim _ _
  have hre : (⟨512 * b.val + p.val, by have := b.isLt; have := p.isLt; omega⟩ : Fin 4096) = r := Fin.ext hr.symm
  exact row_value' z b q' k0 k1 p r hr (fun d => (hq' p d).trans (by rw [hre])) hk0 hk1

section Region
variable (V : (c : Dev nD) → (b : Ref sig .tc) → Buf (Elt Ideal) ((c : Thread nD τ).loc b))

/-- An index of the output array is in point t's block iff each coordinate is in the block's range on its axis. -/
theorem mem_blk_out (t : Fin cfg0.N) (i : S4096x1.Idx) :
    i ∈ ((cfg0.win 2).blk t).view.set
      ↔ ∀ a : Fin 2, win0_2.index t a * S512x1.size a ≤ (i a).val ∧ (i a).val < win0_2.index t a * S512x1.size a + S512x1.size a := by
  show i ∈ ((View.whole main_v19).slice (win0_2.rect t)).set ↔ _
  rw [View.set_slice_whole, Rect.mem_set_unit]
  exact Iff.rfl

/-- Every row of the output array is in the block written back at an odd point: row r at the point 2·(r/512)+1. -/
theorem cover_out (i : S4096x1.Idx) :
    ∃ t : Fin cfg0.N, (cfg0.win 2).flush t = true ∧ i ∈ ((cfg0.win 2).blk t).view.set := by
  have hi0 : (i 0).val < 4096 := idx2_lt0 i
  have hi1 : (i 1).val < 1 := idx2_lt1 i
  obtain ⟨t, ht⟩ : ∃ t : Fin cfg0.N, t.val = 2 * ((i 0).val / 512) + 1 :=
    ⟨⟨2 * ((i 0).val / 512) + 1, by show _ < grid0.N; rw [N_0]; omega⟩, rfl⟩
  refine ⟨t, (flush0_2 t).mpr (by omega), ?_⟩
  rw [mem_blk_out]
  obtain ⟨-, -, -, -, e0, e1⟩ := idx_facts t
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 1 ≤ (i 1).val ∧ (i 1).val < win0_2.index t (1 : Fin 2) * 1 + 1
    rw [e1]; omega

/-- The output array after the region, given what each odd point writes back. -/
theorem final_of (c : Dev nD) (z : Cert.Simclr.SZ.Idx → EReal) (hz : (V c main_v18 : S4096x1024.Idx → EReal) = z)
    (hfl : ∀ (t t' : Fin cfg0.N), t.val % 2 = 1 → t'.val = t.val - 1 →
      (dat0 V c).flushed 2 t
        = k0_pay3
          (k0_pay2 (k0_pay8 (grid0.coords t)) (k0_pay9 (iblk V c 0 t) (iblk V c 1 t))
            (k0_pay2 (k0_pay8 (grid0.coords t')) (k0_pay9 (iblk V c 0 t') (iblk V c 1 t')) (k0_pay5 (F := Ideal))))
          (k0_pay1 (k0_pay10 (grid0.coords t) (iblk V c 0 t) (iblk V c 1 t)
            (k0_pay1 (k0_pay10 (grid0.coords t') (iblk V c 0 t') (iblk V c 1 t') (k0_pay4 (F := Ideal))))))) :
    ((dat0 V c).arrAt 2 cfg0.N : S4096x1.Idx → EReal) = fun y => Cert.Simclr.rowK z (y 0) := by
  refine (dat0 V c).arrAt_eq_of_cover 2 (fun y : S4096x1.Idx => Cert.Simclr.rowK z (y 0)) (fun t hf => ?_) cover_out
  have h1 : t.val % 2 = 1 := (flush0_2 t).mp hf
  have hlt := lt16 t
  obtain ⟨t', ht'⟩ : ∃ t' : Fin cfg0.N, t'.val = t.val - 1 :=
    ⟨⟨t.val - 1, Nat.lt_of_le_of_lt (Nat.sub_le _ _) t.isLt⟩, rfl⟩
  obtain ⟨-, -, -, -, e0, -⟩ := idx_facts t
  rw [hfl t t' h1 ht']
  funext y
  rw [View.read_apply]
  show _ = Cert.Simclr.rowK z ((((cfg0.win 2).blk t).view.emb y) 0)
  refine point_value z ⟨t.val / 2, by omega⟩ (grid0.coords t') (grid0.coords t) ?_ ?_
    (iblk V c 0 t) (iblk V c 0 t') (iblk V c 1 t') (iblk V c 1 t) ?_ ?_ ?_ ?_ y _ ?_
  · exact (coords_eq t').trans (congrArg₂ pt (Fin.ext (by show t'.val / 2 = t.val / 2; omega))
      (Fin.ext (by show t'.val % 2 = 0; omega)))
  · exact (coords_eq t).trans (congrArg₂ pt rfl (Fin.ext (by show t.val % 2 = 1; omega)))
  · exact fun p d => (iblk0_apply V c t p d).trans (congrFun hz _)
  · exact fun p d => (iblk0_apply V c t' p d).trans ((congrFun hz _).trans
      (congrArg (fun r : Fin 4096 => z (ix2 r d)) (Fin.ext (by show 512 * (t'.val / 2) + p.val = 512 * (t.val / 2) + p.val; omega))))
  · exact fun q d => (iblk1_apply V c t' q d).trans ((congrFun hz _).trans
      (congrArg (fun r : Fin 4096 => z (ix2 r d)) (Fin.ext (by show 2048 * (t'.val % 2) + q.val = q.val; omega))))
  · exact fun q d => (iblk1_apply V c t q d).trans ((congrFun hz _).trans
      (congrArg (fun r : Fin 4096 => z (ix2 r d)) (Fin.ext (by show 2048 * (t.val % 2) + q.val = 2048 + q.val; omega))))
  · show win0_2.index t (0 : Fin 2) * 512 + 1 * (y 0).val = 512 * (t.val / 2) + (y 0).val
    rw [e0]; omega

/-- The output array after the region: row r holds the loss of row r. -/
theorem final (c : Dev nD) (z : Cert.Simclr.SZ.Idx → EReal) (hz : (V c main_v18 : S4096x1024.Idx → EReal) = z) :
    ((dat0 V c).arrAt 2 cfg0.N : S4096x1.Idx → EReal) = fun y => Cert.Simclr.rowK z (y 0) :=
  final_of V c z hz (fun t t' h1 ht' => flushed0_2_odd V c t t' h1 ht')

end Region

end Cert.KernelIdeal.KB

end
-- ==== Proof.PayReadTail.lean ====
/-
  The program's last two host operations on the kernel's output column, over the extended reals: the sum of the
  4096 rows' losses from zero, divided by 4096. The sum over the indices of a 4096 × 1 array is the sum over its rows.
-/
import proofs.«103263_j83167746719846_2_alg».proof.Proof.Gen.KernelIdeal.Skeleton
import proofs.«103263_j83167746719846_2_alg».proof.Proof.Spec

import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayRead

open Cert.KernelIdeal Cert.KernelIdeal.Gen Idealize.ShloMosaic Idealize.ShloMosaic.ValueIdx

/-- The mean of the output column: (0 + Σ_r o(r, 0)) / 4096. -/
theorem tail_value (o : FVec Ideal S4096x1 .f32) (h1 : S4096x1.ReducesTo [0, 1] S_) (h2 : 0 < S_.numel) :
    Host.divf (F := Ideal) (Host.reduceAdd (F := Ideal) o (constant (F := Ideal) S_ .f32 0x00000000#32) h1 h2)
        (constant (F := Ideal) S_ .f32 0x45800000#32)
      = fun _ => Ideal.div (0 + ∑ r : Fin 4096, o (ix2 r (0 : Fin 1))) Cert.Simclr.nRows := by
  funext i
  show Ideal.div (Ideal.hostReduceAdd h1 o (Ideal.ofBits .f32 0x00000000#32) i) (Ideal.ofBits .f32 0x45800000#32)
      = Ideal.div (0 + ∑ r : Fin 4096, o (ix2 r (0 : Fin 1))) (Ideal.ofBits .f32 0x45800000#32)
  rw [Ideal.hostReduceAdd_total h1 (fun b => b.elim0) o _ i, Ideal.ofBits_zero_f32, sum_idx2]
  refine congrArg (fun s => Ideal.div (0 + s) (Ideal.ofBits .f32 0x45800000#32)) (Finset.sum_congr rfl fun r _ => ?_)
  exact Fin.sum_univ_one _

end Cert.KernelIdeal.PayRead

end
-- ==== Proof.KValue.lean ====
/-
  The kernel program's result at the ideal instance.  The region leaves in the output array, row by row, the loss of
  that row in the fixed-shift arrangement (the row's two tiles accumulated over the two column blocks, then
  0 − log(partner term / off-diagonal sum + ε)); the host operations after the region average the 4096 row losses; the
  host operations before it produce the stacked normalised rows.  So the program's result is the loss of the stacked
  normalised rows, and its two argument arrays end as launched.
-/
import proofs.«103263_j83167746719846_2_alg».proof.Proof.KSegs
import proofs.«103263_j83167746719846_2_alg».proof.Proof.KHostArgs
import proofs.«103263_j83167746719846_2_alg».proof.Proof.KHost
import proofs.«103263_j83167746719846_2_alg».proof.Proof.KFinal
import proofs.«103263_j83167746719846_2_alg».proof.Proof.PayReadTail
import proofs.«103263_j83167746719846_2_alg».proof.Proof.Spec

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt Ideal) ℓ) (ρ : Dev nD → PrngReg)

/-- The result buffer after the last host operation. -/
theorem value (c : Dev nD) :
    W3 m ρ c (Proc.devRef .tc main_v21)
      = fun _ => Cert.Simclr.lossK (Cert.Simclr.zcat (m ((c : Thread nD τ).loc main_arg0)) (m ((c : Thread nD τ).loc main_arg1))) := by
  rw [W3_out m ρ c, W2_out m ρ c, Cert.KernelIdeal.PayRead.tail_value,
    final (V1 m ρ) c _ (V1_z m ρ c)]
  rfl

/-- Every weakly fair execution terminates with the result at the loss of the stacked normalised rows and the
    arguments unchanged. -/
theorem kernel_run : θ_run defs (onTc (τ := τ) (main (F := Ideal))) ⟨m, fun _ => 0, ρ⟩ (fun r => ∀ c : Dev nD,
      r.2.mem ((c.tc : Thread nD τ).loc main_v21)
          = (fun _ => Cert.Simclr.lossK (Cert.Simclr.zcat (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v21 (by decide))).trans (value m ρ c),
     (h c _ (mem_uc main_arg0 (by decide))).trans (W3_main_arg0 m ρ c),
     (h c _ (mem_uc main_arg1 (by decide))).trans (W3_main_arg1 m ρ c)⟩) (run (F := Ideal) m ρ)

end Cert.KernelIdeal.KB

end
-- ==== Proof.RefRunOps.lean ====
/- The reference program's @main as the list of its host operations, the module-local function
   @remainder (with its nested @_where) listed inline at its call over that call's buffers: @main is the
   straight line of that list, every operation touches TensorCore buffers only, and nothing is scoped. -/
import proofs.«103263_j83167746719846_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 107 operations, in order: @main's own, and at the call of @remainder that function's
    twenty-one (its call of @_where the one select) over the call's buffers. -/
abbrev ops : List (HloOp τ sig (Elt F)) :=
  [ StableHlo.binary main_arg0 main_arg0 main_v0 (mulf : (⟨S2048x1024, .f32⟩ : BufTy).Contents (Elt F) → (⟨S2048x1024, .f32⟩ : BufTy).Contents (Elt F) → (⟨S2048x1024, .f32⟩ : BufTy).Contents (Elt F)),
    StableHlo.nullary main_cst (constant S_ .f32 0x00000000#32),
    StableHlo.binary main_v0 main_cst main_v1 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    StableHlo.unary main_v1 main_v2 (broadcastInDim S2048x1 ![0] bcast_S2048_S2048x1_0 : (⟨S2048, .f32⟩ : BufTy).Contents (Elt F) → (⟨S2048x1, .f32⟩ : BufTy).Contents (Elt F)),
    StableHlo.unary main_v2 main_v3 (Host.sqrt : (⟨S2048x1, .f32⟩ : BufTy).Contents (Elt F) → (⟨S2048x1, .f32⟩ : BufTy).Contents (Elt F)),
    StableHlo.nullary main_cst_0 (constant S_ .f32 0x2B8CBCCC#32),
    StableHlo.unary main_cst_0 main_v4 (broadcastInDim S2048x1 ![] bcast_S_S2048x1 : (⟨S_, .f32⟩ : BufTy).Contents (Elt F) → (⟨S2048x1, .f32⟩ : BufTy).Contents (Elt F)),
    StableHlo.binary main_v3 main_v4 main_v5 (maximumf : (⟨S2048x1, .f32⟩ : BufTy).Contents (Elt F) → (⟨S2048x1, .f32⟩ : BufTy).Contents (Elt F) → (⟨S2048x1, .f32⟩ : BufTy).Contents (Elt F)),
    StableHlo.unary main_v5 main_v6 (broadcastInDim S2048x1024 ![0, 1] bcast_S2048x1_S2048x1024_0_1 : (⟨S2048x1, .f32⟩ : BufTy).Contents (Elt F) → (⟨S2048x1024, .f32⟩ : BufTy).Contents (Elt F)),
    StableHlo.binary main_arg0 main_v6 main_v7 (Host.divf : (⟨S2048x1024, .f32⟩ : BufTy).Contents (Elt F) → (⟨S2048x1024, .f32⟩ : BufTy).Contents (Elt F) → (⟨S2048x1024, .f32⟩ : BufTy).Contents (Elt F)),
    StableHlo.binary main_arg1 main_arg1 main_v8 (mulf : (⟨S2048x1024, .f32⟩ : BufTy).Contents (Elt F) → (⟨S2048x1024, .f32⟩ : BufTy).Contents (Elt F) → (⟨S2048x1024, .f32⟩ : BufTy).Contents (Elt F)),
    StableHlo.nullary main_cst_1 (constant S_ .f32 0x00000000#32),
    StableHlo.binary main_v8 main_cst_1 main_v9 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    StableHlo.unary main_v9 main_v10 (broadcastInDim S2048x1 ![0] bcast_S2048_S2048x1_0 : (⟨S2048, .f32⟩ : BufTy).Contents (Elt F) → (⟨S2048x1, .f32⟩ : BufTy).Contents (Elt F)),
    StableHlo.unary main_v10 main_v11 (Host.sqrt : (⟨S2048x1, .f32⟩ : BufTy).Contents (Elt F) → (⟨S2048x1, .f32⟩ : BufTy).Contents (Elt F)),
    StableHlo.nullary main_cst_2 (constant S_ .f32 0x2B8CBCCC#32),
    StableHlo.unary main_cst_2 main_v12 (broadcastInDim S2048x1 ![] bcast_S_S2048x1 : (⟨S_, .f32⟩ : BufTy).Contents (Elt F) → (⟨S2048x1, .f32⟩ : BufTy).Contents (Elt F)),
    StableHlo.binary main_v11 main_v12 main_v13 (maximumf : (⟨S2048x1, .f32⟩ : BufTy).Contents (Elt F) → (⟨S2048x1, .f32⟩ : BufTy).Contents (Elt F) → (⟨S2048x1, .f32⟩ : BufTy).Contents (Elt F)),
    StableHlo.unary main_v13 main_v14 (broadcastInDim S2048x1024 ![0, 1] bcast_S2048x1_S2048x1024_0_1 : (⟨S2048x1, .f32⟩ : BufTy).Contents (Elt F) → (⟨S2048x1024, .f32⟩ : BufTy).Contents (Elt F)),
    StableHlo.binary main_arg1 main_v14 main_v15 (Host.divf : (⟨S2048x1024, .f32⟩ : BufTy).Contents (Elt F) → (⟨S2048x1024, .f32⟩ : BufTy).Contents (Elt F) → (⟨S2048x1024, .f32⟩ : BufTy).Contents (Elt F)),
    StableHlo.binary main_v7 main_v15 main_v16 ((fun a b => concatenate S4096x1024 0 [⟨S2048x1024, a⟩, ⟨S2048x1024, b⟩] concatenates_S2048x1024_S2048x1024_S4096x1024_d0) : (⟨S2048x1024, .f32⟩ : BufTy).Contents (Elt F) → (⟨S2048x1024, .f32⟩ : BufTy).Contents (Elt F) → (⟨S4096x1024, .f32⟩ : BufTy).Contents (Elt F)),
    StableHlo.unary main_v16 main_v17 ((transpose S1024x4096 [1, 0] · transposes_S4096x1024_S1024x4096_1_0) : (⟨S4096x1024, .f32⟩ : BufTy).Contents (Elt F) → (⟨S1024x4096, .f32⟩ : BufTy).Contents (Elt F)),
    StableHlo.binary main_v16 main_v17 main_v18 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    StableHlo.nullary main_cst_3 (constant S_ .f32 0x3D8F5C29#32),
    StableHlo.unary main_cst_3 main_v19 (broadcastInDim S4096x4096 ![] bcast_S_S4096x4096 : (⟨S_, .f32⟩ : BufTy).Contents (Elt F) → (⟨S4096x4096, .f32⟩ : BufTy).Contents (Elt F)),
    StableHlo.binary main_v18 main_v19 main_v20 (Host.divf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0xFF800000#32),
    StableHlo.binary main_v20 main_cst_4 main_v21 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v21 main_v22 (broadcastInDim S4096x1 ![0] bcast_S4096_S4096x1_0 : (⟨S4096, .f32⟩ : BufTy).Contents (Elt F) → (⟨S4096x1, .f32⟩ : BufTy).Contents (Elt F)),
    StableHlo.unary main_v22 main_v23 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v20 main_v23 main_v24 (subf : (⟨S4096x4096, .f32⟩ : BufTy).Contents (Elt F) → (⟨S4096x4096, .f32⟩ : BufTy).Contents (Elt F) → (⟨S4096x4096, .f32⟩ : BufTy).Contents (Elt F)),
    StableHlo.unary main_v24 main_v25 (Host.exp : (⟨S4096x4096, .f32⟩ : BufTy).Contents (Elt F) → (⟨S4096x4096, .f32⟩ : BufTy).Contents (Elt F)),
    StableHlo.nullary main_v26 (iotaInDim S4096 32 0),
    StableHlo.nullary main_c (constantI S_ 32 2048#32),
    StableHlo.unary main_c main_v27 (broadcastInDim S4096 ![] bcast_S_S4096 : (⟨S_, .i32⟩ : BufTy).Contents (Elt F) → (⟨S4096, .i32⟩ : BufTy).Contents (Elt F)),
    StableHlo.binary main_v26 main_v27 main_v28 (addi : (⟨S4096, .i32⟩ : BufTy).Contents (Elt F) → (⟨S4096, .i32⟩ : BufTy).Contents (Elt F) → (⟨S4096, .i32⟩ : BufTy).Contents (Elt F)),
    StableHlo.nullary main_c_5 (constantI S_ 32 4096#32),
    StableHlo.TRef.unary (.of main_c_5 : TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S4096 ![] bcast_S_S4096),
    StableHlo.TRef.binary (.of main_v28 : TRef sig ⟨S4096, .i32⟩) main_call0.v3 main_call0.v4 Host.remsi,
    StableHlo.TRef.nullary main_call0.c_1 (constantI S_ 32 0#32),
    StableHlo.TRef.unary main_call0.c_1 main_call0.v5 (broadcastInDim S4096 ![] bcast_S_S4096),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S4096 ![] bcast_S_S4096),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S4096 ![] bcast_S_S4096),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S4096 ![] bcast_S_S4096),
    StableHlo.TRef.binary main_call0.v4 main_call0.v13 main_call0.v14 addi,
    StableHlo.TRef.ternary main_call0.v12 main_call0.v14 main_call0.v4 main_call0.v15 select,
    StableHlo.nullary main_c_6 (constantI S_ 32 0#32),
    StableHlo.unary main_c_6 main_v30 (broadcastInDim S4096 ![] bcast_S_S4096 : (⟨S_, .i32⟩ : BufTy).Contents (Elt F) → (⟨S4096, .i32⟩ : BufTy).Contents (Elt F)),
    StableHlo.binary main_v26 main_v30 main_v31 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4096#32),
    StableHlo.unary main_c_7 main_v32 (broadcastInDim S4096 ![] bcast_S_S4096 : (⟨S_, .i32⟩ : BufTy).Contents (Elt F) → (⟨S4096, .i32⟩ : BufTy).Contents (Elt F)),
    StableHlo.binary main_v26 main_v32 main_v33 (addi : (⟨S4096, .i32⟩ : BufTy).Contents (Elt F) → (⟨S4096, .i32⟩ : BufTy).Contents (Elt F) → (⟨S4096, .i32⟩ : BufTy).Contents (Elt F)),
    StableHlo.ternary main_v31 main_v33 main_v26 main_v34 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_8 (constantI S_ 32 0#32),
    StableHlo.unary main_c_8 main_v35 (broadcastInDim S4096 ![] bcast_S_S4096 : (⟨S_, .i32⟩ : BufTy).Contents (Elt F) → (⟨S4096, .i32⟩ : BufTy).Contents (Elt F)),
    StableHlo.binary main_v29 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 4096#32),
    StableHlo.unary main_c_9 main_v37 (broadcastInDim S4096 ![] bcast_S_S4096 : (⟨S_, .i32⟩ : BufTy).Contents (Elt F) → (⟨S4096, .i32⟩ : BufTy).Contents (Elt F)),
    StableHlo.binary main_v29 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v29 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v34 main_v40 (broadcastInDim S4096x1 ![0] bcast_S4096_S4096x1_0 : (⟨S4096, .i32⟩ : BufTy).Contents (Elt F) → (⟨S4096x1, .i32⟩ : BufTy).Contents (Elt F)),
    StableHlo.unary main_v39 main_v41 (broadcastInDim S4096x1 ![0] bcast_S4096_S4096x1_0 : (⟨S4096, .i32⟩ : BufTy).Contents (Elt F) → (⟨S4096x1, .i32⟩ : BufTy).Contents (Elt F)),
    StableHlo.binary main_v40 main_v41 main_v42 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v25 main_v42 main_v43 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_cst_10 (constant S_ .f32 0x00000000#32),
    StableHlo.binary main_v25 main_cst_10 main_v44 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_c_11 (constantI S_ 32 0#32),
    StableHlo.unary main_c_11 main_v45 (broadcastInDim S4096 ![] bcast_S_S4096 : (⟨S_, .i32⟩ : BufTy).Contents (Elt F) → (⟨S4096, .i32⟩ : BufTy).Contents (Elt F)),
    StableHlo.binary main_v26 main_v45 main_v46 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4096#32),
    StableHlo.unary main_c_12 main_v47 (broadcastInDim S4096 ![] bcast_S_S4096 : (⟨S_, .i32⟩ : BufTy).Contents (Elt F) → (⟨S4096, .i32⟩ : BufTy).Contents (Elt F)),
    StableHlo.binary main_v26 main_v47 main_v48 (addi : (⟨S4096, .i32⟩ : BufTy).Contents (Elt F) → (⟨S4096, .i32⟩ : BufTy).Contents (Elt F) → (⟨S4096, .i32⟩ : BufTy).Contents (Elt F)),
    StableHlo.ternary main_v46 main_v48 main_v26 main_v49 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_13 (constantI S_ 32 0#32),
    StableHlo.unary main_c_13 main_v50 (broadcastInDim S4096 ![] bcast_S_S4096 : (⟨S_, .i32⟩ : BufTy).Contents (Elt F) → (⟨S4096, .i32⟩ : BufTy).Contents (Elt F)),
    StableHlo.binary main_v26 main_v50 main_v51 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 4096#32),
    StableHlo.unary main_c_14 main_v52 (broadcastInDim S4096 ![] bcast_S_S4096 : (⟨S_, .i32⟩ : BufTy).Contents (Elt F) → (⟨S4096, .i32⟩ : BufTy).Contents (Elt F)),
    StableHlo.binary main_v26 main_v52 main_v53 (addi : (⟨S4096, .i32⟩ : BufTy).Contents (Elt F) → (⟨S4096, .i32⟩ : BufTy).Contents (Elt F) → (⟨S4096, .i32⟩ : BufTy).Contents (Elt F)),
    StableHlo.ternary main_v51 main_v53 main_v26 main_v54 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v49 main_v55 (broadcastInDim S4096x1 ![0] bcast_S4096_S4096x1_0 : (⟨S4096, .i32⟩ : BufTy).Contents (Elt F) → (⟨S4096x1, .i32⟩ : BufTy).Contents (Elt F)),
    StableHlo.unary main_v54 main_v56 (broadcastInDim S4096x1 ![0] bcast_S4096_S4096x1_0 : (⟨S4096, .i32⟩ : BufTy).Contents (Elt F) → (⟨S4096x1, .i32⟩ : BufTy).Contents (Elt F)),
    StableHlo.binary main_v55 main_v56 main_v57 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v25 main_v57 main_v58 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.binary main_v44 main_v58 main_v59 (subf : (⟨S4096, .f32⟩ : BufTy).Contents (Elt F) → (⟨S4096, .f32⟩ : BufTy).Contents (Elt F) → (⟨S4096, .f32⟩ : BufTy).Contents (Elt F)),
    StableHlo.binary main_v43 main_v59 main_v60 (Host.divf : (⟨S4096, .f32⟩ : BufTy).Contents (Elt F) → (⟨S4096, .f32⟩ : BufTy).Contents (Elt F) → (⟨S4096, .f32⟩ : BufTy).Contents (Elt F)),
    StableHlo.nullary main_cst_15 (constant S_ .f32 0x322BCC77#32),
    StableHlo.unary main_cst_15 main_v61 (broadcastInDim S4096 ![] bcast_S_S4096 : (⟨S_, .f32⟩ : BufTy).Contents (Elt F) → (⟨S4096, .f32⟩ : BufTy).Contents (Elt F)),
    StableHlo.binary main_v60 main_v61 main_v62 (addf : (⟨S4096, .f32⟩ : BufTy).Contents (Elt F) → (⟨S4096, .f32⟩ : BufTy).Contents (Elt F) → (⟨S4096, .f32⟩ : BufTy).Contents (Elt F)),
    StableHlo.unary main_v62 main_v63 (Host.log : (⟨S4096, .f32⟩ : BufTy).Contents (Elt F) → (⟨S4096, .f32⟩ : BufTy).Contents (Elt F)),
    StableHlo.unary main_v63 main_v64 (Host.negf : (⟨S4096, .f32⟩ : BufTy).Contents (Elt F) → (⟨S4096, .f32⟩ : BufTy).Contents (Elt F)),
    StableHlo.nullary main_cst_16 (constant S_ .f32 0x00000000#32),
    StableHlo.binary main_v64 main_cst_16 main_v65 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_17 (constant S_ .f32 0x45800000#32),
    StableHlo.binary main_v65 main_cst_17 main_v66 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the two windows and the functions' bodies unfolded, sequencing reassociated. -/
theorem main_eq (c : Dev nD) : main (F := F) c = seq ops := by
  simp only [main, main_part0, main_part1, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., binary_bufs_sub .., nullary_bufs_sub .., unary_bufs_sub .., binary_bufs_sub .., unary_bufs_sub .., unary_bufs_sub .., nullary_bufs_sub .., binary_bufs_sub .., nullary_bufs_sub .., binary_bufs_sub ..⟩

end Cert.ReferenceIdeal.RefRun

end
-- ==== Proof.RefTerm.lean ====
/-
  The reference program's result as a pure function of its two arguments: one `let` per operation of the
  printed @main, in @main's order, each the printed operation applied to the earlier values.  The outlined
  integer remainder (its operands the shifted row numbers and the constant 4096) is written in place as its
  body's operations, the nested choice inside it as one select.  The chain is cut into consecutive parts, each a
  definition over the values still read after its head and ending in the next part applied to the values read
  later; unfolding the parts gives back the one chain.  The last value is the program's result.
-/
import proofs.«103263_j83167746719846_2_alg».proof.ReferenceIdeal

noncomputable section

namespace Cert.ReferenceIdeal.RefTerm

open Idealize.ShloMosaic
open Cert.ReferenceIdeal

variable {F : FTy → Type} [FloatOps F] [Cert.ReferenceIdeal.Facts]
open Facts₀ Facts

/-- Row sum less the diagonal entry, the quotient, plus ε, minus the logarithm, summed and divided by 4096 (main_v66). -/
noncomputable def refTerm_part5 (main_v43 : FVec F S4096 .f32) (main_v44 : FVec F S4096 .f32) (main_v58 : FVec F S4096 .f32) : FVec F S_ .f32 :=
  let main_v59 : FVec F S4096 .f32 := subf main_v44 main_v58
  let main_v60 : FVec F S4096 .f32 := Host.divf main_v43 main_v59
  let main_cst_15 : FVec F S_ .f32 := constant S_ .f32 0x322BCC77#32
  let main_v61 : FVec F S4096 .f32 := broadcastInDim S4096 ![] bcast_S_S4096 main_cst_15
  let main_v62 : FVec F S4096 .f32 := addf main_v60 main_v61
  let main_v63 : FVec F S4096 .f32 := Host.log main_v62
  let main_v64 : FVec F S4096 .f32 := Host.negf main_v63
  let main_cst_16 : FVec F S_ .f32 := constant S_ .f32 0x00000000#32
  let main_v65 : FVec F S_ .f32 := (fun x v => Host.reduceAdd x v reducesTo_S4096_S_d0 h_S_) main_v64 main_cst_16
  let main_cst_17 : FVec F S_ .f32 := constant S_ .f32 0x45800000#32
  let main_v66 : FVec F S_ .f32 := Host.divf main_v65 main_cst_17
  main_v66

/-- The diagonal's index pairs and the entries they pick (main_v58). -/
noncomputable def refTerm_part4 (main_v25 : FVec F S4096x4096 .f32) (main_v26 : IVec S4096 32) (main_v43 : FVec F S4096 .f32) (main_v44 : FVec F S4096 .f32) : FVec F S_ .f32 :=
  let main_c_11 : IVec S_ 32 := constantI S_ 32 0#32
  let main_v45 : IVec S4096 32 := broadcastInDim S4096 ![] bcast_S_S4096 main_c_11
  let main_v46 : IVec S4096 1 := cmpi .slt main_v26 main_v45
  let main_c_12 : IVec S_ 32 := constantI S_ 32 4096#32
  let main_v47 : IVec S4096 32 := broadcastInDim S4096 ![] bcast_S_S4096 main_c_12
  let main_v48 : IVec S4096 32 := addi main_v26 main_v47
  let main_v49 : IVec S4096 32 := select main_v46 main_v48 main_v26
  let main_c_13 : IVec S_ 32 := constantI S_ 32 0#32
  let main_v50 : IVec S4096 32 := broadcastInDim S4096 ![] bcast_S_S4096 main_c_13
  let main_v51 : IVec S4096 1 := cmpi .slt main_v26 main_v50
  let main_c_14 : IVec S_ 32 := constantI S_ 32 4096#32
  let main_v52 : IVec S4096 32 := broadcastInDim S4096 ![] bcast_S_S4096 main_c_14
  let main_v53 : IVec S4096 32 := addi main_v26 main_v52
  let main_v54 : IVec S4096 32 := select main_v51 main_v53 main_v26
  let main_v55 : IVec S4096x1 32 := broadcastInDim S4096x1 ![0] bcast_S4096_S4096x1_0 main_v49
  let main_v56 : IVec S4096x1 32 := broadcastInDim S4096x1 ![0] bcast_S4096_S4096x1_0 main_v54
  let main_v57 : IVec S4096x2 32 := (fun a b => concatenate S4096x2 1 [⟨S4096x1, a⟩, ⟨S4096x1, b⟩] concatenates_S4096x1_S4096x1_S4096x2_d1) main_v55 main_v56
  let main_v58 : FVec F S4096 .f32 := (fun x i => Host.gather gather_S4096x4096_S4096x2_S4096_n_01_n_n_01_1_11 x i) main_v25 main_v57
  refTerm_part5 main_v43 main_v44 main_v58

/-- The partner's index pairs and the entries they pick (main_v43); the row sums (main_v44). -/
noncomputable def refTerm_part3 (main_v25 : FVec F S4096x4096 .f32) (main_v26 : IVec S4096 32) (main_v29 : IVec S4096 32) : FVec F S_ .f32 :=
  let main_c_6 : IVec S_ 32 := constantI S_ 32 0#32
  let main_v30 : IVec S4096 32 := broadcastInDim S4096 ![] bcast_S_S4096 main_c_6
  let main_v31 : IVec S4096 1 := cmpi .slt main_v26 main_v30
  let main_c_7 : IVec S_ 32 := constantI S_ 32 4096#32
  let main_v32 : IVec S4096 32 := broadcastInDim S4096 ![] bcast_S_S4096 main_c_7
  let main_v33 : IVec S4096 32 := addi main_v26 main_v32
  let main_v34 : IVec S4096 32 := select main_v31 main_v33 main_v26
  let main_c_8 : IVec S_ 32 := constantI S_ 32 0#32
  let main_v35 : IVec S4096 32 := broadcastInDim S4096 ![] bcast_S_S4096 main_c_8
  let main_v36 : IVec S4096 1 := cmpi .slt main_v29 main_v35
  let main_c_9 : IVec S_ 32 := constantI S_ 32 4096#32
  let main_v37 : IVec S4096 32 := broadcastInDim S4096 ![] bcast_S_S4096 main_c_9
  let main_v38 : IVec S4096 32 := addi main_v29 main_v37
  let main_v39 : IVec S4096 32 := select main_v36 main_v38 main_v29
  let main_v40 : IVec S4096x1 32 := broadcastInDim S4096x1 ![0] bcast_S4096_S4096x1_0 main_v34
  let main_v41 : IVec S4096x1 32 := broadcastInDim S4096x1 ![0] bcast_S4096_S4096x1_0 main_v39
  let main_v42 : IVec S4096x2 32 := (fun a b => concatenate S4096x2 1 [⟨S4096x1, a⟩, ⟨S4096x1, b⟩] concatenates_S4096x1_S4096x1_S4096x2_d1) main_v40 main_v41
  let main_v43 : FVec F S4096 .f32 := (fun x i => Host.gather gather_S4096x4096_S4096x2_S4096_n_01_n_n_01_1_11 x i) main_v25 main_v42
  let main_cst_10 : FVec F S_ .f32 := constant S_ .f32 0x00000000#32
  let main_v44 : FVec F S4096 .f32 := (fun x v => Host.reduceAdd x v reducesTo_S4096x4096_S4096_d1 h_S_) main_v25 main_cst_10
  refTerm_part4 main_v25 main_v26 main_v43 main_v44

/-- The outlined remainder of the shifted row numbers by 4096, in place (main_v29). -/
noncomputable def refTerm_part2 (main_v25 : FVec F S4096x4096 .f32) (main_v26 : IVec S4096 32) (main_v28 : IVec S4096 32) (main_c_5 : IVec S_ 32) : FVec F S_ .f32 :=
  let main_call0_v0 : IVec S_ 32 := id main_c_5
  let main_call0_c : IVec S_ 32 := constantI S_ 32 0#32
  let main_call0_v1 : IVec S_ 1 := cmpi .eq main_call0_v0 main_call0_c
  let main_call0_c_0 : IVec S_ 32 := constantI S_ 32 1#32
  let main_call0_v2 : IVec S_ 32 := select main_call0_v1 main_call0_c_0 main_call0_v0
  let main_call0_v3 : IVec S4096 32 := broadcastInDim S4096 ![] bcast_S_S4096 main_call0_v2
  let main_call0_v4 : IVec S4096 32 := Host.remsi main_v28 main_call0_v3
  let main_call0_c_1 : IVec S_ 32 := constantI S_ 32 0#32
  let main_call0_v5 : IVec S4096 32 := broadcastInDim S4096 ![] bcast_S_S4096 main_call0_c_1
  let main_call0_v6 : IVec S4096 1 := cmpi .ne main_call0_v4 main_call0_v5
  let main_call0_c_2 : IVec S_ 32 := constantI S_ 32 0#32
  let main_call0_v7 : IVec S4096 32 := broadcastInDim S4096 ![] bcast_S_S4096 main_call0_c_2
  let main_call0_v8 : IVec S4096 1 := cmpi .slt main_call0_v4 main_call0_v7
  let main_call0_c_3 : IVec S_ 32 := constantI S_ 32 0#32
  let main_call0_v9 : IVec S_ 1 := cmpi .slt main_call0_v2 main_call0_c_3
  let main_call0_v10 : IVec S4096 1 := broadcastInDim S4096 ![] bcast_S_S4096 main_call0_v9
  let main_call0_v11 : IVec S4096 1 := cmpi .ne main_call0_v8 main_call0_v10
  let main_call0_v12 : IVec S4096 1 := andi main_call0_v11 main_call0_v6
  let main_call0_v13 : IVec S4096 32 := broadcastInDim S4096 ![] bcast_S_S4096 main_call0_v2
  let main_call0_v14 : IVec S4096 32 := addi main_call0_v4 main_call0_v13
  let main_v29 : IVec S4096 32 := select main_call0_v12 main_call0_v14 main_call0_v4
  refTerm_part3 main_v25 main_v26 main_v29

/-- From the stacked rows: similarities over the temperature, shifted by the row maximum, exponentiated (main_v25); the row numbers shifted by 2048 (main_v28). -/
noncomputable def refTerm_part1 (main_v16 : FVec F S4096x1024 .f32) : FVec F S_ .f32 :=
  let main_v17 : FVec F S1024x4096 .f32 := (transpose S1024x4096 [1, 0] · transposes_S4096x1024_S1024x4096_1_0) main_v16
  let main_v18 : FVec F S4096x4096 .f32 := (fun l r => Host.dotGeneral dot_S4096x1024_S1024x4096_S4096x4096_1_0_0_1_n_n none l r) main_v16 main_v17
  let main_cst_3 : FVec F S_ .f32 := constant S_ .f32 0x3D8F5C29#32
  let main_v19 : FVec F S4096x4096 .f32 := broadcastInDim S4096x4096 ![] bcast_S_S4096x4096 main_cst_3
  let main_v20 : FVec F S4096x4096 .f32 := Host.divf main_v18 main_v19
  let main_cst_4 : FVec F S_ .f32 := constant S_ .f32 0xFF800000#32
  let main_v21 : FVec F S4096 .f32 := (fun x v => Host.reduce FloatOps.maximumf x v reducesTo_S4096x4096_S4096_d1 h_S_) main_v20 main_cst_4
  let main_v22 : FVec F S4096x1 .f32 := broadcastInDim S4096x1 ![0] bcast_S4096_S4096x1_0 main_v21
  let main_v23 : FVec F S4096x4096 .f32 := broadcastInDim S4096x4096 ![0, 1] bcast_S4096x1_S4096x4096_0_1 main_v22
  let main_v24 : FVec F S4096x4096 .f32 := subf main_v20 main_v23
  let main_v25 : FVec F S4096x4096 .f32 := Host.exp main_v24
  let main_v26 : IVec S4096 32 := iotaInDim S4096 32 0
  let main_c : IVec S_ 32 := constantI S_ 32 2048#32
  let main_v27 : IVec S4096 32 := broadcastInDim S4096 ![] bcast_S_S4096 main_c
  let main_v28 : IVec S4096 32 := addi main_v26 main_v27
  let main_c_5 : IVec S_ 32 := constantI S_ 32 4096#32
  refTerm_part2 main_v25 main_v26 main_v28 main_c_5

/-- The value @main returns, over the arguments' contents: the two arguments' rows normalised and stacked (main_v16), then the rest. -/
noncomputable def refTerm (x : FVec F S2048x1024 .f32) (y : FVec F S2048x1024 .f32) : FVec F S_ .f32 :=
  let main_v0 : FVec F S2048x1024 .f32 := mulf x x
  let main_cst : FVec F S_ .f32 := constant S_ .f32 0x00000000#32
  let main_v1 : FVec F S2048 .f32 := (fun x v => Host.reduceAdd x v reducesTo_S2048x1024_S2048_d1 h_S_) main_v0 main_cst
  let main_v2 : FVec F S2048x1 .f32 := broadcastInDim S2048x1 ![0] bcast_S2048_S2048x1_0 main_v1
  let main_v3 : FVec F S2048x1 .f32 := Host.sqrt main_v2
  let main_cst_0 : FVec F S_ .f32 := constant S_ .f32 0x2B8CBCCC#32
  let main_v4 : FVec F S2048x1 .f32 := broadcastInDim S2048x1 ![] bcast_S_S2048x1 main_cst_0
  let main_v5 : FVec F S2048x1 .f32 := maximumf main_v3 main_v4
  let main_v6 : FVec F S2048x1024 .f32 := broadcastInDim S2048x1024 ![0, 1] bcast_S2048x1_S2048x1024_0_1 main_v5
  let main_v7 : FVec F S2048x1024 .f32 := Host.divf x main_v6
  let main_v8 : FVec F S2048x1024 .f32 := mulf y y
  let main_cst_1 : FVec F S_ .f32 := constant S_ .f32 0x00000000#32
  let main_v9 : FVec F S2048 .f32 := (fun x v => Host.reduceAdd x v reducesTo_S2048x1024_S2048_d1 h_S_) main_v8 main_cst_1
  let main_v10 : FVec F S2048x1 .f32 := broadcastInDim S2048x1 ![0] bcast_S2048_S2048x1_0 main_v9
  let main_v11 : FVec F S2048x1 .f32 := Host.sqrt main_v10
  let main_cst_2 : FVec F S_ .f32 := constant S_ .f32 0x2B8CBCCC#32
  let main_v12 : FVec F S2048x1 .f32 := broadcastInDim S2048x1 ![] bcast_S_S2048x1 main_cst_2
  let main_v13 : FVec F S2048x1 .f32 := maximumf main_v11 main_v12
  let main_v14 : FVec F S2048x1024 .f32 := broadcastInDim S2048x1024 ![0, 1] bcast_S2048x1_S2048x1024_0_1 main_v13
  let main_v15 : FVec F S2048x1024 .f32 := Host.divf y main_v14
  let main_v16 : FVec F S4096x1024 .f32 := (fun a b => concatenate S4096x1024 0 [⟨S2048x1024, a⟩, ⟨S2048x1024, b⟩] concatenates_S2048x1024_S2048x1024_S4096x1024_d0) main_v7 main_v15
  refTerm_part1 main_v16

end Cert.ReferenceIdeal.RefTerm

end
-- ==== Proof.RefRunC_Base.lean ====
/-
  The buffer contents after two lines of operations run one after the other: the second line's fold over the first's.
-/
import proofs.«103263_j83167746719846_2_alg».proof.Proof.RefRunOps
import proofs.«103263_j83167746719846_2_alg».proof.Proof.RefTerm

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The fold of a concatenation is the second line's fold from the first line's result. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefRunC

end
-- ==== Proof.RefRunC_A.lean ====
/-
  One consecutive part of the reference program's operations (the two arguments' rows normalised and stacked), read as a fold: whatever follows it, if what
  follows leaves in the result buffer the rest of the result term over the values it reads, then this part followed by it
  leaves the result term from this part on, over the values this part reads. The arguments' buffers are not written.
-/
import proofs.«103263_j83167746719846_2_alg».proof.Proof.RefRunC_Base

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The part's operations, in order. -/
abbrev opsA : List (HloOp τ sig (Elt F)) :=
  [ StableHlo.binary main_arg0 main_arg0 main_v0 (mulf : (⟨S2048x1024, .f32⟩ : BufTy).Contents (Elt F) → (⟨S2048x1024, .f32⟩ : BufTy).Contents (Elt F) → (⟨S2048x1024, .f32⟩ : BufTy).Contents (Elt F)),
    StableHlo.nullary main_cst (constant S_ .f32 0x00000000#32),
    StableHlo.binary main_v0 main_cst main_v1 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    StableHlo.unary main_v1 main_v2 (broadcastInDim S2048x1 ![0] bcast_S2048_S2048x1_0 : (⟨S2048, .f32⟩ : BufTy).Contents (Elt F) → (⟨S2048x1, .f32⟩ : BufTy).Contents (Elt F)),
    StableHlo.unary main_v2 main_v3 (Host.sqrt : (⟨S2048x1, .f32⟩ : BufTy).Contents (Elt F) → (⟨S2048x1, .f32⟩ : BufTy).Contents (Elt F)),
    StableHlo.nullary main_cst_0 (constant S_ .f32 0x2B8CBCCC#32),
    StableHlo.unary main_cst_0 main_v4 (broadcastInDim S2048x1 ![] bcast_S_S2048x1 : (⟨S_, .f32⟩ : BufTy).Contents (Elt F) → (⟨S2048x1, .f32⟩ : BufTy).Contents (Elt F)),
    StableHlo.binary main_v3 main_v4 main_v5 (maximumf : (⟨S2048x1, .f32⟩ : BufTy).Contents (Elt F) → (⟨S2048x1, .f32⟩ : BufTy).Contents (Elt F) → (⟨S2048x1, .f32⟩ : BufTy).Contents (Elt F)),
    StableHlo.unary main_v5 main_v6 (broadcastInDim S2048x1024 ![0, 1] bcast_S2048x1_S2048x1024_0_1 : (⟨S2048x1, .f32⟩ : BufTy).Contents (Elt F) → (⟨S2048x1024, .f32⟩ : BufTy).Contents (Elt F)),
    StableHlo.binary main_arg0 main_v6 main_v7 (Host.divf : (⟨S2048x1024, .f32⟩ : BufTy).Contents (Elt F) → (⟨S2048x1024, .f32⟩ : BufTy).Contents (Elt F) → (⟨S2048x1024, .f32⟩ : BufTy).Contents (Elt F)),
    StableHlo.binary main_arg1 main_arg1 main_v8 (mulf : (⟨S2048x1024, .f32⟩ : BufTy).Contents (Elt F) → (⟨S2048x1024, .f32⟩ : BufTy).Contents (Elt F) → (⟨S2048x1024, .f32⟩ : BufTy).Contents (Elt F)),
    StableHlo.nullary main_cst_1 (constant S_ .f32 0x00000000#32),
    StableHlo.binary main_v8 main_cst_1 main_v9 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    StableHlo.unary main_v9 main_v10 (broadcastInDim S2048x1 ![0] bcast_S2048_S2048x1_0 : (⟨S2048, .f32⟩ : BufTy).Contents (Elt F) → (⟨S2048x1, .f32⟩ : BufTy).Contents (Elt F)),
    StableHlo.unary main_v10 main_v11 (Host.sqrt : (⟨S2048x1, .f32⟩ : BufTy).Contents (Elt F) → (⟨S2048x1, .f32⟩ : BufTy).Contents (Elt F)),
    StableHlo.nullary main_cst_2 (constant S_ .f32 0x2B8CBCCC#32),
    StableHlo.unary main_cst_2 main_v12 (broadcastInDim S2048x1 ![] bcast_S_S2048x1 : (⟨S_, .f32⟩ : BufTy).Contents (Elt F) → (⟨S2048x1, .f32⟩ : BufTy).Contents (Elt F)),
    StableHlo.binary main_v11 main_v12 main_v13 (maximumf : (⟨S2048x1, .f32⟩ : BufTy).Contents (Elt F) → (⟨S2048x1, .f32⟩ : BufTy).Contents (Elt F) → (⟨S2048x1, .f32⟩ : BufTy).Contents (Elt F)),
    StableHlo.unary main_v13 main_v14 (broadcastInDim S2048x1024 ![0, 1] bcast_S2048x1_S2048x1024_0_1 : (⟨S2048x1, .f32⟩ : BufTy).Contents (Elt F) → (⟨S2048x1024, .f32⟩ : BufTy).Contents (Elt F)),
    StableHlo.binary main_arg1 main_v14 main_v15 (Host.divf : (⟨S2048x1024, .f32⟩ : BufTy).Contents (Elt F) → (⟨S2048x1024, .f32⟩ : BufTy).Contents (Elt F) → (⟨S2048x1024, .f32⟩ : BufTy).Contents (Elt F)),
    StableHlo.binary main_v7 main_v15 main_v16 ((fun a b => concatenate S4096x1024 0 [⟨S2048x1024, a⟩, ⟨S2048x1024, b⟩] concatenates_S2048x1024_S2048x1024_S4096x1024_d0) : (⟨S2048x1024, .f32⟩ : BufTy).Contents (Elt F) → (⟨S2048x1024, .f32⟩ : BufTy).Contents (Elt F) → (⟨S4096x1024, .f32⟩ : BufTy).Contents (Elt F)) ]

set_option maxRecDepth 16384 in
set_option maxHeartbeats 4000000 in
/-- This part, followed by a line that computes the rest of the term, computes the term from this part on. -/
theorem stepA (rest : List (HloOp τ sig (Elt F)))
    (hrest : ∀ W : Valuation τ sig (Elt F), after rest W (main_v66 : DevRef τ sig) = RefTerm.refTerm_part1 (W (main_v16 : DevRef τ sig)))
    (W : Valuation τ sig (Elt F)) :
    after (opsA ++ rest) W (main_v66 : DevRef τ sig) = RefTerm.refTerm (W (main_arg0 : DevRef τ sig)) (W (main_arg1 : DevRef τ sig)) := by
  rw [after_append, hrest]
  after_results_simp
  rfl

set_option maxRecDepth 16384 in
set_option maxHeartbeats 4000000 in
/-- The part does not write the first argument. -/
theorem keepA0 (W : Valuation τ sig (Elt F)) : after opsA W (main_arg0 : DevRef τ sig) = W (main_arg0 : DevRef τ sig) := by
  after_results_simp

set_option maxRecDepth 16384 in
set_option maxHeartbeats 4000000 in
/-- The part does not write the second argument. -/
theorem keepA1 (W : Valuation τ sig (Elt F)) : after opsA W (main_arg1 : DevRef τ sig) = W (main_arg1 : DevRef τ sig) := by
  after_results_simp

end Cert.ReferenceIdeal.RefRunC

end
-- ==== Proof.RefRunC_B.lean ====
/-
  One consecutive part of the reference program's operations (similarities over the temperature, shifted by the row maximum, exponentiated; the row numbers shifted by 2048), read as a fold: whatever follows it, if what
  follows leaves in the result buffer the rest of the result term over the values it reads, then this part followed by it
  leaves the result term from this part on, over the values this part reads. The arguments' buffers are not written.
-/
import proofs.«103263_j83167746719846_2_alg».proof.Proof.RefRunC_Base

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The part's operations, in order. -/
abbrev opsB : List (HloOp τ sig (Elt F)) :=
  [ StableHlo.unary main_v16 main_v17 ((transpose S1024x4096 [1, 0] · transposes_S4096x1024_S1024x4096_1_0) : (⟨S4096x1024, .f32⟩ : BufTy).Contents (Elt F) → (⟨S1024x4096, .f32⟩ : BufTy).Contents (Elt F)),
    StableHlo.binary main_v16 main_v17 main_v18 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    StableHlo.nullary main_cst_3 (constant S_ .f32 0x3D8F5C29#32),
    StableHlo.unary main_cst_3 main_v19 (broadcastInDim S4096x4096 ![] bcast_S_S4096x4096 : (⟨S_, .f32⟩ : BufTy).Contents (Elt F) → (⟨S4096x4096, .f32⟩ : BufTy).Contents (Elt F)),
    StableHlo.binary main_v18 main_v19 main_v20 (Host.divf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0xFF800000#32),
    StableHlo.binary main_v20 main_cst_4 main_v21 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v21 main_v22 (broadcastInDim S4096x1 ![0] bcast_S4096_S4096x1_0 : (⟨S4096, .f32⟩ : BufTy).Contents (Elt F) → (⟨S4096x1, .f32⟩ : BufTy).Contents (Elt F)),
    StableHlo.unary main_v22 main_v23 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v20 main_v23 main_v24 (subf : (⟨S4096x4096, .f32⟩ : BufTy).Contents (Elt F) → (⟨S4096x4096, .f32⟩ : BufTy).Contents (Elt F) → (⟨S4096x4096, .f32⟩ : BufTy).Contents (Elt F)),
    StableHlo.unary main_v24 main_v25 (Host.exp : (⟨S4096x4096, .f32⟩ : BufTy).Contents (Elt F) → (⟨S4096x4096, .f32⟩ : BufTy).Contents (Elt F)),
    StableHlo.nullary main_v26 (iotaInDim S4096 32 0),
    StableHlo.nullary main_c (constantI S_ 32 2048#32),
    StableHlo.unary main_c main_v27 (broadcastInDim S4096 ![] bcast_S_S4096 : (⟨S_, .i32⟩ : BufTy).Contents (Elt F) → (⟨S4096, .i32⟩ : BufTy).Contents (Elt F)),
    StableHlo.binary main_v26 main_v27 main_v28 (addi : (⟨S4096, .i32⟩ : BufTy).Contents (Elt F) → (⟨S4096, .i32⟩ : BufTy).Contents (Elt F) → (⟨S4096, .i32⟩ : BufTy).Contents (Elt F)),
    StableHlo.nullary main_c_5 (constantI S_ 32 4096#32) ]

set_option maxRecDepth 16384 in
set_option maxHeartbeats 4000000 in
/-- This part, followed by a line that computes the rest of the term, computes the term from this part on. -/
theorem stepB (rest : List (HloOp τ sig (Elt F)))
    (hrest : ∀ W : Valuation τ sig (Elt F), after rest W (main_v66 : DevRef τ sig) = RefTerm.refTerm_part2 (W (main_v25 : DevRef τ sig)) (W (main_v26 : DevRef τ sig)) (W (main_v28 : DevRef τ sig)) (W (main_c_5 : DevRef τ sig)))
    (W : Valuation τ sig (Elt F)) :
    after (opsB ++ rest) W (main_v66 : DevRef τ sig) = RefTerm.refTerm_part1 (W (main_v16 : DevRef τ sig)) := by
  rw [after_append, hrest]
  after_results_simp
  rfl

set_option maxRecDepth 16384 in
set_option maxHeartbeats 4000000 in
/-- The part does not write the first argument. -/
theorem keepB0 (W : Valuation τ sig (Elt F)) : after opsB W (main_arg0 : DevRef τ sig) = W (main_arg0 : DevRef τ sig) := by
  after_results_simp

set_option maxRecDepth 16384 in
set_option maxHeartbeats 4000000 in
/-- The part does not write the second argument. -/
theorem keepB1 (W : Valuation τ sig (Elt F)) : after opsB W (main_arg1 : DevRef τ sig) = W (main_arg1 : DevRef τ sig) := by
  after_results_simp

end Cert.ReferenceIdeal.RefRunC

end
-- ==== Proof.RefRunC_C.lean ====
/-
  One consecutive part of the reference program's operations (the remainder of the shifted row numbers by 4096), read as a fold: whatever follows it, if what
  follows leaves in the result buffer the rest of the result term over the values it reads, then this part followed by it
  leaves the result term from this part on, over the values this part reads. The arguments' buffers are not written.
-/
import proofs.«103263_j83167746719846_2_alg».proof.Proof.RefRunC_Base

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The part's operations, in order. -/
abbrev opsC : List (HloOp τ sig (Elt F)) :=
  [ StableHlo.TRef.unary (.of main_c_5 : TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S4096 ![] bcast_S_S4096),
    StableHlo.TRef.binary (.of main_v28 : TRef sig ⟨S4096, .i32⟩) main_call0.v3 main_call0.v4 Host.remsi,
    StableHlo.TRef.nullary main_call0.c_1 (constantI S_ 32 0#32),
    StableHlo.TRef.unary main_call0.c_1 main_call0.v5 (broadcastInDim S4096 ![] bcast_S_S4096),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S4096 ![] bcast_S_S4096),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S4096 ![] bcast_S_S4096),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S4096 ![] bcast_S_S4096),
    StableHlo.TRef.binary main_call0.v4 main_call0.v13 main_call0.v14 addi,
    StableHlo.TRef.ternary main_call0.v12 main_call0.v14 main_call0.v4 main_call0.v15 select ]

set_option maxRecDepth 16384 in
set_option maxHeartbeats 4000000 in
/-- This part, followed by a line that computes the rest of the term, computes the term from this part on. -/
theorem stepC (rest : List (HloOp τ sig (Elt F)))
    (hrest : ∀ W : Valuation τ sig (Elt F), after rest W (main_v66 : DevRef τ sig) = RefTerm.refTerm_part3 (W (main_v25 : DevRef τ sig)) (W (main_v26 : DevRef τ sig)) (W (main_v29 : DevRef τ sig)))
    (W : Valuation τ sig (Elt F)) :
    after (opsC ++ rest) W (main_v66 : DevRef τ sig) = RefTerm.refTerm_part2 (W (main_v25 : DevRef τ sig)) (W (main_v26 : DevRef τ sig)) (W (main_v28 : DevRef τ sig)) (W (main_c_5 : DevRef τ sig)) := by
  rw [after_append, hrest]
  after_results_simp
  rfl

set_option maxRecDepth 16384 in
set_option maxHeartbeats 4000000 in
/-- The part does not write the first argument. -/
theorem keepC0 (W : Valuation τ sig (Elt F)) : after opsC W (main_arg0 : DevRef τ sig) = W (main_arg0 : DevRef τ sig) := by
  after_results_simp

set_option maxRecDepth 16384 in
set_option maxHeartbeats 4000000 in
/-- The part does not write the second argument. -/
theorem keepC1 (W : Valuation τ sig (Elt F)) : after opsC W (main_arg1 : DevRef τ sig) = W (main_arg1 : DevRef τ sig) := by
  after_results_simp

end Cert.ReferenceIdeal.RefRunC

end
-- ==== Proof.RefRunC_D.lean ====
/-
  One consecutive part of the reference program's operations (the partner's index pairs and the entries they pick; the row sums), read as a fold: whatever follows it, if what
  follows leaves in the result buffer the rest of the result term over the values it reads, then this part followed by it
  leaves the result term from this part on, over the values this part reads. The arguments' buffers are not written.
-/
import proofs.«103263_j83167746719846_2_alg».proof.Proof.RefRunC_Base

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The part's operations, in order. -/
abbrev opsD : List (HloOp τ sig (Elt F)) :=
  [ StableHlo.nullary main_c_6 (constantI S_ 32 0#32),
    StableHlo.unary main_c_6 main_v30 (broadcastInDim S4096 ![] bcast_S_S4096 : (⟨S_, .i32⟩ : BufTy).Contents (Elt F) → (⟨S4096, .i32⟩ : BufTy).Contents (Elt F)),
    StableHlo.binary main_v26 main_v30 main_v31 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4096#32),
    StableHlo.unary main_c_7 main_v32 (broadcastInDim S4096 ![] bcast_S_S4096 : (⟨S_, .i32⟩ : BufTy).Contents (Elt F) → (⟨S4096, .i32⟩ : BufTy).Contents (Elt F)),
    StableHlo.binary main_v26 main_v32 main_v33 (addi : (⟨S4096, .i32⟩ : BufTy).Contents (Elt F) → (⟨S4096, .i32⟩ : BufTy).Contents (Elt F) → (⟨S4096, .i32⟩ : BufTy).Contents (Elt F)),
    StableHlo.ternary main_v31 main_v33 main_v26 main_v34 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_8 (constantI S_ 32 0#32),
    StableHlo.unary main_c_8 main_v35 (broadcastInDim S4096 ![] bcast_S_S4096 : (⟨S_, .i32⟩ : BufTy).Contents (Elt F) → (⟨S4096, .i32⟩ : BufTy).Contents (Elt F)),
    StableHlo.binary main_v29 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 4096#32),
    StableHlo.unary main_c_9 main_v37 (broadcastInDim S4096 ![] bcast_S_S4096 : (⟨S_, .i32⟩ : BufTy).Contents (Elt F) → (⟨S4096, .i32⟩ : BufTy).Contents (Elt F)),
    StableHlo.binary main_v29 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v29 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v34 main_v40 (broadcastInDim S4096x1 ![0] bcast_S4096_S4096x1_0 : (⟨S4096, .i32⟩ : BufTy).Contents (Elt F) → (⟨S4096x1, .i32⟩ : BufTy).Contents (Elt F)),
    StableHlo.unary main_v39 main_v41 (broadcastInDim S4096x1 ![0] bcast_S4096_S4096x1_0 : (⟨S4096, .i32⟩ : BufTy).Contents (Elt F) → (⟨S4096x1, .i32⟩ : BufTy).Contents (Elt F)),
    StableHlo.binary main_v40 main_v41 main_v42 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v25 main_v42 main_v43 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_cst_10 (constant S_ .f32 0x00000000#32),
    StableHlo.binary main_v25 main_cst_10 main_v44 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]

set_option maxRecDepth 16384 in
set_option maxHeartbeats 4000000 in
/-- This part, followed by a line that computes the rest of the term, computes the term from this part on. -/
theorem stepD (rest : List (HloOp τ sig (Elt F)))
    (hrest : ∀ W : Valuation τ sig (Elt F), after rest W (main_v66 : DevRef τ sig) = RefTerm.refTerm_part4 (W (main_v25 : DevRef τ sig)) (W (main_v26 : DevRef τ sig)) (W (main_v43 : DevRef τ sig)) (W (main_v44 : DevRef τ sig)))
    (W : Valuation τ sig (Elt F)) :
    after (opsD ++ rest) W (main_v66 : DevRef τ sig) = RefTerm.refTerm_part3 (W (main_v25 : DevRef τ sig)) (W (main_v26 : DevRef τ sig)) (W (main_v29 : DevRef τ sig)) := by
  rw [after_append, hrest]
  after_results_simp
  rfl

set_option maxRecDepth 16384 in
set_option maxHeartbeats 4000000 in
/-- The part does not write the first argument. -/
theorem keepD0 (W : Valuation τ sig (Elt F)) : after opsD W (main_arg0 : DevRef τ sig) = W (main_arg0 : DevRef τ sig) := by
  after_results_simp

set_option maxRecDepth 16384 in
set_option maxHeartbeats 4000000 in
/-- The part does not write the second argument. -/
theorem keepD1 (W : Valuation τ sig (Elt F)) : after opsD W (main_arg1 : DevRef τ sig) = W (main_arg1 : DevRef τ sig) := by
  after_results_simp

end Cert.ReferenceIdeal.RefRunC

end
-- ==== Proof.RefRunC_E.lean ====
/-
  One consecutive part of the reference program's operations (the diagonal's index pairs and the entries they pick), read as a fold: whatever follows it, if what
  follows leaves in the result buffer the rest of the result term over the values it reads, then this part followed by it
  leaves the result term from this part on, over the values this part reads. The arguments' buffers are not written.
-/
import proofs.«103263_j83167746719846_2_alg».proof.Proof.RefRunC_Base

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The part's operations, in order. -/
abbrev opsE : List (HloOp τ sig (Elt F)) :=
  [ StableHlo.nullary main_c_11 (constantI S_ 32 0#32),
    StableHlo.unary main_c_11 main_v45 (broadcastInDim S4096 ![] bcast_S_S4096 : (⟨S_, .i32⟩ : BufTy).Contents (Elt F) → (⟨S4096, .i32⟩ : BufTy).Contents (Elt F)),
    StableHlo.binary main_v26 main_v45 main_v46 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4096#32),
    StableHlo.unary main_c_12 main_v47 (broadcastInDim S4096 ![] bcast_S_S4096 : (⟨S_, .i32⟩ : BufTy).Contents (Elt F) → (⟨S4096, .i32⟩ : BufTy).Contents (Elt F)),
    StableHlo.binary main_v26 main_v47 main_v48 (addi : (⟨S4096, .i32⟩ : BufTy).Contents (Elt F) → (⟨S4096, .i32⟩ : BufTy).Contents (Elt F) → (⟨S4096, .i32⟩ : BufTy).Contents (Elt F)),
    StableHlo.ternary main_v46 main_v48 main_v26 main_v49 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_13 (constantI S_ 32 0#32),
    StableHlo.unary main_c_13 main_v50 (broadcastInDim S4096 ![] bcast_S_S4096 : (⟨S_, .i32⟩ : BufTy).Contents (Elt F) → (⟨S4096, .i32⟩ : BufTy).Contents (Elt F)),
    StableHlo.binary main_v26 main_v50 main_v51 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 4096#32),
    StableHlo.unary main_c_14 main_v52 (broadcastInDim S4096 ![] bcast_S_S4096 : (⟨S_, .i32⟩ : BufTy).Contents (Elt F) → (⟨S4096, .i32⟩ : BufTy).Contents (Elt F)),
    StableHlo.binary main_v26 main_v52 main_v53 (addi : (⟨S4096, .i32⟩ : BufTy).Contents (Elt F) → (⟨S4096, .i32⟩ : BufTy).Contents (Elt F) → (⟨S4096, .i32⟩ : BufTy).Contents (Elt F)),
    StableHlo.ternary main_v51 main_v53 main_v26 main_v54 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v49 main_v55 (broadcastInDim S4096x1 ![0] bcast_S4096_S4096x1_0 : (⟨S4096, .i32⟩ : BufTy).Contents (Elt F) → (⟨S4096x1, .i32⟩ : BufTy).Contents (Elt F)),
    StableHlo.unary main_v54 main_v56 (broadcastInDim S4096x1 ![0] bcast_S4096_S4096x1_0 : (⟨S4096, .i32⟩ : BufTy).Contents (Elt F) → (⟨S4096x1, .i32⟩ : BufTy).Contents (Elt F)),
    StableHlo.binary main_v55 main_v56 main_v57 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v25 main_v57 main_v58 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)) ]

set_option maxRecDepth 16384 in
set_option maxHeartbeats 4000000 in
/-- This part, followed by a line that computes the rest of the term, computes the term from this part on. -/
theorem stepE (rest : List (HloOp τ sig (Elt F)))
    (hrest : ∀ W : Valuation τ sig (Elt F), after rest W (main_v66 : DevRef τ sig) = RefTerm.refTerm_part5 (W (main_v43 : DevRef τ sig)) (W (main_v44 : DevRef τ sig)) (W (main_v58 : DevRef τ sig)))
    (W : Valuation τ sig (Elt F)) :
    after (opsE ++ rest) W (main_v66 : DevRef τ sig) = RefTerm.refTerm_part4 (W (main_v25 : DevRef τ sig)) (W (main_v26 : DevRef τ sig)) (W (main_v43 : DevRef τ sig)) (W (main_v44 : DevRef τ sig)) := by
  rw [after_append, hrest]
  after_results_simp
  rfl

set_option maxRecDepth 16384 in
set_option maxHeartbeats 4000000 in
/-- The part does not write the first argument. -/
theorem keepE0 (W : Valuation τ sig (Elt F)) : after opsE W (main_arg0 : DevRef τ sig) = W (main_arg0 : DevRef τ sig) := by
  after_results_simp

set_option maxRecDepth 16384 in
set_option maxHeartbeats 4000000 in
/-- The part does not write the second argument. -/
theorem keepE1 (W : Valuation τ sig (Elt F)) : after opsE W (main_arg1 : DevRef τ sig) = W (main_arg1 : DevRef τ sig) := by
  after_results_simp

end Cert.ReferenceIdeal.RefRunC

end
-- ==== Proof.RefRunC_F.lean ====
/-
  One consecutive part of the reference program's operations (row sum less the diagonal entry, the quotient, plus ε, minus the logarithm, summed and divided by 4096), read as a fold: whatever follows it, if what
  follows leaves in the result buffer the rest of the result term over the values it reads, then this part followed by it
  leaves the result term from this part on, over the values this part reads. The arguments' buffers are not written.
-/
import proofs.«103263_j83167746719846_2_alg».proof.Proof.RefRunC_Base

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The part's operations, in order. -/
abbrev opsF : List (HloOp τ sig (Elt F)) :=
  [ StableHlo.binary main_v44 main_v58 main_v59 (subf : (⟨S4096, .f32⟩ : BufTy).Contents (Elt F) → (⟨S4096, .f32⟩ : BufTy).Contents (Elt F) → (⟨S4096, .f32⟩ : BufTy).Contents (Elt F)),
    StableHlo.binary main_v43 main_v59 main_v60 (Host.divf : (⟨S4096, .f32⟩ : BufTy).Contents (Elt F) → (⟨S4096, .f32⟩ : BufTy).Contents (Elt F) → (⟨S4096, .f32⟩ : BufTy).Contents (Elt F)),
    StableHlo.nullary main_cst_15 (constant S_ .f32 0x322BCC77#32),
    StableHlo.unary main_cst_15 main_v61 (broadcastInDim S4096 ![] bcast_S_S4096 : (⟨S_, .f32⟩ : BufTy).Contents (Elt F) → (⟨S4096, .f32⟩ : BufTy).Contents (Elt F)),
    StableHlo.binary main_v60 main_v61 main_v62 (addf : (⟨S4096, .f32⟩ : BufTy).Contents (Elt F) → (⟨S4096, .f32⟩ : BufTy).Contents (Elt F) → (⟨S4096, .f32⟩ : BufTy).Contents (Elt F)),
    StableHlo.unary main_v62 main_v63 (Host.log : (⟨S4096, .f32⟩ : BufTy).Contents (Elt F) → (⟨S4096, .f32⟩ : BufTy).Contents (Elt F)),
    StableHlo.unary main_v63 main_v64 (Host.negf : (⟨S4096, .f32⟩ : BufTy).Contents (Elt F) → (⟨S4096, .f32⟩ : BufTy).Contents (Elt F)),
    StableHlo.nullary main_cst_16 (constant S_ .f32 0x00000000#32),
    StableHlo.binary main_v64 main_cst_16 main_v65 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_17 (constant S_ .f32 0x45800000#32),
    StableHlo.binary main_v65 main_cst_17 main_v66 (Host.divf : (⟨S_, .f32⟩ : BufTy).Contents (Elt F) → (⟨S_, .f32⟩ : BufTy).Contents (Elt F) → (⟨S_, .f32⟩ : BufTy).Contents (Elt F)) ]

set_option maxRecDepth 16384 in
set_option maxHeartbeats 4000000 in
/-- The last part computes the last part of the term. -/
theorem stepF (W : Valuation τ sig (Elt F)) :
    after opsF W (main_v66 : DevRef τ sig) = RefTerm.refTerm_part5 (W (main_v43 : DevRef τ sig)) (W (main_v44 : DevRef τ sig)) (W (main_v58 : DevRef τ sig)) := by
  after_results_simp
  rfl

set_option maxRecDepth 16384 in
set_option maxHeartbeats 4000000 in
/-- The part does not write the first argument. -/
theorem keepF0 (W : Valuation τ sig (Elt F)) : after opsF W (main_arg0 : DevRef τ sig) = W (main_arg0 : DevRef τ sig) := by
  after_results_simp

set_option maxRecDepth 16384 in
set_option maxHeartbeats 4000000 in
/-- The part does not write the second argument. -/
theorem keepF1 (W : Valuation τ sig (Elt F)) : after opsF W (main_arg1 : DevRef τ sig) = W (main_arg1 : DevRef τ sig) := by
  after_results_simp

end Cert.ReferenceIdeal.RefRunC

end
-- ==== Proof.RefRunC.lean ====
/-
  The run of the reference program, its operations read part by part: the operations are the six consecutive parts one
  after the other; the last part computes the last part of the result term, and each earlier part followed by the rest
  computes the term from that part on, so the whole line leaves the result term of the two arguments' contents in the
  result buffer; no part writes an argument's buffer. From any memory with zero counters every weakly fair execution of
  the program then terminates with the result buffer at that term and the two arguments unchanged.
-/
import proofs.«103263_j83167746719846_2_alg».proof.Proof.RefRunC_A
import proofs.«103263_j83167746719846_2_alg».proof.Proof.RefRunC_B
import proofs.«103263_j83167746719846_2_alg».proof.Proof.RefRunC_C
import proofs.«103263_j83167746719846_2_alg».proof.Proof.RefRunC_D
import proofs.«103263_j83167746719846_2_alg».proof.Proof.RefRunC_E
import proofs.«103263_j83167746719846_2_alg».proof.Proof.RefRunC_F

noncomputable section

namespace Cert.ReferenceIdeal.RefRunC

open Cert.ReferenceIdeal Idealize.ShloMosaic Idealize.ShloMosaic.TcCoe Idealize.SL.Sem Idealize.ShloMosaic.StableHlo
open Cert.ReferenceIdeal.Facts₀ Cert.ReferenceIdeal.Facts
open Cert.ReferenceIdeal.RefRun

variable {F : FTy → Type} [FloatOps F]

/-- The operations are the six parts, one after the other. -/
theorem ops_eq : (ops : List (HloOp τ sig (Elt F))) = opsA ++ (opsB ++ (opsC ++ (opsD ++ (opsE ++ opsF)))) := rfl

/-- The fold of the operations at the result buffer is the result term of the arguments' contents. -/
theorem out_eq (V : Valuation τ sig (Elt F)) :
    after ops V (main_v66 : DevRef τ sig)
      = RefTerm.refTerm (V (main_arg0 : DevRef τ sig)) (V (main_arg1 : DevRef τ sig)) := by
  rw [ops_eq]
  exact stepA _ (stepB _ (stepC _ (stepD _ (stepE _ stepF)))) V

/-- The first argument's buffer is as it was. -/
theorem arg0_eq (V : Valuation τ sig (Elt F)) :
    after ops V (main_arg0 : DevRef τ sig) = V (main_arg0 : DevRef τ sig) := by
  rw [ops_eq, after_append, after_append, after_append, after_append, after_append, keepF0, keepE0, keepD0, keepC0, keepB0,
    keepA0]

/-- The second argument's buffer is as it was. -/
theorem arg1_eq (V : Valuation τ sig (Elt F)) :
    after ops V (main_arg1 : DevRef τ sig) = V (main_arg1 : DevRef τ sig) := by
  rw [ops_eq, after_append, after_append, after_append, after_append, after_append, keepF1, keepE1, keepD1, keepC1, keepB1,
    keepA1]

/-- On every device, for any float values, from any memory with zero counters: every weakly fair execution of
    @main terminates with the result at the reference's result term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = Cert.ReferenceIdeal.RefTerm.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v66).trans ((out_eq _).trans rfl),
      (h c main_arg0).trans ((arg0_eq _).trans rfl),
      (h c main_arg1).trans ((arg1_eq _).trans rfl)⟩)
    (run_seq scopedRefs_eq scopedSems_eq defs main (fun _ => ops) main_eq (fun _ => ops_sub) m ρ)

end Cert.ReferenceIdeal.RefRunC

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefReadSim.lean ====
/-
  The reference's middle stage read at an entry over the extended reals: from the 4096 stacked rows z to the
  shifted exponentials.

  The host transposes z and multiplies z by the transpose: entry (r, j) is Σ_k z(r,k)·z(j,k), the similarity
  s(r,j).  It divides by the constant τ: t(r,j) = s(r,j)/τ.  It takes each row's maximum from −∞:
  M(r) = max_j t(r,j), the fold of max from ⊥.  It places the maxima as a column, repeats the column along the rows,
  subtracts and exponentiates: e(r,j) = exp(t(r,j) − M(r)).
-/
import proofs.«103263_j83167746719846_2_alg».proof.ReferenceIdeal
import proofs.«103263_j83167746719846_2_alg».proof.Proof.Spec
import proofs.«103263_j83167746719846_2_alg».proof.Proof.LibHostRows
import proofs.«103263_j83167746719846_2_alg».proof.Proof.LibHostReduceMax
import proofs.«103263_j83167746719846_2_alg».proof.Proof.RefReadZ
import Idealize.ShloMosaic.Lib.ValueLayout

noncomputable section

namespace Cert.ReferenceIdeal.RefRead

open Idealize.ShloMosaic Idealize.ShloMosaic.ValueIdx Cert.ReferenceIdeal Cert.Simclr

variable [Cert.ReferenceIdeal.Facts]
open Facts₀ Facts

/-- The printed contraction record is the plain one: 4096×1024 by 1024×4096. -/
theorem dot_eq_plain : dot_S4096x1024_S1024x4096_S4096x4096_1_0_0_1_n_n = DotDims.plain 4096 1024 4096 := rfl

/-- z times its transpose, read at (r, j): the similarity of rows r and j. -/
theorem simHost_apply (z : FVec Ideal S4096x1024 .f32) (r j : Fin 4096) :
    (fun l r => Host.dotGeneral (F := Ideal) dot_S4096x1024_S1024x4096_S4096x4096_1_0_0_1_n_n none l r) z
        ((transpose S1024x4096 [1, 0] · transposes_S4096x1024_S1024x4096_1_0) z) (ix2 r j)
      = Cert.Simclr.sim z r j := by
  show Host.dotGeneral (F := Ideal) dot_S4096x1024_S1024x4096_S4096x4096_1_0_0_1_n_n none z
      (transpose S1024x4096 [1, 0] z transposes_S4096x1024_S1024x4096_1_0) (ix2 r j) = _
  rw [dot_eq_plain, Cert.LibHostRows.dotGeneral_plain_apply]
  unfold Cert.Simclr.sim
  refine Finset.sum_congr rfl fun c _ => ?_
  rw [transpose_ix2_apply]

/-- An array divided by the constant τ spread over it, read at an entry. -/
theorem divTau_apply (s : FVec Ideal S4096x4096 .f32) (i : S4096x4096.Idx) :
    Host.divf (F := Ideal) s (broadcastInDim S4096x4096 ![] bcast_S_S4096x4096 (constant (F := Ideal) S_ .f32 0x3D8F5C29#32)) i
      = Ideal.div (s i) Cert.Simclr.tau := by
  rw [hostDivf_apply, Cert.LibHostRows.broadcastInDim_scalar_apply, constant_apply]
  rfl

/-- Row r of a 4096×4096 array with column k put back is (r, k). -/
theorem lift_row (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

/-- The host's row maximum from −∞, read at row r: the fold of max from ⊥ over the row. -/
theorem rowMax_apply (t : FVec Ideal S4096x4096 .f32) (r : Fin 4096) :
    (fun x v => Host.reduce (FloatOps.maximumf (F := Ideal) (φ := .f32)) x v reducesTo_S4096x4096_S4096_d1 h_S_) t
        (constant (F := Ideal) S_ .f32 0xFF800000#32) (ix1 r)
      = Finset.univ.fold max ⊥ (fun j : Fin 4096 => t (ix2 r j)) := by
  have h : S4096x4096.Reduces [1] S4096 := by decide
  show Host.reduce (FloatOps.maximumf (F := Ideal) (φ := .f32)) t (constant (F := Ideal) S_ .f32 0xFF800000#32)
      reducesTo_S4096x4096_S4096_d1 h_S_ (ix1 r) = _
  rw [Cert.ReferenceIdeal.RefValue.hostReduce_max_single t _ reducesTo_S4096x4096_S4096_d1 h h_S_ (ix1 r)
    (by rw [constant_apply]; simp [Ideal.ofBits, Ideal.ieee])]
  exact congrArg (fun f => Finset.fold max (⊥ : EReal) f (Finset.univ : Finset (Fin 4096)))
    (funext fun k => congrArg t (lift_row h r k))

/-- An array less its row maxima (placed as a column and repeated along the rows), exponentiated, read at (r, j). -/
theorem shiftExp_apply (t : FVec Ideal S4096x4096 .f32) (r j : Fin 4096) :
    Host.exp (F := Ideal) (subf t (broadcastInDim S4096x4096 ![0, 1] bcast_S4096x1_S4096x4096_0_1
        (broadcastInDim S4096x1 ![0] bcast_S4096_S4096x1_0
          ((fun x v => Host.reduce (FloatOps.maximumf (F := Ideal) (φ := .f32)) x v reducesTo_S4096x4096_S4096_d1 h_S_) t
            (constant (F := Ideal) S_ .f32 0xFF800000#32))))) (ix2 r j)
      = Ideal.exp (t (ix2 r j) - Finset.univ.fold max ⊥ (fun j' : Fin 4096 => t (ix2 r j'))) := by
  rw [hostExp_apply, subf_apply, Cert.LibHostRows.broadcastInDim_a1_ab_apply, Cert.LibHostRows.broadcastInDim_a_a1_apply,
    rowMax_apply]

/-- The reference's shifted exponentials as a function of the stacked rows: the printed operations from the transpose
    to the exponential. -/
def expHost (z : FVec Ideal S4096x1024 .f32) : FVec Ideal S4096x4096 .f32 :=
  let main_v17 : FVec Ideal S1024x4096 .f32 := (transpose S1024x4096 [1, 0] · transposes_S4096x1024_S1024x4096_1_0) z
  let main_v18 : FVec Ideal S4096x4096 .f32 := (fun l r => Host.dotGeneral dot_S4096x1024_S1024x4096_S4096x4096_1_0_0_1_n_n none l r) z main_v17
  let main_cst_3 : FVec Ideal S_ .f32 := constant S_ .f32 0x3D8F5C29#32
  let main_v19 : FVec Ideal S4096x4096 .f32 := broadcastInDim S4096x4096 ![] bcast_S_S4096x4096 main_cst_3
  let main_v20 : FVec Ideal S4096x4096 .f32 := Host.divf main_v18 main_v19
  let main_cst_4 : FVec Ideal S_ .f32 := constant S_ .f32 0xFF800000#32
  let main_v21 : FVec Ideal S4096 .f32 := (fun x v => Host.reduce FloatOps.maximumf x v reducesTo_S4096x4096_S4096_d1 h_S_) main_v20 main_cst_4
  let main_v22 : FVec Ideal S4096x1 .f32 := broadcastInDim S4096x1 ![0] bcast_S4096_S4096x1_0 main_v21
  let main_v23 : FVec Ideal S4096x4096 .f32 := broadcastInDim S4096x4096 ![0, 1] bcast_S4096x1_S4096x4096_0_1 main_v22
  let main_v24 : FVec Ideal S4096x4096 .f32 := subf main_v20 main_v23
  let main_v25 : FVec Ideal S4096x4096 .f32 := Host.exp main_v24
  main_v25

/-- The reference's similarities over τ, read at (r, j). -/
theorem tHost_apply (z : FVec Ideal S4096x1024 .f32) (r j : Fin 4096) :
    Host.divf (F := Ideal) ((fun l r => Host.dotGeneral (F := Ideal) dot_S4096x1024_S1024x4096_S4096x4096_1_0_0_1_n_n none l r) z
        ((transpose S1024x4096 [1, 0] · transposes_S4096x1024_S1024x4096_1_0) z))
      (broadcastInDim S4096x4096 ![] bcast_S_S4096x4096 (constant (F := Ideal) S_ .f32 0x3D8F5C29#32)) (ix2 r j)
      = Cert.Simclr.tR z r j := by
  rw [divTau_apply, simHost_apply]
  rfl

/-- The reference's shifted exponentials read at (r, j): exp(t(r,j) − M(r)). -/
theorem expHost_apply (z : FVec Ideal S4096x1024 .f32) (r j : Fin 4096) :
    expHost z (ix2 r j) = Cert.Simclr.eR z r j := by
  unfold expHost
  dsimp only
  rw [shiftExp_apply, tHost_apply]
  unfold Cert.Simclr.eR Cert.Simclr.mR
  exact congrArg (fun f => Ideal.exp (Cert.Simclr.tR z r j - Finset.fold max (⊥ : EReal) f (Finset.univ : Finset (Fin 4096))))
    (funext fun j' => tHost_apply z r j')

end Cert.ReferenceIdeal.RefRead

end
-- ==== Proof.RefIdxInt.lean ====
/-
  The reference's integer part, read at a row. It depends on no input: the row numbers 0 … 4095 as 32-bit words; the
  partner's number (row + 2048) mod 4096 through the floored-remainder routine (the truncated signed remainder, then
  the divisor added back where the remainder is nonzero and its sign differs from the divisor's); and the index
  normalisation (an index below zero moved up by 4096). All numbers stay below 6144, so every signed reading is the
  number itself: the truncated remainder is the natural one, no sign fix-up fires, and no index is moved.
-/
import proofs.«103263_j83167746719846_2_alg».proof.ReferenceIdeal
import proofs.«103263_j83167746719846_2_alg».proof.Proof.Spec
import Idealize.ShloMosaic.Lib.Affine
import Idealize.ShloMosaic.Lib.IdealHost
import Idealize.ShloMosaic.Lib.ValueIdx

noncomputable section

namespace Cert.ReferenceIdeal.RefIdx

open Idealize.ShloMosaic Idealize.ShloMosaic.ValueIdx

/-! ## Words of small numbers -/

/-- The word of a number below 2^31 read signed is the number. -/
theorem toInt_ofNat_small (n : ℕ) (hn : n < 2 ^ 31) : (BitVec.ofNat 32 n).toInt = (n : Int) := by
  rw [BitVec.toInt_eq_toNat_cond, BitVec.toNat_ofNat, Nat.mod_eq_of_lt (by omega), if_pos (by omega)]

/-- A number below 2^31 is not below zero as a signed word. -/
theorem slt_zero_ofNat (n : ℕ) (hn : n < 2 ^ 31) : IntOp.cmpi .slt (BitVec.ofNat 32 n) 0#32 = 0#1 := by
  refine eq_zero_of_ne_one fun h => ?_
  rw [IntOp.cmpi_slt, toInt_ofNat_small n hn, show (0#32 : BitVec 32).toInt = 0 from by decide] at h
  omega

/-- The host's signed remainder of a number below 2^31 by 4096 is the natural remainder. -/
theorem remsi_4096_ofNat (n : ℕ) (hn : n < 2 ^ 31) :
    IntOp.remsi .host (BitVec.ofNat 32 n) 4096#32 = BitVec.ofNat 32 (n % 4096) := by
  have hx : (BitVec.ofNat 32 n).toNat = n := by rw [BitVec.toNat_ofNat]; omega
  refine BitVec.eq_of_toNat_eq ?_
  rw [IntOp.toNat_remsi .host (x := BitVec.ofNat 32 n) (by rw [hx]; omega) 4096 (by omega) (by omega), hx,
    BitVec.toNat_ofNat]
  omega

/-! ## The integer chain, operation by operation -/

variable [Facts]
open Facts₀ Facts

/-- The row numbers. -/
def rows : IVec S4096 32 := iotaInDim S4096 32 0

/-- The index normalisation: where the index is below zero, the index plus 4096; else the index. -/
def normIdx (x : IVec S4096 32) : IVec S4096 32 :=
  let z : IVec S4096 32 := broadcastInDim S4096 (![] : Fin 0 → Fin S4096.rank) bcast_S_S4096 (constantI S_ 32 0#32)
  let neg : IVec S4096 1 := cmpi .slt x z
  let n : IVec S4096 32 := broadcastInDim S4096 (![] : Fin 0 → Fin S4096.rank) bcast_S_S4096 (constantI S_ 32 4096#32)
  let up : IVec S4096 32 := addi x n
  select neg up x

/-- The floored-remainder routine over a vector of dividends and a scalar divisor: the divisor with zero replaced by
    one, the truncated remainder, and the sign fix-up. -/
def remainderOf (arg0 : IVec S4096 32) (arg1 : IVec S_ 32) : IVec S4096 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := select v1 c_0 v0
  let v3 : IVec S4096 32 := broadcastInDim S4096 (![] : Fin 0 → Fin S4096.rank) bcast_S_S4096 v2
  let v4 : IVec S4096 32 := Host.remsi arg0 v3
  let c_1 : IVec S_ 32 := constantI S_ 32 0#32
  let v5 : IVec S4096 32 := broadcastInDim S4096 (![] : Fin 0 → Fin S4096.rank) bcast_S_S4096 c_1
  let v6 : IVec S4096 1 := cmpi .ne v4 v5
  let c_2 : IVec S_ 32 := constantI S_ 32 0#32
  let v7 : IVec S4096 32 := broadcastInDim S4096 (![] : Fin 0 → Fin S4096.rank) bcast_S_S4096 c_2
  let v8 : IVec S4096 1 := cmpi .slt v4 v7
  let c_3 : IVec S_ 32 := constantI S_ 32 0#32
  let v9 : IVec S_ 1 := cmpi .slt v2 c_3
  let v10 : IVec S4096 1 := broadcastInDim S4096 (![] : Fin 0 → Fin S4096.rank) bcast_S_S4096 v9
  let v11 : IVec S4096 1 := cmpi .ne v8 v10
  let v12 : IVec S4096 1 := andi v11 v6
  let v13 : IVec S4096 32 := broadcastInDim S4096 (![] : Fin 0 → Fin S4096.rank) bcast_S_S4096 v2
  let v14 : IVec S4096 32 := addi v4 v13
  select v12 v14 v4

/-- The row index as the gathers read it: the row numbers, normalised. -/
def rw_ : IVec S4096 32 := normIdx rows

/-- The partner index as the gather reads it: (row numbers + 2048) through the remainder routine by 4096, normalised. -/
def pw : IVec S4096 32 :=
  let v26 : IVec S4096 32 := rows
  let v27 : IVec S4096 32 := broadcastInDim S4096 (![] : Fin 0 → Fin S4096.rank) bcast_S_S4096 (constantI S_ 32 2048#32)
  let v28 : IVec S4096 32 := addi v26 v27
  let v29 : IVec S4096 32 := remainderOf v28 (constantI S_ 32 4096#32)
  normIdx v29

/-! ## Read at a row -/

theorem rows_apply (r : Fin 4096) : rows (ix1 r) = BitVec.ofNat 32 r.val := rfl

/-- An index that is the word of a number below 2^31 is left where it is. -/
theorem normIdx_apply (x : IVec S4096 32) (r : Fin 4096) (n : ℕ) (hn : n < 2 ^ 31) (h : x (ix1 r) = BitVec.ofNat 32 n) :
    normIdx x (ix1 r) = BitVec.ofNat 32 n := by
  show Scalar.select (IntOp.cmpi .slt (x (ix1 r)) 0#32) (IntOp.addi (x (ix1 r)) 4096#32) (x (ix1 r)) = _
  rw [h, slt_zero_ofNat n hn]
  exact select_zero _ _

/-- The remainder routine by 4096 at a row holding the word of a number below 2^31: the natural remainder. -/
theorem remainderOf_apply (x : IVec S4096 32) (r : Fin 4096) (n : ℕ) (hn : n < 2 ^ 31) (h : x (ix1 r) = BitVec.ofNat 32 n) :
    remainderOf x (constantI S_ 32 4096#32) (ix1 r) = BitVec.ofNat 32 (n % 4096) := by
  have hw : IntOp.remsi .host (x (ix1 r)) 4096#32 = BitVec.ofNat 32 (n % 4096) := by rw [h]; exact remsi_4096_ofNat n hn
  show Scalar.select
      (IntOp.andi
        (IntOp.cmpi .ne (IntOp.cmpi .slt (IntOp.remsi .host (x (ix1 r)) 4096#32) 0#32) (IntOp.cmpi .slt 4096#32 0#32))
        (IntOp.cmpi .ne (IntOp.remsi .host (x (ix1 r)) 4096#32) 0#32))
      (IntOp.addi (IntOp.remsi .host (x (ix1 r)) 4096#32) 4096#32)
      (IntOp.remsi .host (x (ix1 r)) 4096#32) = _
  rw [hw, slt_zero_ofNat (n % 4096) (by omega), show IntOp.cmpi .slt (4096#32) (0#32) = 0#1 from by decide,
    show IntOp.cmpi .ne (0#1) (0#1) = 0#1 from by decide,
    show ∀ c : BitVec 1, IntOp.andi 0#1 c = 0#1 from by decide]
  exact select_zero _ _

/-- The row index at row r is the word of r. -/
theorem row_word (r : Fin 4096) : rw_ (ix1 r) = BitVec.ofNat 32 r.val :=
  normIdx_apply rows r r.val (by have := r.isLt; omega) (rows_apply r)

/-- The partner index at row r is the word of the partner of r. -/
theorem partner_word (r : Fin 4096) : pw (ix1 r) = BitVec.ofNat 32 (Cert.Simclr.partner r).val := by
  have hr := r.isLt
  have h28 : addi rows (broadcastInDim S4096 (![] : Fin 0 → Fin S4096.rank) bcast_S_S4096 (constantI S_ 32 2048#32)) (ix1 r)
      = BitVec.ofNat 32 (r.val + 2048) := by
    show BitVec.ofNat 32 r.val + 2048#32 = _
    rw [BitVec.ofNat_add]
  have h29 := remainderOf_apply _ r (r.val + 2048) (by omega) h28
  have hp : (r.val + 2048) % 4096 = (Cert.Simclr.partner r).val := by
    unfold Cert.Simclr.partner
    split
    · show _ = r.val + 2048; omega
    · show _ = r.val - 2048; omega
  rw [hp] at h29
  exact normIdx_apply _ r _ (by have := (Cert.Simclr.partner r).isLt; omega) h29

end Cert.ReferenceIdeal.RefIdx

end
-- ==== Proof.RefIdxGather.lean ====
/-
  The reference's pair gather read at an index. The index array [4096, 2] is two columns [4096, 1] side by side, each a
  vector [4096] placed as a column; row r of it holds the pair (u r, v r). The gather of a 4096 × 4096 array at such
  pairs, every slice one element, reads the array at the pair, each component read signed and clamped into [0, 4095]
  — for words of numbers below 4096, the numbers themselves.
-/
import proofs.«103263_j83167746719846_2_alg».proof.ReferenceIdeal
import proofs.«103263_j83167746719846_2_alg».proof.Proof.LibHostRows
import proofs.«103263_j83167746719846_2_alg».proof.Proof.LibKerLayout
import Idealize.ShloMosaic.Lib.ValueIdx

noncomputable section

namespace Cert.ReferenceIdeal.RefIdx

open Idealize.ShloMosaic Idealize.ShloMosaic.ValueIdx

variable {α : Type}

/-- The word of a number below 2^31, read signed, is the number. -/
theorem toInt_toNat_ofNat (n : ℕ) (hn : n < 2 ^ 31) : (BitVec.ofNat 32 n).toInt.toNat = n := by
  rw [BitVec.toInt_eq_toNat_cond, BitVec.toNat_ofNat, Nat.mod_eq_of_lt (by omega), if_pos (by omega)]
  exact Int.toNat_natCast n

/-- Column 0 of the index pairs: the first vector's entry of the row. -/
theorem pair_col0_apply (u v : S4096.Idx → α) (hb : S4096.BroadcastsInDim S4096x1 (![0] : Fin 1 → Fin S4096x1.rank))
    (hc : Shape.Concatenates [S4096x1, S4096x1] S4096x2 1) (r : Fin 4096) :
    concatenate S4096x2 1 [⟨S4096x1, broadcastInDim S4096x1 ![0] hb u⟩, ⟨S4096x1, broadcastInDim S4096x1 ![0] hb v⟩] hc
      (ix2 r (0 : Fin 2)) = u (ix1 r) := by
  rw [Cert.KernelIdeal.HostValue.concat2_d1_left (broadcastInDim S4096x1 ![0] hb u) (broadcastInDim S4096x1 ![0] hb v) hc r
    (0 : Fin 2) (by decide)]
  exact Cert.LibHostRows.broadcastInDim_a_a1_apply u hb r _

/-- Column 1 of the index pairs: the second vector's entry of the row. -/
theorem pair_col1_apply (u v : S4096.Idx → α) (hb : S4096.BroadcastsInDim S4096x1 (![0] : Fin 1 → Fin S4096x1.rank))
    (hc : Shape.Concatenates [S4096x1, S4096x1] S4096x2 1) (r : Fin 4096) :
    concatenate S4096x2 1 [⟨S4096x1, broadcastInDim S4096x1 ![0] hb u⟩, ⟨S4096x1, broadcastInDim S4096x1 ![0] hb v⟩] hc
      (ix2 r (1 : Fin 2)) = v (ix1 r) := by
  rw [Cert.KernelIdeal.HostValue.concat2_d1_right (broadcastInDim S4096x1 ![0] hb u) (broadcastInDim S4096x1 ![0] hb v) hc r
    (1 : Fin 2) (by decide) (by decide)]
  exact Cert.LibHostRows.broadcastInDim_a_a1_apply v hb r _

variable [Facts]
open Facts₀ Facts

/-- The gather at row r of pairs whose row r holds the words of a and b (both below 4096) reads the array at (a, b). -/
theorem gather_pair_apply (E : S4096x4096.Idx → α) (I : IVec S4096x2 32) (r a b : Fin 4096)
    (h0 : I (ix2 r (0 : Fin 2)) = BitVec.ofNat 32 a.val) (h1 : I (ix2 r (1 : Fin 2)) = BitVec.ofNat 32 b.val) :
    Host.gather gather_S4096x4096_S4096x2_S4096_n_01_n_n_01_1_11 E I (ix1 r) = E (ix2 a b) := by
  unfold Host.gather
  congr 1
  funext ax
  refine Fin.ext ?_
  match ax with
  | ⟨0, _⟩ =>
    show gather_S4096x4096_S4096x2_S4096_n_01_n_n_01_1_11.start (ix1 r) I (0 : Fin 2)
      + gather_S4096x4096_S4096x2_S4096_n_01_n_n_01_1_11.batchCoord (ix1 r) (0 : Fin 2)
      + gather_S4096x4096_S4096x2_S4096_n_01_n_n_01_1_11.offCoord (ix1 r) (0 : Fin 2) = a.val
    rw [GatherDims.batchCoord_eq_zero _ _ _ List.not_mem_nil,
      GatherDims.offCoord_eq_zero _ _ _ (fun h => ((GatherDims.mem_sKept _ _).mp h).1 (by show (0 : Fin 2) ∈ ([0, 1] : List (Fin 2)); decide))]
    simp only [Nat.add_zero]
    unfold GatherDims.start
    rw [dif_pos (show (0 : Fin 2) ∈ gather_S4096x4096_S4096x2_S4096_n_01_n_n_01_1_11.startIndexMap by
      show (0 : Fin 2) ∈ ([0, 1] : List (Fin 2)); decide)]
    have hsi : gather_S4096x4096_S4096x2_S4096_n_01_n_n_01_1_11.siIdx (ix1 r)
        ⟨List.idxOf (0 : Fin 2) gather_S4096x4096_S4096x2_S4096_n_01_n_n_01_1_11.startIndexMap,
          List.idxOf_lt_length_iff.2 (by show (0 : Fin 2) ∈ ([0, 1] : List (Fin 2)); decide)⟩ = ix2 r (0 : Fin 2) := by
      funext c; refine Fin.ext ?_
      match c with
      | ⟨0, _⟩ => rfl
      | ⟨1, _⟩ => rfl
    rw [hsi, h0, toInt_toNat_ofNat _ (by have := a.isLt; omega)]
    show min a.val (4096 - 1) = a.val
    have := a.isLt; omega
  | ⟨1, _⟩ =>
    show gather_S4096x4096_S4096x2_S4096_n_01_n_n_01_1_11.start (ix1 r) I (1 : Fin 2)
      + gather_S4096x4096_S4096x2_S4096_n_01_n_n_01_1_11.batchCoord (ix1 r) (1 : Fin 2)
      + gather_S4096x4096_S4096x2_S4096_n_01_n_n_01_1_11.offCoord (ix1 r) (1 : Fin 2) = b.val
    rw [GatherDims.batchCoord_eq_zero _ _ _ List.not_mem_nil,
      GatherDims.offCoord_eq_zero _ _ _ (fun h => ((GatherDims.mem_sKept _ _).mp h).1 (by show (1 : Fin 2) ∈ ([0, 1] : List (Fin 2)); decide))]
    simp only [Nat.add_zero]
    unfold GatherDims.start
    rw [dif_pos (show (1 : Fin 2) ∈ gather_S4096x4096_S4096x2_S4096_n_01_n_n_01_1_11.startIndexMap by
      show (1 : Fin 2) ∈ ([0, 1] : List (Fin 2)); decide)]
    have hsi : gather_S4096x4096_S4096x2_S4096_n_01_n_n_01_1_11.siIdx (ix1 r)
        ⟨List.idxOf (1 : Fin 2) gather_S4096x4096_S4096x2_S4096_n_01_n_n_01_1_11.startIndexMap,
          List.idxOf_lt_length_iff.2 (by show (1 : Fin 2) ∈ ([0, 1] : List (Fin 2)); decide)⟩ = ix2 r (1 : Fin 2) := by
      funext c; refine Fin.ext ?_
      match c with
      | ⟨0, _⟩ => rfl
      | ⟨1, _⟩ => rfl
    rw [hsi, h1, toInt_toNat_ofNat _ (by have := b.isLt; omega)]
    show min b.val (4096 - 1) = b.val
    have := b.isLt; omega

/-- The gather at the pairs (u, v) placed as two columns: where row r's words are those of a and b, the array at (a, b). -/
theorem gather_cols_apply (E : S4096x4096.Idx → α) (u v : IVec S4096 32)
    (hb : S4096.BroadcastsInDim S4096x1 (![0] : Fin 1 → Fin S4096x1.rank))
    (hc : Shape.Concatenates [S4096x1, S4096x1] S4096x2 1) (r a b : Fin 4096)
    (hu : u (ix1 r) = BitVec.ofNat 32 a.val) (hv : v (ix1 r) = BitVec.ofNat 32 b.val) :
    Host.gather gather_S4096x4096_S4096x2_S4096_n_01_n_n_01_1_11 E
      (concatenate S4096x2 1 [⟨S4096x1, broadcastInDim S4096x1 ![0] hb u⟩, ⟨S4096x1, broadcastInDim S4096x1 ![0] hb v⟩] hc)
      (ix1 r) = E (ix2 a b) :=
  gather_pair_apply E _ r a b ((pair_col0_apply u v hb hc r).trans hu) ((pair_col1_apply u v hb hc r).trans hv)

end Cert.ReferenceIdeal.RefIdx

end
-- ==== Proof.LibIdxOne.lean ====
/-
  Indices of the smallest shapes. The indices of a vector `[n]` are its coordinates, so a sum over them is a sum over
  `Fin n` (what a reduction of a vector to a scalar sums over); and a `[1, 1]` array has exactly one index.
-/
import Idealize.ShloMosaic.Lib.ValueIdx

namespace Idealize.ShloMosaic.ValueIdx

open Idealize.ShloMosaic

/-- The indices of a vector are its coordinates. -/
def idxEquiv1 {n : Nat} : (⟨1, ![n]⟩ : Shape).Idx ≃ Fin n where
  toFun j := j 0
  invFun := ix1
  left_inv j := (eq_ix1 j).symm
  right_inv _ := rfl

/-- A sum over a vector's indices is the sum over its coordinates. -/
theorem sum_idx1 {M : Type*} [AddCommMonoid M] {n : Nat} (f : (⟨1, ![n]⟩ : Shape).Idx → M) :
    ∑ j : (⟨1, ![n]⟩ : Shape).Idx, f j = ∑ r : Fin n, f (ix1 r) :=
  Fintype.sum_equiv idxEquiv1 f (fun r => f (ix1 r)) fun j => congrArg f (eq_ix1 j)

/-- A `[1, 1]` array has one index. -/
theorem idx_1x1_unique (y : (⟨2, ![1, 1]⟩ : Shape).Idx) : y = ix2 (0 : Fin 1) (0 : Fin 1) := by
  funext a
  apply Fin.ext
  match a with
  | ⟨0, _⟩ => have := idx2_lt0 y; show (y 0).val = 0; omega
  | ⟨1, _⟩ => have := idx2_lt1 y; show (y 1).val = 0; omega

end Idealize.ShloMosaic.ValueIdx
-- ==== Proof.RefIdxTail.lean ====
/-
  The float tail of the reference read at an index, over the extended reals: the sum of a row of a square array,
  the row loss −log(P / (S − G) + ε) at a row, and the mean of the 4096 row losses.
-/
import proofs.«103263_j83167746719846_2_alg».proof.ReferenceIdeal
import proofs.«103263_j83167746719846_2_alg».proof.Proof.Spec
import proofs.«103263_j83167746719846_2_alg».proof.Proof.LibHostRows
import proofs.«103263_j83167746719846_2_alg».proof.Proof.LibIdxOne
import Idealize.ShloMosaic.Lib.IdealHost
import Idealize.ShloMosaic.PureOps.Ideal.Laws

noncomputable section

open scoped BigOperators

namespace Cert.ReferenceIdeal.RefIdx

open Idealize.ShloMosaic Idealize.ShloMosaic.ValueIdx

/-- The host's sum along the rows of a 4096 × 4096 array from the zero word, at row r: 0 + Σ_j E(r, j). -/
theorem rowsum_apply (E : FVec Ideal S4096x4096 .f32) (h1 : S4096x4096.ReducesTo [1] S4096) (h2 : 0 < S_.numel)
    (r : Fin 4096) :
    Host.reduceAdd (F := Ideal) E (constant S_ .f32 0x00000000#32) h1 h2 (ix1 r) = 0 + ∑ j : Fin 4096, E (ix2 r j) := by
  rw [Cert.LibHostRows.hostReduceAdd_rows_apply E (constant (F := Ideal) S_ .f32 0x00000000#32) h1 h2 r]
  show Ideal.ofBits .f32 0x00000000#32 + _ = _
  rw [Ideal.ofBits_zero_f32]

/-- The row loss at row r: −log(P r / (S r − G r) + ε). -/
theorem loss_mid (P S G : FVec Ideal S4096 .f32) (h : S_.BroadcastsInDim S4096 (![] : Fin 0 → Fin S4096.rank))
    (r : Fin 4096) :
    (Host.negf (Host.log (addf (Host.divf P (subf S G))
      (broadcastInDim S4096 (![] : Fin 0 → Fin S4096.rank) h (constant (F := Ideal) S_ .f32 0x322BCC77#32))))) (ix1 r)
      = - Ideal.log (Ideal.div (P (ix1 r)) (S (ix1 r) - G (ix1 r)) + Cert.Simclr.eps) := by
  show - Ideal.log (Ideal.div (P (ix1 r)) (S (ix1 r) - G (ix1 r))
    + broadcastInDim S4096 (![] : Fin 0 → Fin S4096.rank) h (constant (F := Ideal) S_ .f32 0x322BCC77#32) (ix1 r)) = _
  rw [Cert.LibHostRows.broadcastInDim_scalar_apply]
  rfl

/-- The mean of the row losses: (0 + Σ_r v r) / 4096, at the scalar shape's one index. -/
theorem loss_tail (v : FVec Ideal S4096 .f32) (h : S4096.ReducesTo [0] S_) (h2 : 0 < S_.numel) :
    Host.divf (Host.reduceAdd (F := Ideal) v (constant S_ .f32 0x00000000#32) h h2) (constant S_ .f32 0x45800000#32)
      = fun _ => Ideal.div (0 + ∑ r : Fin 4096, v (ix1 r)) Cert.Simclr.nRows := by
  funext j
  show Ideal.div (Ideal.hostReduceAdd h v (constant (F := Ideal) S_ .f32 0x00000000#32 (Shape.Idx.first h2)) j)
    (Ideal.ofBits .f32 0x45800000#32) = _
  rw [Ideal.hostReduceAdd_total h (fun b => b.elim0) v _ j, sum_idx1]
  show Ideal.div (Ideal.ofBits .f32 0x00000000#32 + _) _ = _
  rw [Ideal.ofBits_zero_f32]
  rfl

end Cert.ReferenceIdeal.RefIdx

end
-- ==== Proof.RefIdx.lean ====
/-
  The reference's integer, gather and tail part read at an index: the three modules together, and their assembly.
  RefIdxInt: the row and partner index words. RefIdxGather: the pair gather at a row. RefIdxTail: the row sum, the row
  loss and the mean. Assembled: from a 4096 × 4096 array E, the partner gather is E(r, partner r), the diagonal gather
  is E(r, r), and the whole tail is (0 + Σ_r −log(E(r, partner r) / ((0 + Σ_j E(r, j)) − E(r, r)) + ε)) / 4096.
-/
import proofs.«103263_j83167746719846_2_alg».proof.Proof.RefIdxInt
import proofs.«103263_j83167746719846_2_alg».proof.Proof.RefIdxGather
import proofs.«103263_j83167746719846_2_alg».proof.Proof.RefIdxTail

noncomputable section

open scoped BigOperators

namespace Cert.ReferenceIdeal.RefIdx

open Idealize.ShloMosaic Idealize.ShloMosaic.ValueIdx

variable [Facts]
open Facts₀ Facts

/-- The index pairs (row, partner) as the first gather reads them. -/
def pairsPartner : IVec S4096x2 32 :=
  concatenate S4096x2 1 [⟨S4096x1, broadcastInDim S4096x1 ![0] bcast_S4096_S4096x1_0 rw_⟩,
    ⟨S4096x1, broadcastInDim S4096x1 ![0] bcast_S4096_S4096x1_0 pw⟩] concatenates_S4096x1_S4096x1_S4096x2_d1

/-- The index pairs (row, row) as the second gather reads them. -/
def pairsDiag : IVec S4096x2 32 :=
  concatenate S4096x2 1 [⟨S4096x1, broadcastInDim S4096x1 ![0] bcast_S4096_S4096x1_0 rw_⟩,
    ⟨S4096x1, broadcastInDim S4096x1 ![0] bcast_S4096_S4096x1_0 rw_⟩] concatenates_S4096x1_S4096x1_S4096x2_d1

/-- The gather at the (row, partner) pairs reads E(r, partner r). -/
theorem gather_partner_apply {α : Type} (E : S4096x4096.Idx → α) (r : Fin 4096) :
    Host.gather gather_S4096x4096_S4096x2_S4096_n_01_n_n_01_1_11 E pairsPartner (ix1 r)
      = E (ix2 r (Cert.Simclr.partner r)) :=
  gather_cols_apply E rw_ pw bcast_S4096_S4096x1_0 concatenates_S4096x1_S4096x1_S4096x2_d1 r r (Cert.Simclr.partner r)
    (row_word r) (partner_word r)

/-- The gather at the (row, row) pairs reads the diagonal entry E(r, r). -/
theorem gather_diag_apply {α : Type} (E : S4096x4096.Idx → α) (r : Fin 4096) :
    Host.gather gather_S4096x4096_S4096x2_S4096_n_01_n_n_01_1_11 E pairsDiag (ix1 r) = E (ix2 r r) :=
  gather_cols_apply E rw_ rw_ bcast_S4096_S4096x1_0 concatenates_S4096x1_S4096x1_S4096x2_d1 r r r (row_word r) (row_word r)

/-- The whole tail from E: the mean over the rows of −log(E(r, partner r) / ((0 + Σ_j E(r, j)) − E(r, r)) + ε). -/
theorem tail_value (E : FVec Ideal S4096x4096 .f32) :
    Host.divf
      (Host.reduceAdd (F := Ideal)
        (Host.negf (Host.log (addf
          (Host.divf (Host.gather gather_S4096x4096_S4096x2_S4096_n_01_n_n_01_1_11 E pairsPartner)
            (subf (Host.reduceAdd (F := Ideal) E (constant S_ .f32 0x00000000#32) reducesTo_S4096x4096_S4096_d1 h_S_)
              (Host.gather gather_S4096x4096_S4096x2_S4096_n_01_n_n_01_1_11 E pairsDiag)))
          (broadcastInDim S4096 (![] : Fin 0 → Fin S4096.rank) bcast_S_S4096 (constant (F := Ideal) S_ .f32 0x322BCC77#32)))))
        (constant S_ .f32 0x00000000#32) reducesTo_S4096_S_d0 h_S_)
      (constant S_ .f32 0x45800000#32)
      = fun _ => Ideal.div (0 + ∑ r : Fin 4096,
          - Ideal.log (Ideal.div (E (ix2 r (Cert.Simclr.partner r)))
              ((0 + ∑ j : Fin 4096, E (ix2 r j)) - E (ix2 r r)) + Cert.Simclr.eps)) Cert.Simclr.nRows := by
  rw [loss_tail]
  funext _
  refine congrArg (fun s => Ideal.div (0 + s) Cert.Simclr.nRows) (Finset.sum_congr rfl fun r _ => ?_)
  rw [loss_mid, gather_partner_apply, gather_diag_apply, rowsum_apply]

end Cert.ReferenceIdeal.RefIdx

end
-- ==== Proof.RefReadLoss.lean ====
/-
  The reference's result read over the extended reals: it is the loss in the arrangement that shifts by the row
  maximum, of the 4096 normalised rows of the two arguments.

  The result term is a chain in three stretches.  The first normalises the two arguments and stacks them: the
  stacked array is z = zcat x y.  The second, from z, forms e(r,j) = exp(s(r,j)/τ − max_j s(r,j)/τ) as an array E.
  The third, from E, builds the index pairs (r, partner r) and (r, r) out of integer operations (the row numbers, the
  row numbers shifted by 2048 and reduced modulo 4096, negative values wrapped), gathers E(r, partner r) and E(r, r),
  and returns (0 + Σ_r −log(E(r, partner r) / ((0 + Σ_j E(r,j)) − E(r,r)) + ε)) / 4096.  With E(r,j) = e(r,j) that
  is lossR z.
-/
import proofs.«103263_j83167746719846_2_alg».proof.Proof.RefTerm
import proofs.«103263_j83167746719846_2_alg».proof.Proof.RefReadZ
import proofs.«103263_j83167746719846_2_alg».proof.Proof.RefReadSim
import proofs.«103263_j83167746719846_2_alg».proof.Proof.RefIdx

noncomputable section

open scoped BigOperators

namespace Cert.ReferenceIdeal.RefRead

open Idealize.ShloMosaic Idealize.ShloMosaic.ValueIdx Cert.ReferenceIdeal Cert.Simclr

variable [Cert.ReferenceIdeal.Facts]
open Facts₀ Facts

/-- The first stretch: the stacked normalised rows are zcat x y. -/
theorem part0_eq (x y : FVec Ideal S2048x1024 .f32) :
    RefTerm.refTerm (F := Ideal) x y = RefTerm.refTerm_part1 (F := Ideal) (Cert.Simclr.zcat x y) :=
  congrArg (RefTerm.refTerm_part1 (F := Ideal))
    (zhost_eq x y reducesTo_S2048x1024_S2048_d1 h_S_ bcast_S2048_S2048x1_0 bcast_S_S2048x1 bcast_S2048x1_S2048x1024_0_1
      concatenates_S2048x1024_S2048x1024_S4096x1024_d0)

/-- The second stretch: from z the array of shifted exponentials, the row numbers, and the row numbers shifted by 2048. -/
theorem part1_eq (z : FVec Ideal S4096x1024 .f32) :
    RefTerm.refTerm_part1 (F := Ideal) z
      = RefTerm.refTerm_part2 (F := Ideal) (expHost z) (iotaInDim S4096 32 0)
          (addi (iotaInDim S4096 32 0) (broadcastInDim S4096 ![] bcast_S_S4096 (constantI S_ 32 2048#32)))
          (constantI S_ 32 4096#32) := rfl

/-- The third stretch is the tail over E: its integer operations are the two index-pair arrays, its float operations
    the gathers, the row sum, the row loss and the mean. -/
theorem part2_eq (E : FVec Ideal S4096x4096 .f32) :
    RefTerm.refTerm_part2 (F := Ideal) E (iotaInDim S4096 32 0)
        (addi (iotaInDim S4096 32 0) (broadcastInDim S4096 ![] bcast_S_S4096 (constantI S_ 32 2048#32)))
        (constantI S_ 32 4096#32)
      = Host.divf
          (Host.reduceAdd (F := Ideal)
            (Host.negf (Host.log (addf
              (Host.divf (Host.gather gather_S4096x4096_S4096x2_S4096_n_01_n_n_01_1_11 E RefIdx.pairsPartner)
                (subf (Host.reduceAdd (F := Ideal) E (constant S_ .f32 0x00000000#32) reducesTo_S4096x4096_S4096_d1 h_S_)
                  (Host.gather gather_S4096x4096_S4096x2_S4096_n_01_n_n_01_1_11 E RefIdx.pairsDiag)))
              (broadcastInDim S4096 (![] : Fin 0 → Fin S4096.rank) bcast_S_S4096 (constant (F := Ideal) S_ .f32 0x322BCC77#32)))))
            (constant S_ .f32 0x00000000#32) reducesTo_S4096_S_d0 h_S_)
          (constant S_ .f32 0x45800000#32) := rfl

/-- The reference's result is the loss, in the arrangement shifting by the row maximum, of the normalised rows. -/
theorem refTerm_eq (x y : FVec Ideal S2048x1024 .f32) :
    RefTerm.refTerm (F := Ideal) x y = fun _ => Cert.Simclr.lossR (Cert.Simclr.zcat x y) := by
  rw [part0_eq]
  generalize Cert.Simclr.zcat x y = z
  rw [part1_eq]
  have hE : ∀ r j : Fin 4096, expHost z (ix2 r j) = Cert.Simclr.eR z r j := expHost_apply z
  generalize expHost z = E at hE
  rw [part2_eq, RefIdx.tail_value]
  funext _
  unfold Cert.Simclr.lossR Cert.Simclr.rowR
  simp only [hE]

end Cert.ReferenceIdeal.RefRead

end
-- ==== Proof.SpecBridgeConsts.lean ====
/-
  The two 32-bit constants whose values the bridge between the arrangements needs, as real numbers:
  τ = 9395241 / 2^27 (the float nearest 0.07), so that 1/τ = 2^27 / 9395241; and the norm's floor
  9223372 / 2^63 (the float nearest 1e-12), a positive real.
-/
import proofs.«103263_j83167746719846_2_alg».proof.Proof.Spec

noncomputable section

namespace Cert.Simclr

open Idealize.ShloMosaic

/-- τ as a quotient of integers. -/
theorem tau_eq : tau = ((9395241 / 134217728 : ℝ) : EReal) := by
  unfold tau
  simp [Ideal.ofBits, Ideal.ieee, -EReal.coe_mul]
  norm_num

/-- The norm's floor is a positive real. -/
theorem tiny_eq : tiny = ((9223372 / 9223372036854775808 : ℝ) : EReal) := by
  unfold tiny
  simp [Ideal.ofBits, Ideal.ieee, -EReal.coe_mul]
  norm_num

end Cert.Simclr

end
-- ==== Proof.LibRealClosure.lean ====
/-
  Real numbers inside the extended reals: the coercion of a finite sum, closure of "is a real number" (neither −∞ nor +∞)
  under sums and sums of products, and the one law of the extended reals' division used to trade a reciprocal for a
  quotient: `a · (1 / b) = a / b` off a zero divisor (at `b = 0 = a` the left side is `0`, the right side `−∞`).
-/
import Idealize.ShloMosaic.PureOps.Ideal

noncomputable section

namespace Cert.RealClosure

open Idealize.ShloMosaic

/-- Multiplying by the reciprocal is dividing, off a zero divisor. -/
theorem mul_div_one (a b : EReal) (hb : b ≠ 0) : a * Ideal.div 1 b = Ideal.div a b := by
  unfold Ideal.div; rw [if_neg hb, if_neg hb, one_mul]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is real. -/
theorem add_real {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  rw [← EReal.coe_add]
  exact ⟨EReal.coe_ne_bot _, EReal.coe_ne_top _⟩

/-- A finite sum of products of reals is real. -/
theorem sum_mul_real {ι : Type} (s : Finset ι) (f g : ι → EReal) (hf : ∀ i, f i ≠ ⊥ ∧ f i ≠ ⊤) (hg : ∀ i, g i ≠ ⊥ ∧ g i ≠ ⊤) :
    (∑ i ∈ s, f i * g i) ≠ ⊥ ∧ (∑ i ∈ s, f i * g i) ≠ ⊤ := by
  lift f to ι → ℝ using fun n => ⟨(hf n).2, (hf n).1⟩
  lift g to ι → ℝ using fun n => ⟨(hg n).2, (hg n).1⟩
  have : (∑ i ∈ s, (f i : EReal) * (g i : EReal)) = ((∑ i ∈ s, f i * g i : ℝ) : EReal) := by
    rw [coe_sum]; exact Finset.sum_congr rfl fun i _ => (EReal.coe_mul _ _).symm
  rw [this]
  exact ⟨EReal.coe_ne_bot _, EReal.coe_ne_top _⟩

end Cert.RealClosure

end
-- ==== Proof.SpecBridgeNorm.lean ====
/-
  Normalised rows of real arrays are real. For a row of real entries the sum of squares S is a non-negative real, so
  √(0 + S) is the real square root; the floor is a positive real, so the maximum m of the two is a positive real, and the
  quotient entry / m is the real entry · (1/m).
-/
import proofs.«103263_j83167746719846_2_alg».proof.Proof.Spec
import proofs.«103263_j83167746719846_2_alg».proof.Proof.SpecBridgeConsts
import proofs.«103263_j83167746719846_2_alg».proof.Proof.LibRealClosure

noncomputable section

open scoped BigOperators

namespace Cert.Simclr

open Idealize.ShloMosaic Idealize.ShloMosaic.ValueIdx

/-- Every entry of a normalised row of a real array is real. -/
theorem nrm_real (x : SArg.Idx → EReal) (hx : ∀ a, x a ≠ ⊥ ∧ x a ≠ ⊤) (r : Fin 2048) (k : Fin 1024) :
    nrm x r k ≠ ⊥ ∧ nrm x r k ≠ ⊤ := by
  lift x to SArg.Idx → ℝ using fun a => ⟨(hx a).2, (hx a).1⟩
  unfold nrm
  have hS : (0 : EReal) + ∑ k' : Fin 1024, (x (ix2 r k') : EReal) * (x (ix2 r k') : EReal)
      = ((∑ k' : Fin 1024, x (ix2 r k') * x (ix2 r k') : ℝ) : EReal) := by
    rw [zero_add, Cert.RealClosure.coe_sum]
    exact Finset.sum_congr rfl fun i _ => (EReal.coe_mul _ _).symm
  have hnn : ¬ (∑ k' : Fin 1024, x (ix2 r k') * x (ix2 r k')) < 0 :=
    not_lt.mpr (Finset.sum_nonneg fun i _ => mul_self_nonneg _)
  have hpos : (0 : ℝ) < max (Real.sqrt (∑ k' : Fin 1024, x (ix2 r k') * x (ix2 r k'))) (9223372 / 9223372036854775808) :=
    lt_max_of_lt_right (by norm_num)
  rw [hS, Ideal.sqrt_coe, if_neg hnn, tiny_eq, ← EReal.coe_strictMono.monotone.map_max,
    Ideal.div_coe (ne_of_gt hpos), ← EReal.coe_mul]
  exact ⟨EReal.coe_ne_bot _, EReal.coe_ne_top _⟩

/-- The stacked normalised rows of two real arrays are real. -/
theorem zcat_real (x y : SArg.Idx → EReal) (hx : ∀ a, x a ≠ ⊥ ∧ x a ≠ ⊤) (hy : ∀ a, y a ≠ ⊥ ∧ y a ≠ ⊤) :
    ∀ a, zcat x y a ≠ ⊥ ∧ zcat x y a ≠ ⊤ := by
  intro a
  unfold zcat
  split
  · exact nrm_real x hx _ _
  · exact nrm_real y hy _ _

end Cert.Simclr

end
-- ==== Proof.SpecBridgeReal.lean ====
/-
  The cancellation of the shift, first over the reals and then over the extended reals.

  For real scores t_j, a row r and a column p ≠ r, and any real shift a:
    exp(t_p − a) / Σ_{j ≠ r} exp(t_j − a) = exp(t_p) / Σ_{j ≠ r} exp(t_j),
  because exp(t − a) = exp t / exp a and the common divisor exp a ≠ 0 cancels. The sum over j ≠ r is written in two ways:
  as the full sum of the terms with the r-th replaced by 0, and as the full sum minus the r-th term. Over the extended reals
  all the quantities are real numbers (the off-diagonal sum is positive: it contains the p-th term), so both quotients are
  products with a real reciprocal, and the two arrangements' quotients coincide.
-/
import Idealize.ShloMosaic.PureOps.Ideal
import proofs.«103263_j83167746719846_2_alg».proof.Proof.LibRealClosure

noncomputable section

open scoped BigOperators

namespace Cert.Simclr

open Idealize.ShloMosaic

/-- Over ℝ the quotient by the off-diagonal sum does not depend on the shift. -/
theorem real_quot_shift {ι : Type} [Fintype ι] [DecidableEq ι] (t : ι → ℝ) (a : ℝ) (r p : ι) :
    Real.exp (t p - a) / ∑ j ∈ Finset.univ.erase r, Real.exp (t j - a)
      = Real.exp (t p) / ∑ j ∈ Finset.univ.erase r, Real.exp (t j) := by
  simp only [Real.exp_sub]
  rw [← Finset.sum_div, div_div_div_cancel_right₀ (Real.exp_ne_zero a)]

/-- The full sum with the r-th term replaced by 0 is the sum over j ≠ r. -/
theorem sum_off_eq {ι : Type} [Fintype ι] [DecidableEq ι] (f : ι → ℝ) (r : ι) :
    (∑ j, if j = r then 0 else f j) = ∑ j ∈ Finset.univ.erase r, f j := by
  rw [← Finset.sum_erase Finset.univ (f := fun j => if j = r then 0 else f j) (a := r) (if_pos rfl)]
  exact Finset.sum_congr rfl fun j hj => if_neg (Finset.ne_of_mem_erase hj)

/-- Over the extended reals: the fixed-shift quotient (diagonal term zeroed in the sum) equals the other shift's quotient
    (diagonal term subtracted from the full sum). -/
theorem quot_eq {ι : Type} [Fintype ι] [DecidableEq ι] (t : ι → ℝ) (a b : ℝ) (r p : ι) (hp : p ≠ r) :
    Ideal.div (Ideal.exp ((t p : EReal) - (a : EReal)))
        (∑ j, if j = r then (0 : EReal) else Ideal.exp ((t j : EReal) - (a : EReal)))
      = Ideal.div (Ideal.exp ((t p : EReal) - (b : EReal)))
          ((0 + ∑ j, Ideal.exp ((t j : EReal) - (b : EReal))) - Ideal.exp ((t r : EReal) - (b : EReal))) := by
  have he : ∀ (c : ℝ) (j : ι), Ideal.exp ((t j : EReal) - (c : EReal)) = ((Real.exp (t j - c) : ℝ) : EReal) := fun c j => by
    rw [← EReal.coe_sub]; rfl
  have hne : (Finset.univ.erase r : Finset ι).Nonempty := ⟨p, Finset.mem_erase.mpr ⟨hp, Finset.mem_univ p⟩⟩
  have hposA : (0 : ℝ) < ∑ j ∈ Finset.univ.erase r, Real.exp (t j - a) := Finset.sum_pos (fun j _ => Real.exp_pos _) hne
  have hposB : (0 : ℝ) < ∑ j ∈ Finset.univ.erase r, Real.exp (t j - b) := Finset.sum_pos (fun j _ => Real.exp_pos _) hne
  have hL : (∑ j, if j = r then (0 : EReal) else Ideal.exp ((t j : EReal) - (a : EReal)))
      = ((∑ j ∈ Finset.univ.erase r, Real.exp (t j - a) : ℝ) : EReal) := by
    rw [← sum_off_eq, Cert.RealClosure.coe_sum]
    refine Finset.sum_congr rfl fun j _ => ?_
    by_cases h : j = r
    · rw [if_pos h, if_pos h, EReal.coe_zero]
    · rw [if_neg h, if_neg h, he a j]
  have hsumB : (∑ j, Ideal.exp ((t j : EReal) - (b : EReal))) = ((∑ j, Real.exp (t j - b) : ℝ) : EReal) := by
    rw [Cert.RealClosure.coe_sum]
    exact Finset.sum_congr rfl fun j _ => he b j
  have hR : (0 + ∑ j, Ideal.exp ((t j : EReal) - (b : EReal))) - Ideal.exp ((t r : EReal) - (b : EReal))
      = ((∑ j ∈ Finset.univ.erase r, Real.exp (t j - b) : ℝ) : EReal) := by
    rw [zero_add, hsumB, he b r, ← EReal.coe_sub, Finset.sum_erase_eq_sub (Finset.mem_univ r)]
  rw [hL, hR, he a p, he b p, Ideal.div_coe (ne_of_gt hposA), Ideal.div_coe (ne_of_gt hposB), ← EReal.coe_mul,
    ← EReal.coe_mul, mul_one_div, mul_one_div, real_quot_shift t a r p, real_quot_shift t b r p]

end Cert.Simclr

end
-- ==== Proof.LibSoftmaxReal.lean ====
/-
  The softmax-weighted mean of finitely many real scores is a real number.

  The reference computes, per output entry, `hard = max_k s_k` and `soft = Σ_k (exp (s_k − M) / Z) · s_k` with
  `M = max_k s_k` and `Z = Σ_k exp (s_k − M)`, and returns `hard + (soft − soft)`. On the extended reals `a − a = 0` only
  for a real `a` (`∞ − ∞` is not `0`), so what has to be shown is that `soft` is real when every score is: `M` is real (a maximum
  of reals over a non-empty index set), each `exp (s_k − M)` is a positive real, so `Z` is a positive real, each quotient and
  each product is real, and so is the sum.
-/
import Idealize.ShloMosaic.PureOps.Ideal
import Mathlib.Data.Finset.Fold
import proofs.«103263_j83167746719846_2_alg».proof.Proof.LibRealClosure

noncomputable section

namespace Cert.Softmax

open Idealize.ShloMosaic

/-- A real number minus itself is zero. -/
theorem sub_self_real {a : EReal} (h : a ≠ ⊥ ∧ a ≠ ⊤) : a - a = 0 := by
  lift a to ℝ using ⟨h.2, h.1⟩
  rw [← EReal.coe_sub, sub_self, EReal.coe_zero]

/-- The maximum (the fold of `max` from `−∞`) of real numbers over a non-empty finite index set is real. -/
theorem fold_max_real {ι : Type} [Fintype ι] [Nonempty ι] (s : ι → EReal) (hs : ∀ k, s k ≠ ⊥ ∧ s k ≠ ⊤) :
    (Finset.univ : Finset ι).fold max ⊥ s ≠ ⊥ ∧ (Finset.univ : Finset ι).fold max ⊥ s ≠ ⊤ := by
  constructor
  · intro h
    obtain ⟨k⟩ := ‹Nonempty ι›
    have hle : s k ≤ (Finset.univ : Finset ι).fold max ⊥ s := by
      rw [Finset.le_fold_max]; exact Or.inr ⟨k, Finset.mem_univ k, le_refl _⟩
    rw [h] at hle
    exact (hs k).1 (le_bot_iff.mp hle)
  · have hlt : (Finset.univ : Finset ι).fold max ⊥ s < ⊤ := by
      rw [Finset.fold_max_lt]; exact ⟨bot_lt_top, fun k _ => lt_top_iff_ne_top.mpr (hs k).2⟩
    exact ne_of_lt hlt

/-- The softmax-weighted sum of real scores, shifted by a real `M`, is real. -/
theorem soft_real {ι : Type} [Fintype ι] [Nonempty ι] (s : ι → EReal) (hs : ∀ k, s k ≠ ⊥ ∧ s k ≠ ⊤) (M : EReal) (hM : M ≠ ⊥ ∧ M ≠ ⊤) :
    (0 + ∑ k, Ideal.div (Ideal.exp (s k - M)) (0 + ∑ j, Ideal.exp (s j - M)) * s k) ≠ ⊥
    ∧ (0 + ∑ k, Ideal.div (Ideal.exp (s k - M)) (0 + ∑ j, Ideal.exp (s j - M)) * s k) ≠ ⊤ := by
  lift s to ι → ℝ using fun k => ⟨(hs k).2, (hs k).1⟩
  lift M to ℝ using ⟨hM.2, hM.1⟩
  have he : ∀ k, Ideal.exp ((s k : EReal) - (M : EReal)) = ((Real.exp (s k - M) : ℝ) : EReal) := fun k => by
    rw [← EReal.coe_sub]; rfl
  have hZ : (0 : EReal) + ∑ j, Ideal.exp ((s j : EReal) - (M : EReal)) = ((∑ j, Real.exp (s j - M) : ℝ) : EReal) := by
    rw [zero_add, Cert.RealClosure.coe_sum]
    exact Finset.sum_congr rfl fun j _ => he j
  have hpos : (0 : ℝ) < ∑ j, Real.exp (s j - M) := Finset.sum_pos (fun j _ => Real.exp_pos _) Finset.univ_nonempty
  have hterm : ∀ k, Ideal.div (Ideal.exp ((s k : EReal) - (M : EReal))) (0 + ∑ j, Ideal.exp ((s j : EReal) - (M : EReal))) * (s k : EReal)
      = ((Real.exp (s k - M) * (1 / ∑ j, Real.exp (s j - M)) * s k : ℝ) : EReal) := fun k => by
    rw [hZ, Ideal.div_coe (ne_of_gt hpos), he k, ← EReal.coe_mul, ← EReal.coe_mul]
  have hsum : (0 : EReal) + ∑ k, Ideal.div (Ideal.exp ((s k : EReal) - (M : EReal))) (0 + ∑ j, Ideal.exp ((s j : EReal) - (M : EReal))) * (s k : EReal)
      = ((∑ k, Real.exp (s k - M) * (1 / ∑ j, Real.exp (s j - M)) * s k : ℝ) : EReal) := by
    rw [zero_add, Cert.RealClosure.coe_sum]
    exact Finset.sum_congr rfl fun k _ => hterm k
  rw [hsum]
  exact ⟨EReal.coe_ne_bot _, EReal.coe_ne_top _⟩

end Cert.Softmax

end
-- ==== Proof.LibErealDistrib.lean ====
/-
  Two general laws of the extended reals: subtracting from zero is negation; and a FINITE non-negative real factor
  distributes over any finite sum of extended reals — the summands may be infinite, of either sign: no finiteness
  hypothesis on them is needed (the general distributive law fails on the extended reals only when the factor is
  infinite or the summands are infinities of opposite signs scaled by a signed factor).
-/
import Mathlib.Data.EReal.Operations
import Mathlib.Data.EReal.Inv
import Mathlib.Algebra.BigOperators.Fin

noncomputable section

namespace Cert.LibErealDistrib

/-- Subtracting an extended real from zero negates it. -/
theorem zero_sub_eq_neg (x : EReal) : 0 - x = -x := by rw [sub_eq_add_neg, zero_add]

/-- A finite non-negative real factor on the right distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The same with the factor on the left. -/
theorem mul_sum_coe {ι : Type*} (s : Finset ι) (f : ι → EReal) {c : ℝ} (hc : 0 ≤ c) :
    (c : EReal) * (∑ i ∈ s, f i) = ∑ i ∈ s, (c : EReal) * f i := by
  rw [mul_comm, sum_mul_coe s f hc]
  exact Finset.sum_congr rfl fun i _ => mul_comm _ _

end Cert.LibErealDistrib

end
-- ==== Proof.SpecBridge.lean ====
/-
  The two arrangements of the contrastive loss agree on real rows.

  Fix real rows z and a row r. Each similarity s_j = Σ_k z(r,k)·z(j,k) is a real number; write c = 1/τ = 2^27/9395241 and
  t_j = s_j · c. Then the fixed-shift terms are exp(t_j − c); the quotient s_j / τ is t_j, the row maximum M of the t_j
  (finitely many reals over a non-empty index set) is real, and the other arrangement's terms are exp(t_j − M). The partner
  of r is another row, so the off-diagonal sum contains a positive term, and the two quotients
    exp(t_p − c) / Σ_{j ≠ r} exp(t_j − c)   and   exp(t_p − M) / ((0 + Σ_j exp(t_j − M)) − exp(t_r − M))
  are equal (the shift cancels). With 0 − x = −x the two row losses agree, hence so do their means.
-/
import proofs.«103263_j83167746719846_2_alg».proof.Proof.Spec
import proofs.«103263_j83167746719846_2_alg».proof.Proof.SpecBridgeConsts
import proofs.«103263_j83167746719846_2_alg».proof.Proof.SpecBridgeNorm
import proofs.«103263_j83167746719846_2_alg».proof.Proof.SpecBridgeReal
import proofs.«103263_j83167746719846_2_alg».proof.Proof.LibRealClosure
import proofs.«103263_j83167746719846_2_alg».proof.Proof.LibSoftmaxReal
import proofs.«103263_j83167746719846_2_alg».proof.Proof.LibErealDistrib

noncomputable section

open scoped BigOperators

namespace Cert.Simclr

open Idealize.ShloMosaic Idealize.ShloMosaic.ValueIdx

/-- The partner of a row is another row. -/
theorem partner_ne (r : Fin 4096) : partner r ≠ r := by
  intro h
  have hv := congrArg Fin.val h
  unfold partner at hv
  by_cases hlt : r.val < 2048
  · rw [dif_pos hlt] at hv; dsimp only at hv; omega
  · rw [dif_neg hlt] at hv; dsimp only at hv; omega

/-- On real rows the two arrangements give the same loss for every row. -/
theorem row_eq (z : SZ.Idx → EReal) (hz : ∀ a, z a ≠ ⊥ ∧ z a ≠ ⊤) (r : Fin 4096) : rowK z r = rowR z r := by
  have hsim : ∀ j, ∃ s : ℝ, sim z r j = (s : EReal) := fun j => by
    have h := Cert.RealClosure.sum_mul_real Finset.univ (fun k : Fin 1024 => z (ix2 r k)) (fun k : Fin 1024 => z (ix2 j k))
      (fun k => hz _) (fun k => hz _)
    exact ⟨(sim z r j).toReal, (EReal.coe_toReal h.2 h.1).symm⟩
  choose s hs using hsim
  have hτ : (9395241 / 134217728 : ℝ) ≠ 0 := by norm_num
  have hpK : ∀ j, pK z r j
      = Ideal.exp (((s j * (134217728 / 9395241) : ℝ) : EReal) - ((134217728 / 9395241 : ℝ) : EReal)) := fun j => by
    unfold pK invT; rw [hs j, ← EReal.coe_mul]
  have htR : ∀ j, tR z r j = ((s j * (134217728 / 9395241) : ℝ) : EReal) := fun j => by
    unfold tR; rw [hs j, tau_eq, Ideal.div_coe hτ, one_div_div, ← EReal.coe_mul]
  obtain ⟨M, hM⟩ : ∃ M : ℝ, mR z r = (M : EReal) := by
    have h := Cert.Softmax.fold_max_real (fun j : Fin 4096 => tR z r j)
      (fun j => by rw [htR j]; exact ⟨EReal.coe_ne_bot _, EReal.coe_ne_top _⟩)
    exact ⟨(mR z r).toReal, (EReal.coe_toReal h.2 h.1).symm⟩
  have heR : ∀ j, eR z r j = Ideal.exp (((s j * (134217728 / 9395241) : ℝ) : EReal) - (M : EReal)) := fun j => by
    unfold eR; rw [htR j, hM]
  have hq := quot_eq (fun j => s j * (134217728 / 9395241)) (134217728 / 9395241) M r (partner r) (partner_ne r)
  beta_reduce at hq
  unfold rowK rowR KP KL
  rw [Cert.LibErealDistrib.zero_sub_eq_neg]
  simp only [hpK, heR]
  rw [hq]

/-- On real rows the two arrangements give the same loss. -/
theorem loss_eq (z : SZ.Idx → EReal) (hz : ∀ a, z a ≠ ⊥ ∧ z a ≠ ⊤) : lossK z = lossR z := by
  unfold lossK lossR
  rw [Finset.sum_congr rfl (fun r _ => row_eq z hz r)]

end Cert.Simclr

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.PreReal.lean ====
/-
  The printed precondition "every entry of both arrays is finite", decoded: it is the conjunction (a one-bit and) of two
  reductions all(|a| < +∞), one per array. When the conjunction is 1 both reductions are 1, and each gives that every entry
  of its array is a real number (neither −∞ nor +∞).
-/
import proofs.«103263_j83167746719846_2_alg».proof.Pre_finite_inputs
import proofs.«103263_j83167746719846_2_alg».proof.Proof.LibFiniteEntries
import Idealize.ShloMosaic.Lib.Affine

noncomputable section

namespace Cert.Simclr

open Idealize.ShloMosaic

/-- If the printed finiteness precondition holds of x and y, every entry of x and of y is a real number. -/
theorem pre_real [Cert.Pre_finite_inputs.Facts] (x y : FVec Ideal Cert.Pre_finite_inputs.S2048x1024 .f32)
    (h : Cert.Pre_finite_inputs.fn (F := Ideal) x y = fun _ => 1#1) :
    (∀ a, x a ≠ ⊥ ∧ x a ≠ ⊤) ∧ (∀ a, y a ≠ ⊥ ∧ y a ≠ ⊤) := by
  have h0 := congrFun h ValueIdx.ix0
  dsimp only [Cert.Pre_finite_inputs.fn] at h0
  obtain ⟨hx, hy⟩ := IntOp.andi_eq_one.1 h0
  exact ⟨fun a => Cert.FiniteEntries.arr_real x _ _ _ hx a, fun a => Cert.FiniteEntries.arr_real y _ _ _ hy a⟩

end Cert.Simclr

end
-- ==== Proof.lean ====
/-
  The certificate of a SimCLR NT-Xent loss kernel against its jnp reference.

  The mathematics.  Two arrays of 2048 rows are normalised row by row and stacked into 4096 rows z; with
  s(r,j) = ⟨z_r, z_j⟩ the loss of row r is −log( e^{s(r,r')/τ} / Σ_{j≠r} e^{s(r,j)/τ} + ε ), r' the partner row
  (r ± 2048), and the result is the mean over the rows.  The reference shifts every exponent by the row maximum and
  obtains Σ_{j≠r} by removing the diagonal term from the full row sum; the kernel tiles the 4096 × 4096 similarity
  matrix in 8 × 2 tiles, shifts every exponent by the constant 1/τ, masks the diagonal and the partner entry inside
  each tile, and carries two row accumulators across the two column tiles.  The kernel multiplies by a folded 1/τ,
  named here as the exact reciprocal of the reference's divisor τ (the 32-bit float nearest 0.07).  On finite inputs
  every quantity is a real number, a common factor e^{−shift} cancels in the quotient, and the two programs compute
  the same extended real.

  The proof.  Both kernel programs (the printed one, read on machine words, and its idealization, read on extended
  reals) run as: host operations, the pipelined region, host operations; the region's two input windows read ONE
  array, each through half of its points-to.  Their runs are one text over the float instance.  The kernel body is
  run once per branch case; what it leaves in the accumulators and the output block is read back as the skeleton's
  pure payloads; the output array is assembled from the written-back blocks; the payloads are read index by index
  at the ideal instance.  The reference's run is its operations' composed term, read index by index.  The claims:
  the three frames from the runs, the two named-constant statements, and the equality of results.
-/
import proofs.«103263_j83167746719846_2_alg».proof.Defs
import proofs.«103263_j83167746719846_2_alg».proof.Proof.Gen.Kernel
import proofs.«103263_j83167746719846_2_alg».proof.Proof.Gen.KernelIdeal
import proofs.«103263_j83167746719846_2_alg».proof.Proof.Gen.ReferenceIdeal
import proofs.«103263_j83167746719846_2_alg».proof.Proof.Gen.Pre_finite_inputs
import proofs.«103263_j83167746719846_2_alg».proof.Proof.BSegs
import proofs.«103263_j83167746719846_2_alg».proof.Proof.BHostArgs
import proofs.«103263_j83167746719846_2_alg».proof.Proof.KValue
import proofs.«103263_j83167746719846_2_alg».proof.Proof.RefRunC
import proofs.«103263_j83167746719846_2_alg».proof.Proof.RefReadLoss
import proofs.«103263_j83167746719846_2_alg».proof.Proof.SpecBridge
import proofs.«103263_j83167746719846_2_alg».proof.Proof.PreReal
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_k : Cert.frame_Kernel := fun m ρ _ =>
  (θ_run Cert.Kernel.defs _ _).mono (fun r h c =>
    ⟨(h c _ (Cert.Kernel.KB.mem_uc Cert.Kernel.main_arg0 (by decide))).trans (Cert.Kernel.KB.W3_main_arg0 m ρ c),
     (h c _ (Cert.Kernel.KB.mem_uc Cert.Kernel.main_arg1 (by decide))).trans (Cert.Kernel.KB.W3_main_arg1 m ρ c)⟩)
    (Cert.Kernel.KB.run (F := Bits) m ρ)

/-- The idealized kernel program runs and leaves its arguments as launched. -/
theorem frame_ki : Cert.frame_KernelIdeal := fun m ρ _ =>
  (θ_run Cert.KernelIdeal.defs _ _).mono (fun _ h c => (h c).2) (Cert.KernelIdeal.KB.kernel_run m ρ)

/-- The idealized reference runs and leaves its arguments as launched. -/
theorem frame_ri : Cert.frame_ReferenceIdeal := fun m ρ _ =>
  (θ_run Cert.ReferenceIdeal.defs _ _).mono (fun _ h c => (h c).2) (Cert.ReferenceIdeal.RefRunC.run (F := Ideal) m ρ)

/-- The folded reciprocal, at both of its sites, denotes the exact reciprocal of the reference's divisor. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- On finite inputs the kernel's fixed-shift arrangement and the reference's maximum-shift arrangement of the loss
    of the stacked normalised rows are one extended real. -/
theorem algebraic : Cert.algebraic_KernelIdeal_ReferenceIdeal := by
  intro m ρ m' ρ' hpre hagree
  refine ⟨fun c => (fun _ => Cert.Simclr.lossK (Cert.Simclr.zcat (m ((c.tc : Thread Cert.KernelIdeal.nD Cert.KernelIdeal.τ).loc Cert.KernelIdeal.main_arg0)) (m ((c.tc : Thread Cert.KernelIdeal.nD Cert.KernelIdeal.τ).loc Cert.KernelIdeal.main_arg1)))),
    Cert.KernelIdeal.KB.kernel_run m ρ, ?_⟩
  refine (θ_run Cert.ReferenceIdeal.defs _ _).mono (fun _ h c => ⟨(h c).1.trans ?_, (h c).2⟩)
    (Cert.ReferenceIdeal.RefRunC.run (F := Ideal) m' ρ')
  rw [(hagree c).1, (hagree c).2, Cert.ReferenceIdeal.RefRead.refTerm_eq]
  have hr := Cert.Simclr.pre_real _ _ (hpre c)
  funext _
  exact (Cert.Simclr.loss_eq _ (Cert.Simclr.zcat_real _ _ hr.1 hr.2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
